-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x64 : Shape := ⟨2, ![4096, 64]⟩
abbrev S2x4096x64 : Shape := ⟨3, ![2, 4096, 64]⟩
abbrev S500000x32 : Shape := ⟨2, ![500000, 32]⟩
abbrev S64x32 : Shape := ⟨2, ![64, 32]⟩
abbrev S100000x32 : Shape := ⟨2, ![100000, 32]⟩
abbrev S200000x32 : Shape := ⟨2, ![200000, 32]⟩
abbrev S32x64 : Shape := ⟨2, ![32, 64]⟩
abbrev S32x32 : Shape := ⟨2, ![32, 32]⟩
abbrev S32 : Shape := ⟨1, ![32]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S100000x32 : S_.BroadcastsInDim S100000x32 (![] : Fin 0 → Fin S100000x32.rank)
  reducesTo_S100000x32_S_d0_1 : S100000x32.ReducesTo [0, 1] S_
  bcast_S_S200000x32 : S_.BroadcastsInDim S200000x32 (![] : Fin 0 → Fin S200000x32.rank)
  reducesTo_S200000x32_S_d0_1 : S200000x32.ReducesTo [0, 1] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg13 : FVec F S32 .f32) (main_v33 : IVec S_ 1) : IVec S_ 1 :=
  let main_v34 : FVec F S32 .f32 := Host.absf main_arg13
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg10 : FVec F S32x64 .f32) (main_arg11 : FVec F S32x32 .f32) (main_arg12 : FVec F S32 .f32) (main_arg13 : FVec F S32 .f32) (main_v13 : IVec S_ 1) (main_v16 : IVec S200000x32 1) : IVec S_ 1 :=
  let main_c_5 : IVec S_ 1 := constantI S_ 1 1#1
  let main_v17 : IVec S_ 1 := (fun x v => Host.reduce IntOp.andi x v reducesTo_S200000x32_S_d0_1 h_S_) main_v16 main_c_5
  let main_v18 : IVec S_ 1 := andi main_v13 main_v17
  let main_v19 : FVec F S32x64 .f32 := Host.absf main_arg10
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x32 .f32 := Host.absf main_arg11
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg12
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg13 main_v33

def fn {F : FTy → Type} [FloatOps F] (main_arg0 : IVec S4096 32) (main_arg1 : IVec S4096 32) (main_arg2 : IVec S4096x64 32) (main_arg3 : IVec S2x4096x64 32) (main_arg4 : IVec S2x4096x64 32) (main_arg5 : IVec S2x4096x64 32) (main_arg6 : FVec F S500000x32 .f32) (main_arg7 : FVec F S64x32 .f32) (main_arg8 : FVec F S100000x32 .f32) (main_arg9 : FVec F S200000x32 .f32) (main_arg10 : FVec F S32x64 .f32) (main_arg11 : FVec F S32x32 .f32) (main_arg12 : FVec F S32 .f32) (main_arg13 : FVec F S32 .f32) : IVec S_ 1 :=
  let main_v0 : FVec F S500000x32 .f32 := Host.absf main_arg6
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S64x32 .f32 := Host.absf main_arg7
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S100000x32 .f32 := Host.absf main_arg8
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S200000x32 .f32 := Host.absf main_arg9
  let main_cst_4 : FVec F S_ .f32 := constant S_ .f32 0x7F800000#32
  let main_v15 : FVec F S200000x32 .f32 := broadcastInDim S200000x32 ![] bcast_S_S200000x32 main_cst_4
  let main_v16 : IVec S200000x32 1 := cmpf .olt main_v14 main_v15
  fn_part1 (F := F) main_arg10 main_arg11 main_arg12 main_arg13 main_v13 main_v16
-- ==== Kernel.lean ====
abbrev S4096 : Shape := ⟨1, ![4096]⟩
abbrev S4096x64 : Shape := ⟨2, ![4096, 64]⟩
abbrev S2x4096x64 : Shape := ⟨3, ![2, 4096, 64]⟩
abbrev S500000x32 : Shape := ⟨2, ![500000, 32]⟩
abbrev S64x32 : Shape := ⟨2, ![64, 32]⟩
abbrev S100000x32 : Shape := ⟨2, ![100000, 32]⟩
abbrev S200000x32 : Shape := ⟨2, ![200000, 32]⟩
abbrev S32x64 : Shape := ⟨2, ![32, 64]⟩
abbrev S32x32 : Shape := ⟨2, ![32, 32]⟩
abbrev S32 : Shape := ⟨1, ![32]⟩
abbrev S_ : Shape := ⟨0, ![]⟩
abbrev S4096x64x1 : Shape := ⟨3, ![4096, 64, 1]⟩
abbrev S4096x64x32 : Shape := ⟨3, ![4096, 64, 32]⟩
abbrev S2x4096x64x1 : Shape := ⟨4, ![2, 4096, 64, 1]⟩
abbrev S2x4096x64x32 : Shape := ⟨4, ![2, 4096, 64, 32]⟩
abbrev S1x32 : Shape := ⟨2, ![1, 32]⟩
abbrev S4096x32 : Shape := ⟨2, ![4096, 32]⟩
abbrev S512x64x32 : Shape := ⟨3, ![512, 64, 32]⟩
abbrev S512x32 : Shape := ⟨2, ![512, 32]⟩
abbrev S1x512x64x32 : Shape := ⟨4, ![1, 512, 64, 32]⟩
abbrev S512x64x64 : Shape := ⟨3, ![512, 64, 64]⟩
abbrev S512x64 : Shape := ⟨2, ![512, 64]⟩
abbrev S512 : Shape := ⟨1, ![512]⟩
abbrev S512x1 : Shape := ⟨2, ![512, 1]⟩
abbrev S512x64x1 : Shape := ⟨3, ![512, 64, 1]⟩
abbrev S32768x64 : Shape := ⟨2, ![32768, 64]⟩
abbrev S32768x32 : Shape := ⟨2, ![32768, 32]⟩
abbrev S4096x1 : Shape := ⟨2, ![4096, 1]⟩

abbrev nBuf : Space → Nat
  | .hbm => 103
  | .vmem => 17
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x64, .i32⟩
  | .hbm, ⟨3, _⟩ => ⟨S2x4096x64, .i32⟩
  | .hbm, ⟨4, _⟩ => ⟨S2x4096x64, .i32⟩
  | .hbm, ⟨5, _⟩ => ⟨S2x4096x64, .i32⟩
  | .hbm, ⟨6, _⟩ => ⟨S500000x32, .f32⟩
  | .hbm, ⟨7, _⟩ => ⟨S64x32, .f32⟩
  | .hbm, ⟨8, _⟩ => ⟨S100000x32, .f32⟩
  | .hbm, ⟨9, _⟩ => ⟨S200000x32, .f32⟩
  | .hbm, ⟨10, _⟩ => ⟨S32x64, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S_, .i32⟩
  | .hbm, ⟨15, _⟩ => ⟨S4096x64, .i32⟩
  | .hbm, ⟨16, _⟩ => ⟨S4096x64, .i1⟩
  | .hbm, ⟨17, _⟩ => ⟨S_, .i32⟩
  | .hbm, ⟨18, _⟩ => ⟨S4096x64, .i32⟩
  | .hbm, ⟨19, _⟩ => ⟨S4096x64, .i32⟩
  | .hbm, ⟨20, _⟩ => ⟨S4096x64, .i32⟩
  | .hbm, ⟨21, _⟩ => ⟨S4096x64x1, .i32⟩
  | .hbm, ⟨22, _⟩ => ⟨S4096x64x32, .f32⟩
  | .hbm, ⟨23, _⟩ => ⟨S4096x64x32, .bf16⟩
  | .hbm, ⟨24, _⟩ => ⟨S_, .i32⟩
  | .hbm, ⟨25, _⟩ => ⟨S2x4096x64, .i32⟩
  | .hbm, ⟨26, _⟩ => ⟨S2x4096x64, .i1⟩
  | .hbm, ⟨27, _⟩ => ⟨S_, .i32⟩
  | .hbm, ⟨28, _⟩ => ⟨S2x4096x64, .i32⟩
  | .hbm, ⟨29, _⟩ => ⟨S2x4096x64, .i32⟩
  | .hbm, ⟨30, _⟩ => ⟨S2x4096x64, .i32⟩
  | .hbm, ⟨31, _⟩ => ⟨S2x4096x64x1, .i32⟩
  | .hbm, ⟨32, _⟩ => ⟨S2x4096x64x32, .f32⟩
  | .hbm, ⟨33, _⟩ => ⟨S2x4096x64x32, .bf16⟩
  | .hbm, ⟨34, _⟩ => ⟨S_, .i32⟩
  | .hbm, ⟨35, _⟩ => ⟨S2x4096x64, .i32⟩
  | .hbm, ⟨36, _⟩ => ⟨S2x4096x64, .i1⟩
  | .hbm, ⟨37, _⟩ => ⟨S_, .i32⟩
  | .hbm, ⟨38, _⟩ => ⟨S2x4096x64, .i32⟩
  | .hbm, ⟨39, _⟩ => ⟨S2x4096x64, .i32⟩
  | .hbm, ⟨40, _⟩ => ⟨S2x4096x64, .i32⟩
  | .hbm, ⟨41, _⟩ => ⟨S2x4096x64x1, .i32⟩
  | .hbm, ⟨42, _⟩ => ⟨S2x4096x64x32, .f32⟩
  | .hbm, ⟨43, _⟩ => ⟨S2x4096x64x32, .bf16⟩
  | .hbm, ⟨44, _⟩ => ⟨S_, .i32⟩
  | .hbm, ⟨45, _⟩ => ⟨S2x4096x64, .i32⟩
  | .hbm, ⟨46, _⟩ => ⟨S2x4096x64, .i1⟩
  | .hbm, ⟨47, _⟩ => ⟨S_, .i32⟩
  | .hbm, ⟨48, _⟩ => ⟨S2x4096x64, .i32⟩
  | .hbm, ⟨49, _⟩ => ⟨S2x4096x64, .i32⟩
  | .hbm, ⟨50, _⟩ => ⟨S2x4096x64, .i32⟩
  | .hbm, ⟨51, _⟩ => ⟨S2x4096x64x1, .i32⟩
  | .hbm, ⟨52, _⟩ => ⟨S2x4096x64x32, .f32⟩
  | .hbm, ⟨53, _⟩ => ⟨S2x4096x64x32, .bf16⟩
  | .hbm, ⟨54, _⟩ => ⟨S64x32, .f32⟩
  | .hbm, ⟨55, _⟩ => ⟨S64x32, .bf16⟩
  | .hbm, ⟨56, _⟩ => ⟨S32x32, .f32⟩
  | .hbm, ⟨57, _⟩ => ⟨S32x32, .bf16⟩
  | .hbm, ⟨58, _⟩ => ⟨S1x32, .f32⟩
  | .hbm, ⟨59, _⟩ => ⟨S1x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x32, .f32⟩
  | .hbm, ⟨72, _⟩ => ⟨S4096x32, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x32, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S_, .f32⟩
  | .hbm, ⟨101, _⟩ => ⟨S4096, .f32⟩
  | .hbm, ⟨102, _⟩ => ⟨S4096, .f32⟩
  | .local _ .vmem, ⟨0, _⟩ => ⟨S512x64x32, .bf16⟩
  | .local _ .vmem, ⟨1, _⟩ => ⟨S512x64x32, .bf16⟩
  | .local _ .vmem, ⟨2, _⟩ => ⟨S512x32, .f32⟩
  | .local _ .vmem, ⟨3, _⟩ => ⟨S512x32, .f32⟩
  | .local _ .vmem, ⟨4, _⟩ => ⟨S1x512x64x32, .bf16⟩
  | .local _ .vmem, ⟨5, _⟩ => ⟨S1x512x64x32, .bf16⟩
  | .local _ .vmem, ⟨6, _⟩ => ⟨S1x512x64x32, .bf16⟩
  | .local _ .vmem, ⟨7, _⟩ => ⟨S1x512x64x32, .bf16⟩
  | .local _ .vmem, ⟨8, _⟩ => ⟨S1x512x64x32, .bf16⟩
  | .local _ .vmem, ⟨9, _⟩ => ⟨S1x512x64x32, .bf16⟩
  | .local _ .vmem, ⟨10, _⟩ => ⟨S64x32, .bf16⟩
  | .local _ .vmem, ⟨11, _⟩ => ⟨S32x32, .bf16⟩
  | .local _ .vmem, ⟨12, _⟩ => ⟨S1x32, .f32⟩
  | .local _ .vmem, ⟨13, _⟩ => ⟨S1x32, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x512x64x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x64x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bitsLt_bf16_f32 : FTy.bits .bf16 < FTy.bits .f32
  bcast_S_S2x4096x64 : S_.BroadcastsInDim S2x4096x64 (![] : Fin 0 → Fin S2x4096x64.rank)
  bcast_S2x4096x64_S2x4096x64x1_0_1_2 : S2x4096x64.BroadcastsInDim S2x4096x64x1 (![0, 1, 2] : Fin 3 → Fin S2x4096x64x1.rank)
  transposes_S32x64_S64x32_1_0 : S32x64.Transposes [1, 0] S64x32
  transposes_S32x32_S32x32_1_0 : S32x32.Transposes [1, 0] S32x32
  shapeCasts_S32_S1x32 : S32.ShapeCasts S1x32
  inb_S512x64x32_S512x64x32_0_0_0 : ∀ a, (![0, 0, 0] : Fin 3 → Nat) a + S512x64x32.size a ≤ S512x64x32.size a
  h_S512x64x32 : 0 < S512x64x32.numel
  shapeCasts_S512x64x32_S512x64x32 : S512x64x32.ShapeCasts S512x64x32
  reduces_S512x64x32_S512x32 : S512x64x32.Reduces [1] S512x32
  inb_S512x32_S512x32_0_0 : ∀ a, (![0, 0] : Fin 2 → Nat) a + S512x32.size a ≤ S512x32.size a
  h_S512x32 : 0 < S512x32.numel
  inb_S1x512x64x32_S1x512x64x32_0_0_0_0 : ∀ a, (![0, 0, 0, 0] : Fin 4 → Nat) a + S1x512x64x32.size a ≤ S1x512x64x32.size a
  h_S1x512x64x32 : 0 < S1x512x64x32.numel
  shapeCasts_S1x512x64x32_S512x64x32 : S1x512x64x32.ShapeCasts S512x64x32
  concatenates_S512x64x32_S512x64x32_S512x64x64_d2 : Shape.Concatenates [S512x64x32, S512x64x32] S512x64x64 2
  reduces_S512x64x64_S512x64 : S512x64x64.Reduces [2] S512x64
  reduces_S512x64_S512 : S512x64.Reduces [1] S512
  shapeCasts_S512_S512x1 : S512.ShapeCasts S512x1
  broadcasts_S512x1_S512x64 : S512x1.Broadcasts S512x64
  shapeCasts_S512x64_S512x64x1 : S512x64.ShapeCasts S512x64x1
  shapeCasts_S512x64x64_S32768x64 : S512x64x64.ShapeCasts S32768x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32768x32 : S1x32.Broadcasts S32768x32
  shapeCasts_S32768x32_S512x64x32 : S32768x32.ShapeCasts S512x64x32
  broadcasts_S512x64x1_S512x64x32 : S512x64x1.Broadcasts S512x64x32
  shapeCasts_S512x32_S512x32 : S512x32.ShapeCasts S512x32
  bcast_S_S4096 : S_.BroadcastsInDim S4096 (![] : Fin 0 → Fin S4096.rank)
  bcast_S4096_S4096x1_0 : S4096.BroadcastsInDim S4096x1 (![0] : Fin 1 → Fin S4096x1.rank)
  reducesTo_S4096x32_S4096_d1 : S4096x32.ReducesTo [1] S4096
  h_S_ : 0 < S_.numel
  gather_S500000x32_S4096x64x1_S4096x64x32_2_0_n_n_0_2_132_wf : GatherDims.WF S500000x32 S4096x64x1 S4096x64x32 [2] [0] [] [0] [] 2 ![1, 32]
  gather_S500000x32_S2x4096x64x1_S2x4096x64x32_3_0_n_n_0_3_132_wf : GatherDims.WF S500000x32 S2x4096x64x1 S2x4096x64x32 [3] [0] [] [0] [] 3 ![1, 32]
  gather_S64x32_S2x4096x64x1_S2x4096x64x32_3_0_n_n_0_3_132_wf : GatherDims.WF S64x32 S2x4096x64x1 S2x4096x64x32 [3] [0] [] [0] [] 3 ![1, 32]
  dot_S32768x64_S64x32_S32768x32_1_0_0_1_n_n_wf : DotDims.WF S32768x64 S64x32 S32768x32 [1] [0] [0] [1] [] []
  dot_S32768x32_S32x32_S32768x32_1_0_0_1_n_n_wf : DotDims.WF S32768x32 S32x32 S32768x32 [1] [0] [0] [1] [] []
  gather_S100000x32_S4096x1_S4096x32_1_0_n_n_0_1_132_wf : GatherDims.WF S100000x32 S4096x1 S4096x32 [1] [0] [] [0] [] 1 ![1, 32]
  gather_S500000x32_S4096x1_S4096x32_1_0_n_n_0_1_132_wf : GatherDims.WF S500000x32 S4096x1 S4096x32 [1] [0] [] [0] [] 1 ![1, 32]
  gather_S200000x32_S4096x1_S4096x32_1_0_n_n_0_1_132_wf : GatherDims.WF S200000x32 S4096x1 S4096x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x32.size a ≤ S4096x64x32.size a
  hwx0_0 : ∀ i : grid0.Coords, EltTy.bits .bf16 = 32 ∨ (Rect.block (s := S4096x64x32) S512x64x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64x32.size a ≤ S2x4096x64x32.size a
  hwx1_0 : ∀ i : grid1.Coords, EltTy.bits .bf16 = 32 ∨ (Rect.block (s := S2x4096x64x32) S1x512x64x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64x32.size a ≤ S2x4096x64x32.size a
  hwx1_1 : ∀ i : grid1.Coords, EltTy.bits .bf16 = 32 ∨ (Rect.block (s := S2x4096x64x32) S1x512x64x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64x32.size a ≤ S2x4096x64x32.size a
  hwx1_2 : ∀ i : grid1.Coords, EltTy.bits .bf16 = 32 ∨ (Rect.block (s := S2x4096x64x32) S1x512x64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .bf16 = 32 ∨ (Rect.block (s := S32x32) S32x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x32.size a ≤ S4096x32.size a
  hwx1_7 : ∀ i : grid1.Coords, EltTy.bits .f32 = 32 ∨ (Rect.block (s := S4096x32) S512x32.size (cc1_transform_7 i) (hinb1_7 i)).WholeWords (EltTy.packing .f32)

variable [Facts₀]

def gather_S500000x32_S4096x64x1_S4096x64x32_2_0_n_n_0_2_132 : GatherDims S500000x32 S4096x64x1 S4096x64x32 where
  offsetDims := [2]
  collapsedSliceDims := [0]
  operandBatchingDims := []
  startIndicesBatchingDims := []
  startIndexMap := [0]
  indexVectorDim := 2
  sliceSizes := ![1, 32]
  wf := gather_S500000x32_S4096x64x1_S4096x64x32_2_0_n_n_0_2_132_wf
def gather_S500000x32_S2x4096x64x1_S2x4096x64x32_3_0_n_n_0_3_132 : GatherDims S500000x32 S2x4096x64x1 S2x4096x64x32 where
  offsetDims := [3]
  collapsedSliceDims := [0]
  operandBatchingDims := []
  startIndicesBatchingDims := []
  startIndexMap := [0]
  indexVectorDim := 3
  sliceSizes := ![1, 32]
  wf := gather_S500000x32_S2x4096x64x1_S2x4096x64x32_3_0_n_n_0_3_132_wf
def gather_S64x32_S2x4096x64x1_S2x4096x64x32_3_0_n_n_0_3_132 : GatherDims S64x32 S2x4096x64x1 S2x4096x64x32 where
  offsetDims := [3]
  collapsedSliceDims := [0]
  operandBatchingDims := []
  startIndicesBatchingDims := []
  startIndexMap := [0]
  indexVectorDim := 3
  sliceSizes := ![1, 32]
  wf := gather_S64x32_S2x4096x64x1_S2x4096x64x32_3_0_n_n_0_3_132_wf
def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def gather_S500000x32_S4096x1_S4096x32_1_0_n_n_0_1_132 : GatherDims S500000x32 S4096x1 S4096x32 where
  offsetDims := [1]
  collapsedSliceDims := [0]
  operandBatchingDims := []
  startIndicesBatchingDims := []
  startIndexMap := [0]
  indexVectorDim := 1
  sliceSizes := ![1, 32]
  wf := gather_S500000x32_S4096x1_S4096x32_1_0_n_n_0_1_132_wf
def gather_S200000x32_S4096x1_S4096x32_1_0_n_n_0_1_132 : GatherDims S200000x32 S4096x1 S4096x32 where
  offsetDims := [1]
  collapsedSliceDims := [0]
  operandBatchingDims := []
  startIndicesBatchingDims := []
  startIndexMap := [0]
  indexVectorDim := 1
  sliceSizes := ![1, 32]
  wf := gather_S200000x32_S4096x1_S4096x32_1_0_n_n_0_1_132_wf

abbrev win0_0 : Pipeline.Window sig grid0 :=
  Pipeline.Window.ofSpec (Memref.whole main_v7) S512x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S512x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S1x512x64x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x512x64x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x512x64x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S512x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096 : Shape := ⟨1, ![4096]⟩
abbrev S4096x64 : Shape := ⟨2, ![4096, 64]⟩
abbrev S2x4096x64 : Shape := ⟨3, ![2, 4096, 64]⟩
abbrev S500000x32 : Shape := ⟨2, ![500000, 32]⟩
abbrev S64x32 : Shape := ⟨2, ![64, 32]⟩
abbrev S100000x32 : Shape := ⟨2, ![100000, 32]⟩
abbrev S200000x32 : Shape := ⟨2, ![200000, 32]⟩
abbrev S32x64 : Shape := ⟨2, ![32, 64]⟩
abbrev S32x32 : Shape := ⟨2, ![32, 32]⟩
abbrev S32 : Shape := ⟨1, ![32]⟩
abbrev S_ : Shape := ⟨0, ![]⟩
abbrev S4096x64x1 : Shape := ⟨3, ![4096, 64, 1]⟩
abbrev S4096x64x32 : Shape := ⟨3, ![4096, 64, 32]⟩
abbrev S4096x32 : Shape := ⟨2, ![4096, 32]⟩
abbrev S1x4096x64 : Shape := ⟨3, ![1, 4096, 64]⟩
abbrev S4096x64x64 : Shape := ⟨3, ![4096, 64, 64]⟩
abbrev S4096x1 : Shape := ⟨2, ![4096, 1]⟩
abbrev S1x1x32 : Shape := ⟨3, ![1, 1, 32]⟩

abbrev nBuf : Space → Nat
  | .hbm => 217
  | .vmem => 0
  | .smem => 0
  | _ => 0

abbrev hbmTy0_0 (i : Nat) : BufTy := match i % 128 with
  | 0 => ⟨S4096, .i32⟩
  | 1 => ⟨S4096, .i32⟩
  | 2 => ⟨S4096x64, .i32⟩
  | 3 => ⟨S2x4096x64, .i32⟩
  | 4 => ⟨S2x4096x64, .i32⟩
  | 5 => ⟨S2x4096x64, .i32⟩
  | 6 => ⟨S500000x32, .f32⟩
  | 7 => ⟨S64x32, .f32⟩
  | 8 => ⟨S100000x32, .f32⟩
  | 9 => ⟨S200000x32, .f32⟩
  | 10 => ⟨S32x64, .f32⟩
  | 11 => ⟨S32x32, .f32⟩
  | 12 => ⟨S32, .f32⟩
  | 13 => ⟨S32, .f32⟩
  | 14 => ⟨S_, .i32⟩
  | 15 => ⟨S4096x64, .i32⟩
  | 16 => ⟨S4096x64, .i1⟩
  | 17 => ⟨S_, .i32⟩
  | 18 => ⟨S4096x64, .i32⟩
  | 19 => ⟨S4096x64, .i32⟩
  | 20 => ⟨S4096x64, .i32⟩
  | 21 => ⟨S4096x64x1, .i32⟩
  | 22 => ⟨S4096x64x32, .f32⟩
  | 23 => ⟨S_, .f32⟩
  | 24 => ⟨S4096x32, .f32⟩
  | 25 => ⟨S1x4096x64, .i32⟩
  | 26 => ⟨S4096x64, .i32⟩
  | 27 => ⟨S_, .i32⟩
  | 28 => ⟨S4096x64, .i32⟩
  | 29 => ⟨S4096x64, .i1⟩
  | 30 => ⟨S_, .i32⟩
  | 31 => ⟨S4096x64, .i32⟩
  | 32 => ⟨S4096x64, .i32⟩
  | 33 => ⟨S4096x64, .i32⟩
  | 34 => ⟨S4096x64x1, .i32⟩
  | 35 => ⟨S4096x64x32, .f32⟩
  | 36 => ⟨S1x4096x64, .i32⟩
  | 37 => ⟨S4096x64, .i32⟩
  | 38 => ⟨S_, .i32⟩
  | 39 => ⟨S4096x64, .i32⟩
  | 40 => ⟨S4096x64, .i1⟩
  | 41 => ⟨S_, .i32⟩
  | 42 => ⟨S4096x64, .i32⟩
  | 43 => ⟨S4096x64, .i32⟩
  | 44 => ⟨S4096x64, .i32⟩
  | 45 => ⟨S4096x64x1, .i32⟩
  | 46 => ⟨S4096x64x32, .f32⟩
  | 47 => ⟨S1x4096x64, .i32⟩
  | 48 => ⟨S4096x64, .i32⟩
  | 49 => ⟨S_, .i32⟩
  | 50 => ⟨S4096x64, .i32⟩
  | 51 => ⟨S4096x64, .i1⟩
  | 52 => ⟨S_, .i32⟩
  | 53 => ⟨S4096x64, .i32⟩
  | 54 => ⟨S4096x64, .i32⟩
  | 55 => ⟨S4096x64, .i32⟩
  | 56 => ⟨S4096x64x1, .i32⟩
  | 57 => ⟨S4096x64x32, .f32⟩
  | 58 => ⟨S4096x64x64, .f32⟩
  | 59 => ⟨S4096x64x64, .f32⟩
  | 60 => ⟨S4096x64x64, .f32⟩
  | 61 => ⟨S_, .f32⟩
  | 62 => ⟨S4096x64, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x64, .f32⟩
  | 70 => ⟨S4096x64, .f32⟩
  | 71 => ⟨S4096x64, .f32⟩
  | 72 => ⟨S_, .f32⟩
  | 73 => ⟨S4096, .f32⟩
  | 74 => ⟨S4096x1, .f32⟩
  | 75 => ⟨S4096x64, .f32⟩
  | 76 => ⟨S4096x64, .f32⟩
  | 77 => ⟨S4096x64x1, .f32⟩
  | 78 => ⟨S4096x64x32, .f32⟩
  | 79 => ⟨S1x1x32, .f32⟩
  | 80 => ⟨S4096x64x32, .f32⟩
  | 81 => ⟨S4096x64x32, .f32⟩
  | 82 => ⟨S1x1x32, .f32⟩
  | 83 => ⟨S4096x64x32, .f32⟩
  | 84 => ⟨S4096x64x32, .f32⟩
  | 85 => ⟨S4096x64x32, .f32⟩
  | 86 => ⟨S4096x64x32, .f32⟩
  | 87 => ⟨S4096x64x32, .f32⟩
  | 88 => ⟨S4096x64x32, .f32⟩
  | 89 => ⟨S1x1x32, .f32⟩
  | 90 => ⟨S4096x64x32, .f32⟩
  | 91 => ⟨S4096x64x32, .f32⟩
  | 92 => ⟨S1x1x32, .f32⟩
  | 93 => ⟨S4096x64x32, .f32⟩
  | 94 => ⟨S4096x64x32, .f32⟩
  | 95 => ⟨S4096x64x32, .f32⟩
  | 96 => ⟨S4096x64x32, .f32⟩
  | 97 => ⟨S4096x64x32, .f32⟩
  | 98 => ⟨S_, .f32⟩
  | 99 => ⟨S4096x32, .f32⟩
  | 100 => ⟨S4096x32, .f32⟩
  | 101 => ⟨S1x4096x64, .i32⟩
  | 102 => ⟨S4096x64, .i32⟩
  | 103 => ⟨S_, .i32⟩
  | 104 => ⟨S4096x64, .i32⟩
  | 105 => ⟨S4096x64, .i1⟩
  | 106 => ⟨S_, .i32⟩
  | 107 => ⟨S4096x64, .i32⟩
  | 108 => ⟨S4096x64, .i32⟩
  | 109 => ⟨S4096x64, .i32⟩
  | 110 => ⟨S4096x64x1, .i32⟩
  | 111 => ⟨S4096x64x32, .f32⟩
  | 112 => ⟨S1x4096x64, .i32⟩
  | 113 => ⟨S4096x64, .i32⟩
  | 114 => ⟨S_, .i32⟩
  | 115 => ⟨S4096x64, .i32⟩
  | 116 => ⟨S4096x64, .i1⟩
  | 117 => ⟨S_, .i32⟩
  | 118 => ⟨S4096x64, .i32⟩
  | 119 => ⟨S4096x64, .i32⟩
  | 120 => ⟨S4096x64, .i32⟩
  | 121 => ⟨S4096x64x1, .i32⟩
  | 122 => ⟨S4096x64x32, .f32⟩
  | 123 => ⟨S1x4096x64, .i32⟩
  | 124 => ⟨S4096x64, .i32⟩
  | 125 => ⟨S_, .i32⟩
  | 126 => ⟨S4096x64, .i32⟩
  | 127 => ⟨S4096x64, .i1⟩
  | _ => ⟨S4096, .i32⟩

abbrev hbmTy0_1 (i : Nat) : BufTy := match i % 128 with
  | 0 => ⟨S_, .i32⟩
  | 1 => ⟨S4096x64, .i32⟩
  | 2 => ⟨S4096x64, .i32⟩
  | 3 => ⟨S4096x64, .i32⟩
  | 4 => ⟨S4096x64x1, .i32⟩
  | 5 => ⟨S4096x64x32, .f32⟩
  | 6 => ⟨S4096x64x64, .f32⟩
  | 7 => ⟨S4096x64x64, .f32⟩
  | 8 => ⟨S4096x64x64, .f32⟩
  | 9 => ⟨S_, .f32⟩
  | 10 => ⟨S4096x64, .f32⟩
  | 11 => ⟨S_, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096x64, .f32⟩
  | 18 => ⟨S4096x64, .f32⟩
  | 19 => ⟨S4096x64, .f32⟩
  | 20 => ⟨S_, .f32⟩
  | 21 => ⟨S4096, .f32⟩
  | 22 => ⟨S4096x1, .f32⟩
  | 23 => ⟨S4096x64, .f32⟩
  | 24 => ⟨S4096x64, .f32⟩
  | 25 => ⟨S4096x64x1, .f32⟩
  | 26 => ⟨S4096x64x32, .f32⟩
  | 27 => ⟨S1x1x32, .f32⟩
  | 28 => ⟨S4096x64x32, .f32⟩
  | 29 => ⟨S4096x64x32, .f32⟩
  | 30 => ⟨S1x1x32, .f32⟩
  | 31 => ⟨S4096x64x32, .f32⟩
  | 32 => ⟨S4096x64x32, .f32⟩
  | 33 => ⟨S4096x64x32, .f32⟩
  | 34 => ⟨S4096x64x32, .f32⟩
  | 35 => ⟨S4096x64x32, .f32⟩
  | 36 => ⟨S4096x64x32, .f32⟩
  | 37 => ⟨S1x1x32, .f32⟩
  | 38 => ⟨S4096x64x32, .f32⟩
  | 39 => ⟨S4096x64x32, .f32⟩
  | 40 => ⟨S1x1x32, .f32⟩
  | 41 => ⟨S4096x64x32, .f32⟩
  | 42 => ⟨S4096x64x32, .f32⟩
  | 43 => ⟨S4096x64x32, .f32⟩
  | 44 => ⟨S4096x64x32, .f32⟩
  | 45 => ⟨S4096x64x32, .f32⟩
  | 46 => ⟨S_, .f32⟩
  | 47 => ⟨S4096x32, .f32⟩
  | 48 => ⟨S4096x32, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x32, .f32⟩
  | 58 => ⟨S4096x32, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x32, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x32, .f32⟩
  | 77 => ⟨S4096x32, .f32⟩
  | 78 => ⟨S4096x32, .f32⟩
  | 79 => ⟨S_, .f32⟩
  | 80 => ⟨S4096, .f32⟩
  | 81 => ⟨S4096, .f32⟩
  | 82 => ⟨S4096, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_14 : Ref sig .tc := ⟨.hbm, 114, rfl⟩
abbrev main_v84 : Ref sig .tc := ⟨.hbm, 115, rfl⟩
abbrev main_v85 : Ref sig .tc := ⟨.hbm, 116, rfl⟩
abbrev main_c_15 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_16 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_18 : Ref sig .tc := ⟨.hbm, 137, rfl⟩
abbrev main_v103 : Ref sig .tc := ⟨.hbm, 138, rfl⟩
abbrev main_cst_19 : Ref sig .tc := ⟨.hbm, 139, rfl⟩
abbrev main_v104 : Ref sig .tc := ⟨.hbm, 140, rfl⟩
abbrev main_cst_20 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_21 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_22 : Ref sig .tc := ⟨.hbm, 174, rfl⟩
abbrev main_v136 : Ref sig .tc := ⟨.hbm, 175, rfl⟩
abbrev main_v137 : Ref sig .tc := ⟨.hbm, 176, rfl⟩
abbrev main_c_23 : Ref sig .tc := ⟨.hbm, 177, rfl⟩
abbrev main_v138 : Ref sig .tc := ⟨.hbm, 178, rfl⟩
abbrev main_v139 : Ref sig .tc := ⟨.hbm, 179, rfl⟩
abbrev main_c_24 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_c_25 : Ref sig .tc := ⟨.hbm, 187, rfl⟩
abbrev main_v146 : Ref sig .tc := ⟨.hbm, 188, rfl⟩
abbrev main_v147 : Ref sig .tc := ⟨.hbm, 189, rfl⟩
abbrev main_c_26 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_27 : Ref sig .tc := ⟨.hbm, 196, rfl⟩
abbrev main_v153 : Ref sig .tc := ⟨.hbm, 197, rfl⟩
abbrev main_v154 : Ref sig .tc := ⟨.hbm, 198, rfl⟩
abbrev main_c_28 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_29 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_30 : Ref sig .tc := ⟨.hbm, 211, rfl⟩
abbrev main_v165 : Ref sig .tc := ⟨.hbm, 212, rfl⟩
abbrev main_v166 : Ref sig .tc := ⟨.hbm, 213, rfl⟩
abbrev main_cst_31 : Ref sig .tc := ⟨.hbm, 214, rfl⟩
abbrev main_v167 : Ref sig .tc := ⟨.hbm, 215, rfl⟩
abbrev main_v168 : Ref sig .tc := ⟨.hbm, 216, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  reducesTo_S4096x64x32_S4096x32_d1 : S4096x64x32.ReducesTo [1] S4096x32
  h_S_ : 0 < S_.numel
  slices_S2x4096x64_S1x4096x64_0_0_0 : S2x4096x64.Slices ![0, 0, 0] S1x4096x64
  shapeCasts_S1x4096x64_S4096x64 : S1x4096x64.ShapeCasts S4096x64
  concatenates_S4096x64x32_S4096x64x32_S4096x64x64_d2 : Shape.Concatenates [S4096x64x32, S4096x64x32] S4096x64x64 2
  reducesTo_S4096x64x64_S4096x64_d2 : S4096x64x64.ReducesTo [2] S4096x64
  reducesTo_S4096x64_S4096_d1 : S4096x64.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S32_S1x1x32_2 : S32.BroadcastsInDim S1x1x32 (![2] : Fin 1 → Fin S1x1x32.rank)
  bcast_S1x1x32_S4096x64x32_0_1_2 : S1x1x32.BroadcastsInDim S4096x64x32 (![0, 1, 2] : Fin 3 → Fin S4096x64x32.rank)
  bcast_S4096x64x1_S4096x64x32_0_1_2 : S4096x64x1.BroadcastsInDim S4096x64x32 (![0, 1, 2] : Fin 3 → Fin S4096x64x32.rank)
  slices_S2x4096x64_S1x4096x64_1_0_0 : S2x4096x64.Slices ![1, 0, 0] S1x4096x64
  reducesTo_S4096x32_S4096_d1 : S4096x32.ReducesTo [1] S4096
  gather_S500000x32_S4096x64x1_S4096x64x32_2_0_n_n_0_2_132_wf : GatherDims.WF S500000x32 S4096x64x1 S4096x64x32 [2] [0] [] [0] [] 2 ![1, 32]
  gather_S64x32_S4096x64x1_S4096x64x32_2_0_n_n_0_2_132_wf : GatherDims.WF S64x32 S4096x64x1 S4096x64x32 [2] [0] [] [0] [] 2 ![1, 32]
  dot_S4096x64x64_S32x64_S4096x64x32_2_1_01_0_n_n_wf : DotDims.WF S4096x64x64 S32x64 S4096x64x32 [2] [1] [0, 1] [0] [] []
  dot_S4096x64x32_S32x32_S4096x64x32_2_1_01_0_n_n_wf : DotDims.WF S4096x64x32 S32x32 S4096x64x32 [2] [1] [0, 1] [0] [] []
  gather_S100000x32_S4096x1_S4096x32_1_0_n_n_0_1_132_wf : GatherDims.WF S100000x32 S4096x1 S4096x32 [1] [0] [] [0] [] 1 ![1, 32]
  gather_S500000x32_S4096x1_S4096x32_1_0_n_n_0_1_132_wf : GatherDims.WF S500000x32 S4096x1 S4096x32 [1] [0] [] [0] [] 1 ![1, 32]
  gather_S200000x32_S4096x1_S4096x32_1_0_n_n_0_1_132_wf : GatherDims.WF S200000x32 S4096x1 S4096x32 [1] [0] [] [0] [] 1 ![1, 32]

variable [Facts₀]

def gather_S500000x32_S4096x64x1_S4096x64x32_2_0_n_n_0_2_132 : GatherDims S500000x32 S4096x64x1 S4096x64x32 where
  offsetDims := [2]
  collapsedSliceDims := [0]
  operandBatchingDims := []
  startIndicesBatchingDims := []
  startIndexMap := [0]
  indexVectorDim := 2
  sliceSizes := ![1, 32]
  wf := gather_S500000x32_S4096x64x1_S4096x64x32_2_0_n_n_0_2_132_wf
def gather_S64x32_S4096x64x1_S4096x64x32_2_0_n_n_0_2_132 : GatherDims S64x32 S4096x64x1 S4096x64x32 where
  offsetDims := [2]
  collapsedSliceDims := [0]
  operandBatchingDims := []
  startIndicesBatchingDims := []
  startIndexMap := [0]
  indexVectorDim := 2
  sliceSizes := ![1, 32]
  wf := gather_S64x32_S4096x64x1_S4096x64x32_2_0_n_n_0_2_132_wf
def dot_S4096x64x64_S32x64_S4096x64x32_2_1_01_0_n_n : DotDims S4096x64x64 S32x64 S4096x64x32 where
  lhsContracting := [2]
  rhsContracting := [1]
  lhsNonContracting := [0, 1]
  rhsNonContracting := [0]
  lhsBatch := []
  rhsBatch := []
  wf := dot_S4096x64x64_S32x64_S4096x64x32_2_1_01_0_n_n_wf
def dot_S4096x64x32_S32x32_S4096x64x32_2_1_01_0_n_n : DotDims S4096x64x32 S32x32 S4096x64x32 where
  lhsContracting := [2]
  rhsContracting := [1]
  lhsNonContracting := [0, 1]
  rhsNonContracting := [0]
  lhsBatch := []
  rhsBatch := []
  wf := dot_S4096x64x32_S32x32_S4096x64x32_2_1_01_0_n_n_wf
def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def gather_S500000x32_S4096x1_S4096x32_1_0_n_n_0_1_132 : GatherDims S500000x32 S4096x1 S4096x32 where
  offsetDims := [1]
  collapsedSliceDims := [0]
  operandBatchingDims := []
  startIndicesBatchingDims := []
  startIndexMap := [0]
  indexVectorDim := 1
  sliceSizes := ![1, 32]
  wf := gather_S500000x32_S4096x1_S4096x32_1_0_n_n_0_1_132_wf
def gather_S200000x32_S4096x1_S4096x32_1_0_n_n_0_1_132 : GatherDims S200000x32 S4096x1 S4096x32 where
  offsetDims := [1]
  collapsedSliceDims := [0]
  operandBatchingDims := []
  startIndicesBatchingDims := []
  startIndexMap := [0]
  indexVectorDim := 1
  sliceSizes := ![1, 32]
  wf := gather_S200000x32_S4096x1_S4096x32_1_0_n_n_0_1_132_wf

class Facts : Prop extends Facts₀ where

variable [Facts]
-- ==== Proof.KBReg0.lean ====
/-
  The seed-set pooling region: one grid point per tile of 512 examples; the body loads the tile's
  [512, 64, 32] block of gathered embeddings, sums it over the 64 seed items, and stores the
  [512, 32] result whole into the output block.  This module states, for any contents `V` of the
  buffers at the region's entry, what each window's staging buffer holds after the body at each
  point, proves the body's triple, and packages both as the pipeline's proof data.
-/
import proofs.«169310_j21139829031662_1_alg».proof.Proof.Gen.Kernel.Launch
import proofs.«169310_j21139829031662_1_alg».proof.Proof.Gen.Kernel.Skeleton
import proofs.«169310_j21139829031662_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the pooling region at point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block, whether the point fetched it or not. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole input block and the whole output block, as rectangles. -/
abbrev rIn0 : Rect S512x64x32 := Rect.unit (s := S512x64x32) ![0, 0, 0] S512x64x32.size inb_S512x64x32_S512x64x32_0_0_0
abbrev rOut0 : Rect S512x32 := Rect.unit (s := S512x32) ![0, 0] S512x32.size inb_S512x32_S512x32_0_0

/-- What the body leaves in the output block: the sum over the 64 seed items of the input block, stored whole. -/
def pooled0 (x0 : Vec F S512x64x32 .bf16) : Vec F S512x32 .f32 :=
  View.canon [⟨rOut0, k0_pay1 (View.ld x0 rIn0)⟩]

theorem pooled0_cover (p0 : Vec F S512x32 .f32) (y : S512x32.Idx) :
    ∃ pc ∈ ([⟨rOut0, p0⟩] : List (View.Piece (Elt F) S512x32 .f32)), y ∈ pc.1.set :=
  View.cover_of_tiled [⟨rOut0, p0⟩] S512x32.size (by rfl) y

set_option maxHeartbeats 1000000 in
/-- The body's triple: from the input block at `x0` and the output block at anything, to the input
    block unchanged and the output block at `pooled0 x0`. -/
theorem body0_triple (c : Dev nD) (E : Set ℕ) (i : grid0.Coords) (arg1 : Memref sig .tc .vmem S512x64x32 .bf16) (harg1 : arg1.IsWhole) (arg2 : Memref sig .tc .vmem S512x32 .f32) (harg2 : arg2.IsWhole)
    (x0 : Vec F S512x64x32 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (pooled0 x0)) -∗ K ⟨⟩))
      ⊢ wp frame (wpE (defs₀ (F := F)) Variants.none c none) E (cc0__hop0_kernel i arg1 harg1 arg2 harg2) K := by
  simp only [cc0__hop0_kernel_eq_skeleton]; unfold cc0__hop0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled0_cover _)

/-- The pooling region's proof data on core `c`: the arrays as found; after the body the input
    window at its block and the output window at the pooled block; the region keeps nothing
    between points beyond the scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => pooled0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = pooled0 (blk0 V c 0 t) := by dsimp only [dat0]
theorem dat0_before0 (c : Dev nD) (t : Fin cfg0.N) (d) : (dat0 V c).before 0 t d = blk0 V c 0 t :=
  before0_in V (dat0 V c) (dat0_A V c 0) (dat0_after0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1]
  iintro ⟨HΦ, Ho, ⟨%d0, H0⟩, ⟨%d1, H1⟩⟩
  iapply (body0_triple c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact body0_at V c t

end Cert.Kernel.Hand

end
-- ==== Proof.KBRuns1.lean ====
/-
  The attention / recurrent region: grid points (tile, hop); hop is the fast coordinate.  What its
  two run modules share: the two branch conditions of the body, decided over the grid (the hop is
  the point's parity), the staging memrefs the pipeline passes at a point, the scratch accumulator
  as a memref, and the region's invariant spelt with that scratch.
-/
import proofs.«169310_j21139829031662_1_alg».proof.Proof.KBReg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first hop": the body's first branch condition, from the grid coordinates. -/
abbrev isHop0 (i : grid1.Coords) : Prop := (Scalar.cmpi .ne (Scalar.extui (Scalar.cmpi .eq (BitVec.ofNat 32 (i 1).val) 0#32)) 0#32) = 1#1
/-- "This is a later hop": the body's second branch condition. -/
abbrev isLater (i : grid1.Coords) : Prop := (Scalar.cmpi .ne (Scalar.extui (Scalar.cmpi .sgt (BitVec.ofNat 32 (i 1).val) 0#32)) 0#32) = 1#1

theorem isHop0_iff : ∀ t : Fin cfg1.N, isHop0 (grid1.coords t) ↔ t.val % 2 = 0 :=
  (by decide +kernel : ∀ t : Fin grid1.N, isHop0 (grid1.coords t) ↔ t.val % 2 = 0)
theorem isLater_iff : ∀ t : Fin cfg1.N, isLater (grid1.coords t) ↔ t.val % 2 = 1 :=
  (by decide +kernel : ∀ t : Fin grid1.N, isLater (grid1.coords t) ↔ t.val % 2 = 1)

/-- No window of the region is ever idle. -/
theorem live1 : ∀ (w : Fin cfg1.W) (t : Fin cfg1.N), cfg1.idle w (grid1.coords t) = false := by decide +kernel

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The scratch accumulator, a whole scoped buffer of the kernel's own, and a view through which its contents are stated. -/
abbrev accM : Memref sig .tc .vmem S512x32 .f32 := Memref.whole cc1_scratch0
abbrev accV : View sig .tc .vmem S512x32 .f32 := accM.view
/-- One staging buffer of the output window, through which its contents are stated. -/
abbrev outV : View sig .tc .vmem S512x32 .f32 := (Memref.whole cc1_stg7_0 : Memref sig .tc .vmem S512x32 .f32).view

/-- A proposition about the scratch accumulator beside the rest the region never touches: the other
    region's staging buffers at some contents and the generator register at some state. -/
abbrev withAcc (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P) ∗ (∃ r, prngReg c r))

/-- The region's plain invariant: the scratch accumulator owned at some contents, beside that rest. -/
theorem PhiA1_eq (c : Dev nD) :
    (Pipeline.ΦA spec1 c : sProp 𝕄) = withAcc c iprop(∃ d, owns (c : Thread nD τ) accM fullShare d) := by
  unfold Pipeline.ΦA; rw [scopedRest1_eq]; simp only [accM, owns_whole]; try rfl

end Cert.Kernel.Hand

end
-- ==== Proof.KBRun1A.lean ====
/-
  The attention / recurrent body run whole in the case "first hop: the accumulator is overwritten with the hop's contribution", then the accumulator copied to the output block.
  The pieces the accumulator and the output block end with are found by running the body.
-/
import proofs.«169310_j21139829031662_1_alg».proof.Proof.KBRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def bodyRun1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i)
    (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) :
    Σ' (L7 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_rnn_kernel i arg2 harg2 arg3 harg3 arg4 harg4 arg5 harg5 arg6 harg6 arg7 harg7 arg8 harg8 arg9 harg9 arg10 harg10) K } := by
  refine ⟨?_, ?_, fun E K => ?run⟩
  case run =>
    simp only [cc1__attn_rnn_kernel_eq_skeleton]; unfold cc1__attn_rnn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KBRun1B.lean ====
/-
  The attention / recurrent body run whole in the case "later hop: the hop's contribution is added to the accumulator", then the accumulator copied to the output block.
  The pieces the accumulator and the output block end with are found by running the body.
-/
import proofs.«169310_j21139829031662_1_alg».proof.Proof.KBRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def bodyRun1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i)
    (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) :
    Σ' (L7 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_rnn_kernel i arg2 harg2 arg3 harg3 arg4 harg4 arg5 harg5 arg6 harg6 arg7 harg7 arg8 harg8 arg9 harg9 arg10 harg10) K } := by
  refine ⟨?_, ?_, fun E K => ?run⟩
  case run =>
    simp only [cc1__attn_rnn_kernel_eq_skeleton]; unfold cc1__attn_rnn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KBReg1.lean ====
/-
  The attention / recurrent region as proof data.  At a point (tile, hop) the body computes the
  hop's contribution from the tile's blocks of head, relation and tail embeddings and the weights;
  at hop 0 it overwrites the scratch accumulator with it, at hop 1 it adds it to the accumulator;
  then it copies the accumulator to the output block.  So after each point the accumulator and the
  output block hold the same thing, defined by recursion on the point (`accAt`): the first-hop
  case's result at even points, the later-hop case's result over the previous point's accumulator
  at odd points.  The invariant carried between points names the accumulator's contents.
-/
import proofs.«169310_j21139829031662_1_alg».proof.Proof.KBRun1A
import proofs.«169310_j21139829031662_1_alg».proof.Proof.KBRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the region at point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_in2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_in3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_in4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_in5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_in6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

theorem notLater_of_even (t : Fin cfg1.N) (h0 : t.val % 2 = 0) : ¬isLater (grid1.coords t) :=
  fun h => by have := (isLater_iff t).mp h; omega
theorem notHop0_of_odd (t : Fin cfg1.N) (h0 : ¬t.val % 2 = 0) : ¬isHop0 (grid1.coords t) :=
  fun h => h0 ((isHop0_iff t).mp h)
theorem later_of_odd (t : Fin cfg1.N) (h0 : ¬t.val % 2 = 0) : isLater (grid1.coords t) :=
  (isLater_iff t).mpr (by omega)

/-! ## What each case leaves -/

def out1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) : Vec F S512x32 .f32 :=
  outV.read (Elt F) (outV.writes (Elt F) outV.junk (bodyRun1_A c i arg2 harg2 arg3 harg3 arg4 harg4 arg5 harg5 arg6 harg6 arg7 harg7 arg8 harg8 arg9 harg9 arg10 harg10 hc0 hc1 x0 x1 x2 x3 x4 x5 x6).1)
def acc1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) : Vec F S512x32 .f32 :=
  accV.read (Elt F) (accV.writes (Elt F) accV.junk (bodyRun1_A c i arg2 harg2 arg3 harg3 arg4 harg4 arg5 harg5 arg6 harg6 arg7 harg7 arg8 harg8 arg9 harg9 arg10 harg10 hc0 hc1 x0 x1 x2 x3 x4 x5 x6).2.1)
theorem cover_out1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (y : S512x32.Idx) :
    ∃ pc ∈ (bodyRun1_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (bodyRun1_A c i arg2 harg2 arg3 harg3 arg4 harg4 arg5 harg5 arg6 harg6 arg7 harg7 arg8 harg8 arg9 harg9 arg10 harg10 hc0 hc1 x0 x1 x2 x3 x4 x5 x6).1 S512x32.size (by sl_kernel_rfl) y
theorem cover_acc1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (y : S512x32.Idx) :
    ∃ pc ∈ (bodyRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (bodyRun1_A c i arg2 harg2 arg3 harg3 arg4 harg4 arg5 harg5 arg6 harg6 arg7 harg7 arg8 harg8 arg9 harg9 arg10 harg10 hc0 hc1 x0 x1 x2 x3 x4 x5 x6).2.1 S512x32.size (by sl_kernel_rfl) y

def out1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) : Vec F S512x32 .f32 :=
  outV.read (Elt F) (outV.writes (Elt F) outV.junk (bodyRun1_B c i arg2 harg2 arg3 harg3 arg4 harg4 arg5 harg5 arg6 harg6 arg7 harg7 arg8 harg8 arg9 harg9 arg10 harg10 hc0 hc1 x0 x1 x2 x3 x4 x5 x6 xs0).1)
def acc1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) : Vec F S512x32 .f32 :=
  accV.read (Elt F) (accV.writes (Elt F) accV.junk (bodyRun1_B c i arg2 harg2 arg3 harg3 arg4 harg4 arg5 harg5 arg6 harg6 arg7 harg7 arg8 harg8 arg9 harg9 arg10 harg10 hc0 hc1 x0 x1 x2 x3 x4 x5 x6 xs0).2.1)
theorem cover_out1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) (y : S512x32.Idx) :
    ∃ pc ∈ (bodyRun1_B c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (bodyRun1_B c i arg2 harg2 arg3 harg3 arg4 harg4 arg5 harg5 arg6 harg6 arg7 harg7 arg8 harg8 arg9 harg9 arg10 harg10 hc0 hc1 x0 x1 x2 x3 x4 x5 x6 xs0).1 S512x32.size (by sl_kernel_rfl) y
theorem cover_acc1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) (y : S512x32.Idx) :
    ∃ pc ∈ (bodyRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (bodyRun1_B c i arg2 harg2 arg3 harg3 arg4 harg4 arg5 harg5 arg6 harg6 arg7 harg7 arg8 harg8 arg9 harg9 arg10 harg10 hc0 hc1 x0 x1 x2 x3 x4 x5 x6 xs0).2.1 S512x32.size (by sl_kernel_rfl) y

/-! ## The accumulation over the points -/

/-- After the body at position `n`: (the output block, the scratch accumulator). -/
def accAt (c : Dev nD) : (n : ℕ) → n < cfg1.N → Vec F S512x32 .f32 × Vec F S512x32 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) accM (Memref.isWhole_whole _) ((isHop0_iff ⟨0, hn⟩).mpr (Nat.zero_mod _)) (notLater_of_even ⟨0, hn⟩ (Nat.zero_mod _)) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩),
              acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) accM (Memref.isWhole_whole _) ((isHop0_iff ⟨0, hn⟩).mpr (Nat.zero_mod _)) (notLater_of_even ⟨0, hn⟩ (Nat.zero_mod _)) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩))
  | n + 1, hn =>
    if h0 : (n + 1) % 2 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) ((isHop0_iff ⟨n + 1, hn⟩).mpr h0) (notLater_of_even ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩),
       acc1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) ((isHop0_iff ⟨n + 1, hn⟩).mpr h0) (notLater_of_even ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) (notHop0_of_odd ⟨n + 1, hn⟩ h0) (later_of_odd ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (accAt c n (Nat.lt_of_succ_lt hn)).2,
       acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) (notHop0_of_odd ⟨n + 1, hn⟩ h0) (later_of_odd ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (accAt c n (Nat.lt_of_succ_lt hn)).2)

theorem accAt_A (c : Dev nD) (t : Fin cfg1.N) (h0 : t.val % 2 = 0) :
    accAt V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) ((isHop0_iff t).mpr h0) (notLater_of_even t h0) (blk1 V c 0 t) (blk1 V c 1 t) (blk1 V c 2 t) (blk1 V c 3 t) (blk1 V c 4 t) (blk1 V c 5 t) (blk1 V c 6 t),
      acc1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) ((isHop0_iff t).mpr h0) (notLater_of_even t h0) (blk1 V c 0 t) (blk1 V c 1 t) (blk1 V c 2 t) (blk1 V c 3 t) (blk1 V c 4 t) (blk1 V c 5 t) (blk1 V c 6 t)) := by
  obtain ⟨n, hn⟩ := t
  cases n with
  | zero => exact rfl
  | succ n => exact (dif_pos h0).trans rfl

theorem accAt_B (c : Dev nD) (t : Fin cfg1.N) (h0 : ¬t.val % 2 = 0) :
    accAt V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) (notHop0_of_odd t h0) (later_of_odd t h0) (blk1 V c 0 t) (blk1 V c 1 t) (blk1 V c 2 t) (blk1 V c 3 t) (blk1 V c 4 t) (blk1 V c 5 t) (blk1 V c 6 t) (accAt V c (t.val - 1) (Nat.lt_of_le_of_lt (Nat.sub_le _ _) t.isLt)).2,
      acc1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) (notHop0_of_odd t h0) (later_of_odd t h0) (blk1 V c 0 t) (blk1 V c 1 t) (blk1 V c 2 t) (blk1 V c 3 t) (blk1 V c 4 t) (blk1 V c 5 t) (blk1 V c 6 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: the plain one before the first point; afterwards the scratch
    accumulator at what the point before left, and the generator register at some state. -/
def PhiAcc (c : Dev nD) : (n : ℕ) → n ≤ cfg1.N → sProp 𝕄
  | 0, _ => Pipeline.ΦA spec1 c
  | n + 1, hn => withAcc c (owns (c : Thread nD τ) accM fullShare ((accAt V c n hn).2))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = withAcc c (owns (c : Thread nD τ) accM fullShare ((accAt V c n hn).2)) := rfl
theorem PhiAcc_pos (c : Dev nD) (n : ℕ) (h : n ≤ cfg1.N) (hz : n ≠ 0) :
    PhiAcc V c n h = withAcc c (owns (c : Thread nD τ) accM fullShare ((accAt V c (n - 1) (by omega)).2)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => (accAt V c t.val t.isLt).1
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem PhiAcc_castSucc (c : Dev nD) (t : Fin cfg1.N) :
    (dat1 V c).Φ t.castSucc = PhiAcc V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = (accAt V c t.val t.isLt).1 := by dsimp only [dat1]
theorem dat1_before0 (c : Dev nD) (t : Fin cfg1.N) (d) : (dat1 V c).before 0 t d = blk1 V c 0 t :=
  before1_in0 V (dat1 V c) (dat1_A V c 0) (dat1_after0 V c) t d
theorem dat1_before1 (c : Dev nD) (t : Fin cfg1.N) (d) : (dat1 V c).before 1 t d = blk1 V c 1 t :=
  before1_in1 V (dat1 V c) (dat1_A V c 1) (dat1_after1 V c) t d
theorem dat1_before2 (c : Dev nD) (t : Fin cfg1.N) (d) : (dat1 V c).before 2 t d = blk1 V c 2 t :=
  before1_in2 V (dat1 V c) (dat1_A V c 2) (dat1_after2 V c) t d
theorem dat1_before3 (c : Dev nD) (t : Fin cfg1.N) (d) : (dat1 V c).before 3 t d = blk1 V c 3 t :=
  before1_in3 V (dat1 V c) (dat1_A V c 3) (dat1_after3 V c) t d
theorem dat1_before4 (c : Dev nD) (t : Fin cfg1.N) (d) : (dat1 V c).before 4 t d = blk1 V c 4 t :=
  before1_in4 V (dat1 V c) (dat1_A V c 4) (dat1_after4 V c) t d
theorem dat1_before5 (c : Dev nD) (t : Fin cfg1.N) (d) : (dat1 V c).before 5 t d = blk1 V c 5 t :=
  before1_in5 V (dat1 V c) (dat1_A V c 5) (dat1_after5 V c) t d
theorem dat1_before6 (c : Dev nD) (t : Fin cfg1.N) (d) : (dat1 V c).before 6 t d = blk1 V c 6 t :=
  before1_in6 V (dat1 V c) (dat1_A V c 6) (dat1_after6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1 (c : Dev nD) (w : Fin cfg1.W) (t : Fin cfg1.N) :
    (dat1 V c).leavesExact w t = owns (c : Thread nD τ) ((cfg1.win w).stage (cfg1.slots t w)) fullShare ((dat1 V c).after w t) := by
  unfold Dat.leavesExact; rw [live1 w t]

set_option maxHeartbeats 4800000 in
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5, dat1_before6]
  rw [show (dat1 V c).owesAt () t.succ = (dat1 V c).owesAt () t.castSucc from rfl]
  rw [show (dat1 V c).Φ t.succ = PhiAcc V c (t.val + 1) t.isLt from rfl, PhiAcc_succ]
  have hN : t.val < 16 := lt_of_lt_of_eq t.isLt (show cfg1.N = 16 from N_1)
  simp only [leaves1, dat1_after0, dat1_after1, dat1_after2, dat1_after3, dat1_after4, dat1_after5, dat1_after6, dat1_after7]
  by_cases h0 : t.val % 2 = 0
  · rw [accAt_A V c t h0]
    unfold out1_A acc1_A; (try dsimp only)
    by_cases hz : t.val = 0
    · rw [PhiAcc_castSucc V c t, PhiAcc_zero V c _ _ hz, PhiA1_eq]
      iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRun1_A c (grid1.coords t) _ _ _ _ _ _ _ _ _ _ _ _ _ _ _ _ _ _ ((isHop0_iff t).mpr h0) (notLater_of_even t h0) (blk1 V c 0 t) (blk1 V c 1 t) (blk1 V c 2 t) (blk1 V c 3 t) (blk1 V c 4 t) (blk1 V c 5 t) (blk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (cover_acc1_A c _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out1_A c _ _ _ _ _ _ _ _ _ _ _ _ _ _ _ _ _ _ _ _ _ _ _ _ _ _ _ _ )
    · rw [PhiAcc_castSucc V c t, PhiAcc_pos V c _ _ hz]
      iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRun1_A c (grid1.coords t) _ _ _ _ _ _ _ _ _ _ _ _ _ _ _ _ _ _ ((isHop0_iff t).mpr h0) (notLater_of_even t h0) (blk1 V c 0 t) (blk1 V c 1 t) (blk1 V c 2 t) (blk1 V c 3 t) (blk1 V c 4 t) (blk1 V c 5 t) (blk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (cover_acc1_A c _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out1_A c _ _ _ _ _ _ _ _ _ _ _ _ _ _ _ _ _ _ _ _ _ _ _ _ _ _ _ _ )
  · rw [accAt_B V c t h0]
    unfold out1_B acc1_B; (try dsimp only)
    have hz : t.val ≠ 0 := fun h => h0 (by rw [h])
    rw [PhiAcc_castSucc V c t, PhiAcc_pos V c _ _ hz]
    iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRun1_B c (grid1.coords t) _ _ _ _ _ _ _ _ _ _ _ _ _ _ _ _ _ _ (notHop0_of_odd t h0) (later_of_odd t h0) (blk1 V c 0 t) (blk1 V c 1 t) (blk1 V c 2 t) (blk1 V c 3 t) (blk1 V c 4 t) (blk1 V c 5 t) (blk1 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HA HB HC HD HS0 Hg]
    · isplitl [HA HB HC HD HS0]
      · isplitl [HA]; · iexact HA
        isplitl [HB]; · iexact HB
        isplitl [HC]; · iexact HC
        isplitl [HD]; · iexact HD
        unfold owns; iexists _; isplitr
        swap; · iexact HS0
        ipureintro; exact View.read_writes_of_cover _ _ _ _ _ (cover_acc1_B c _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_out1_B c _ _ _ _ _ _ _ _ _ _ _ _ _ _ _ _ _ _ _ _ _ _ _ _ _ _ _ _ _ )

theorem body_obligation1 (c : Dev nD) : BodyObligation (dat1 (F := F) V c) (defs₀ (F := F)) Variants.none () Set.univ := fun t => by
  rw [bigSep_W1, bigSep_W1]
  exact body1_at V c t

/-- What the launch hands the region is the invariant before the first point. -/
theorem dat1_in (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the invariant gives the plain one back: the accumulator's named contents are forgotten. -/
theorem dat1_out (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 16 := N_1; omega), PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

end Cert.Kernel.Hand

end
-- ==== Proof.KBRun.lean ====
/-
  The whole program as four segments — the host operations before the regions (the gathers and
  weight transposes), the pooling region, the attention / recurrent region, the host operations
  after them (the epilogue) — and its run: every weakly fair execution terminates, and every
  unscoped buffer ends at a named valuation: the launch memory, then the first host stretch, then
  each region's arrays at what its write-backs leave, then the last host stretch.
-/
import proofs.«169310_j21139829031662_1_alg».proof.Proof.KBReg1
import proofs.«169310_j21139829031662_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c => V0 m c
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the pooling region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the attention / recurrent region. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-- After the epilogue. -/
abbrev W4 : Dev nD → Valuation τ sig (Elt F) := fun c => StableHlo.after hostOps2 (W3 m c)

/-- A buffer that neither host stretch writes and no region stages ends as launched. -/
theorem W4_kept (c : Dev nD) (b : Ref sig .tc) (h0 : b ∉ hostOps0_W) (h2 : b ∉ hostOps2_W)
    (ha0 : ∀ w, Pipeline.arrRef spec0 w ≠ b) (ha1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b ha1
    _ = W1 m c (Proc.devRef .tc b) := W2_of_ne m c b ha0
    _ = W0 m c (Proc.devRef .tc b) := StableHlo.after_of_writes_sub hostOps0 _ hostOps0_writes h0
    _ = m ((c : Thread nD τ).loc b) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := dat1_in (VV2 m) c
    unfold Pipeline.ΦA at h
    rw [show (pdats m 1 c).Φ 0 = (dat1 (VV2 m) c).Φ 0 from rfl]
    iintro ⟨Hp, -, Hr⟩
    iapply h
    isplitl [Hr]; · iexact Hr
    iexact Hp
  hout c := by
    rw [Pipeline.ownSems0_none]
    have h := dat1_out (VV2 m) c
    unfold Pipeline.ΦA at h
    rw [show (pdats m 1 c).Φ (Fin.last _) = (dat1 (VV2 m) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- Every weakly fair execution of the program terminates, nothing faulting, and every unscoped
    buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun c => by
      show iprop(StableHlo.held (c : Thread nD τ) (Pipeline.ucRefs τ sig) (W4 m c) ∗ Rst c) ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KBFrame.lean ====
/-
  The program's frame, and its run with the result named: every execution terminates, the
  fourteen argument arrays end as launched (no host operation writes one and no region stages
  one as an output), and the result buffer ends at the last valuation's contents.
-/
import proofs.«169310_j21139829031662_1_alg».proof.Proof.KBRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide)),
    (h c _ (mem_uc main_arg10 (by decide))).trans (W4_kept m c main_arg10 (by decide) (by decide) (by decide) (by decide)),
    (h c _ (mem_uc main_arg11 (by decide))).trans (W4_kept m c main_arg11 (by decide) (by decide) (by decide) (by decide)),
    (h c _ (mem_uc main_arg12 (by decide))).trans (W4_kept m c main_arg12 (by decide) (by decide) (by decide) (by decide)),
    (h c _ (mem_uc main_arg13 (by decide))).trans (W4_kept m c main_arg13 (by decide) (by decide) (by decide) (by decide))⟩) (run_all m ρ)

theorem run_value : θ_run defs (onTc (τ := τ) (main (F := F))) ⟨m, fun _ => 0, ρ⟩ (fun r => ∀ c : Dev nD,
      r.2.mem ((c.tc : Thread nD τ).loc main_v71) = W4 m c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v71 (by decide)), (h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide)),
    (h c _ (mem_uc main_arg10 (by decide))).trans (W4_kept m c main_arg10 (by decide) (by decide) (by decide) (by decide)),
    (h c _ (mem_uc main_arg11 (by decide))).trans (W4_kept m c main_arg11 (by decide) (by decide) (by decide) (by decide)),
    (h c _ (mem_uc main_arg12 (by decide))).trans (W4_kept m c main_arg12 (by decide) (by decide) (by decide) (by decide)),
    (h c _ (mem_uc main_arg13 (by decide))).trans (W4_kept m c main_arg13 (by decide) (by decide) (by decide) (by decide))⟩) (run_all m ρ)

end Cert.Kernel.Hand

end
-- ==== Proof.KIReg0.lean ====
/-
  The seed-set pooling region: one grid point per tile of 512 examples; the body loads the tile's
  [512, 64, 32] block of gathered embeddings, sums it over the 64 seed items, and stores the
  [512, 32] result whole into the output block.  This module states, for any contents `V` of the
  buffers at the region's entry, what each window's staging buffer holds after the body at each
  point, proves the body's triple, and packages both as the pipeline's proof data.
-/
import proofs.«169310_j21139829031662_1_alg».proof.Proof.Gen.KernelIdeal.Launch
import proofs.«169310_j21139829031662_1_alg».proof.Proof.Gen.KernelIdeal.Skeleton
import proofs.«169310_j21139829031662_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the pooling region at point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block, whether the point fetched it or not. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole input block and the whole output block, as rectangles. -/
abbrev rIn0 : Rect S512x64x32 := Rect.unit (s := S512x64x32) ![0, 0, 0] S512x64x32.size inb_S512x64x32_S512x64x32_0_0_0
abbrev rOut0 : Rect S512x32 := Rect.unit (s := S512x32) ![0, 0] S512x32.size inb_S512x32_S512x32_0_0

/-- What the body leaves in the output block: the sum over the 64 seed items of the input block, stored whole. -/
def pooled0 (x0 : Vec F S512x64x32 .bf16) : Vec F S512x32 .f32 :=
  View.canon [⟨rOut0, k0_pay1 (View.ld x0 rIn0)⟩]

theorem pooled0_cover (p0 : Vec F S512x32 .f32) (y : S512x32.Idx) :
    ∃ pc ∈ ([⟨rOut0, p0⟩] : List (View.Piece (Elt F) S512x32 .f32)), y ∈ pc.1.set :=
  View.cover_of_tiled [⟨rOut0, p0⟩] S512x32.size (by rfl) y

set_option maxHeartbeats 1000000 in
/-- The body's triple: from the input block at `x0` and the output block at anything, to the input
    block unchanged and the output block at `pooled0 x0`. -/
theorem body0_triple (c : Dev nD) (E : Set ℕ) (i : grid0.Coords) (arg1 : Memref sig .tc .vmem S512x64x32 .bf16) (harg1 : arg1.IsWhole) (arg2 : Memref sig .tc .vmem S512x32 .f32) (harg2 : arg2.IsWhole)
    (x0 : Vec F S512x64x32 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (pooled0 x0)) -∗ K ⟨⟩))
      ⊢ wp frame (wpE (defs₀ (F := F)) Variants.none c none) E (cc0__hop0_kernel i arg1 harg1 arg2 harg2) K := by
  simp only [cc0__hop0_kernel_eq_skeleton]; unfold cc0__hop0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled0_cover _)

/-- The pooling region's proof data on core `c`: the arrays as found; after the body the input
    window at its block and the output window at the pooled block; the region keeps nothing
    between points beyond the scoped rest and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => pooled0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = pooled0 (blk0 V c 0 t) := by dsimp only [dat0]
theorem dat0_before0 (c : Dev nD) (t : Fin cfg0.N) (d) : (dat0 V c).before 0 t d = blk0 V c 0 t :=
  before0_in V (dat0 V c) (dat0_A V c 0) (dat0_after0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1]
  iintro ⟨HΦ, Ho, ⟨%d0, H0⟩, ⟨%d1, H1⟩⟩
  iapply (body0_triple c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact body0_at V c t

end Cert.KernelIdeal.Hand

end
-- ==== Proof.KIRuns1.lean ====
/-
  The attention / recurrent region: grid points (tile, hop); hop is the fast coordinate.  What its
  two run modules share: the two branch conditions of the body, decided over the grid (the hop is
  the point's parity), the staging memrefs the pipeline passes at a point, the scratch accumulator
  as a memref, and the region's invariant spelt with that scratch.
-/
import proofs.«169310_j21139829031662_1_alg».proof.Proof.KIReg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first hop": the body's first branch condition, from the grid coordinates. -/
abbrev isHop0 (i : grid1.Coords) : Prop := (Scalar.cmpi .ne (Scalar.extui (Scalar.cmpi .eq (BitVec.ofNat 32 (i 1).val) 0#32)) 0#32) = 1#1
/-- "This is a later hop": the body's second branch condition. -/
abbrev isLater (i : grid1.Coords) : Prop := (Scalar.cmpi .ne (Scalar.extui (Scalar.cmpi .sgt (BitVec.ofNat 32 (i 1).val) 0#32)) 0#32) = 1#1

theorem isHop0_iff : ∀ t : Fin cfg1.N, isHop0 (grid1.coords t) ↔ t.val % 2 = 0 :=
  (by decide +kernel : ∀ t : Fin grid1.N, isHop0 (grid1.coords t) ↔ t.val % 2 = 0)
theorem isLater_iff : ∀ t : Fin cfg1.N, isLater (grid1.coords t) ↔ t.val % 2 = 1 :=
  (by decide +kernel : ∀ t : Fin grid1.N, isLater (grid1.coords t) ↔ t.val % 2 = 1)

/-- No window of the region is ever idle. -/
theorem live1 : ∀ (w : Fin cfg1.W) (t : Fin cfg1.N), cfg1.idle w (grid1.coords t) = false := by decide +kernel

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
/-- The scratch accumulator, a whole scoped buffer of the kernel's own, and a view through which its contents are stated. -/
abbrev accM : Memref sig .tc .vmem S512x32 .f32 := Memref.whole cc1_scratch0
abbrev accV : View sig .tc .vmem S512x32 .f32 := accM.view
/-- One staging buffer of the output window, through which its contents are stated. -/
abbrev outV : View sig .tc .vmem S512x32 .f32 := (Memref.whole cc1_stg7_0 : Memref sig .tc .vmem S512x32 .f32).view

/-- A proposition about the scratch accumulator beside the rest the region never touches: the other
    region's staging buffers at some contents and the generator register at some state. -/
abbrev withAcc (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P) ∗ (∃ r, prngReg c r))

/-- The region's plain invariant: the scratch accumulator owned at some contents, beside that rest. -/
theorem PhiA1_eq (c : Dev nD) :
    (Pipeline.ΦA spec1 c : sProp 𝕄) = withAcc c iprop(∃ d, owns (c : Thread nD τ) accM fullShare d) := by
  unfold Pipeline.ΦA; rw [scopedRest1_eq]; simp only [accM, owns_whole]; try rfl

end Cert.KernelIdeal.Hand

end
-- ==== Proof.KIRun1A.lean ====
/-
  The attention / recurrent body run whole in the case "first hop: the accumulator is overwritten with the hop's contribution", then the accumulator copied to the output block.
  The pieces the accumulator and the output block end with are found by running the body.
-/
import proofs.«169310_j21139829031662_1_alg».proof.Proof.KIRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def bodyRun1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i)
    (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) :
    Σ' (L7 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_rnn_kernel i arg2 harg2 arg3 harg3 arg4 harg4 arg5 harg5 arg6 harg6 arg7 harg7 arg8 harg8 arg9 harg9 arg10 harg10) K } := by
  refine ⟨?_, ?_, fun E K => ?run⟩
  case run =>
    simp only [cc1__attn_rnn_kernel_eq_skeleton]; unfold cc1__attn_rnn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KIRun1B.lean ====
/-
  The attention / recurrent body run whole in the case "later hop: the hop's contribution is added to the accumulator", then the accumulator copied to the output block.
  The pieces the accumulator and the output block end with are found by running the body.
-/
import proofs.«169310_j21139829031662_1_alg».proof.Proof.KIRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def bodyRun1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i)
    (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) :
    Σ' (L7 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_rnn_kernel i arg2 harg2 arg3 harg3 arg4 harg4 arg5 harg5 arg6 harg6 arg7 harg7 arg8 harg8 arg9 harg9 arg10 harg10) K } := by
  refine ⟨?_, ?_, fun E K => ?run⟩
  case run =>
    simp only [cc1__attn_rnn_kernel_eq_skeleton]; unfold cc1__attn_rnn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KIReg1.lean ====
/-
  The attention / recurrent region as proof data.  At a point (tile, hop) the body computes the
  hop's contribution from the tile's blocks of head, relation and tail embeddings and the weights;
  at hop 0 it overwrites the scratch accumulator with it, at hop 1 it adds it to the accumulator;
  then it copies the accumulator to the output block.  So after each point the accumulator and the
  output block hold the same thing, defined by recursion on the point (`accAt`): the first-hop
  case's result at even points, the later-hop case's result over the previous point's accumulator
  at odd points.  The invariant carried between points names the accumulator's contents.
-/
import proofs.«169310_j21139829031662_1_alg».proof.Proof.KIRun1A
import proofs.«169310_j21139829031662_1_alg».proof.Proof.KIRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the region at point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_in2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_in3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_in4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_in5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_in6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

theorem notLater_of_even (t : Fin cfg1.N) (h0 : t.val % 2 = 0) : ¬isLater (grid1.coords t) :=
  fun h => by have := (isLater_iff t).mp h; omega
theorem notHop0_of_odd (t : Fin cfg1.N) (h0 : ¬t.val % 2 = 0) : ¬isHop0 (grid1.coords t) :=
  fun h => h0 ((isHop0_iff t).mp h)
theorem later_of_odd (t : Fin cfg1.N) (h0 : ¬t.val % 2 = 0) : isLater (grid1.coords t) :=
  (isLater_iff t).mpr (by omega)

/-! ## What each case leaves -/

def out1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) : Vec F S512x32 .f32 :=
  outV.read (Elt F) (outV.writes (Elt F) outV.junk (bodyRun1_A c i arg2 harg2 arg3 harg3 arg4 harg4 arg5 harg5 arg6 harg6 arg7 harg7 arg8 harg8 arg9 harg9 arg10 harg10 hc0 hc1 x0 x1 x2 x3 x4 x5 x6).1)
def acc1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) : Vec F S512x32 .f32 :=
  accV.read (Elt F) (accV.writes (Elt F) accV.junk (bodyRun1_A c i arg2 harg2 arg3 harg3 arg4 harg4 arg5 harg5 arg6 harg6 arg7 harg7 arg8 harg8 arg9 harg9 arg10 harg10 hc0 hc1 x0 x1 x2 x3 x4 x5 x6).2.1)
theorem cover_out1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (y : S512x32.Idx) :
    ∃ pc ∈ (bodyRun1_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (bodyRun1_A c i arg2 harg2 arg3 harg3 arg4 harg4 arg5 harg5 arg6 harg6 arg7 harg7 arg8 harg8 arg9 harg9 arg10 harg10 hc0 hc1 x0 x1 x2 x3 x4 x5 x6).1 S512x32.size (by sl_kernel_rfl) y
theorem cover_acc1_A (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (y : S512x32.Idx) :
    ∃ pc ∈ (bodyRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (bodyRun1_A c i arg2 harg2 arg3 harg3 arg4 harg4 arg5 harg5 arg6 harg6 arg7 harg7 arg8 harg8 arg9 harg9 arg10 harg10 hc0 hc1 x0 x1 x2 x3 x4 x5 x6).2.1 S512x32.size (by sl_kernel_rfl) y

def out1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) : Vec F S512x32 .f32 :=
  outV.read (Elt F) (outV.writes (Elt F) outV.junk (bodyRun1_B c i arg2 harg2 arg3 harg3 arg4 harg4 arg5 harg5 arg6 harg6 arg7 harg7 arg8 harg8 arg9 harg9 arg10 harg10 hc0 hc1 x0 x1 x2 x3 x4 x5 x6 xs0).1)
def acc1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) : Vec F S512x32 .f32 :=
  accV.read (Elt F) (accV.writes (Elt F) accV.junk (bodyRun1_B c i arg2 harg2 arg3 harg3 arg4 harg4 arg5 harg5 arg6 harg6 arg7 harg7 arg8 harg8 arg9 harg9 arg10 harg10 hc0 hc1 x0 x1 x2 x3 x4 x5 x6 xs0).2.1)
theorem cover_out1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) (y : S512x32.Idx) :
    ∃ pc ∈ (bodyRun1_B c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (bodyRun1_B c i arg2 harg2 arg3 harg3 arg4 harg4 arg5 harg5 arg6 harg6 arg7 harg7 arg8 harg8 arg9 harg9 arg10 harg10 hc0 hc1 x0 x1 x2 x3 x4 x5 x6 xs0).1 S512x32.size (by sl_kernel_rfl) y
theorem cover_acc1_B (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) (y : S512x32.Idx) :
    ∃ pc ∈ (bodyRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (bodyRun1_B c i arg2 harg2 arg3 harg3 arg4 harg4 arg5 harg5 arg6 harg6 arg7 harg7 arg8 harg8 arg9 harg9 arg10 harg10 hc0 hc1 x0 x1 x2 x3 x4 x5 x6 xs0).2.1 S512x32.size (by sl_kernel_rfl) y

/-! ## The accumulation over the points -/

/-- After the body at position `n`: (the output block, the scratch accumulator). -/
def accAt (c : Dev nD) : (n : ℕ) → n < cfg1.N → Vec F S512x32 .f32 × Vec F S512x32 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) accM (Memref.isWhole_whole _) ((isHop0_iff ⟨0, hn⟩).mpr (Nat.zero_mod _)) (notLater_of_even ⟨0, hn⟩ (Nat.zero_mod _)) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩),
              acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) accM (Memref.isWhole_whole _) ((isHop0_iff ⟨0, hn⟩).mpr (Nat.zero_mod _)) (notLater_of_even ⟨0, hn⟩ (Nat.zero_mod _)) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩) (blk1 V c 6 ⟨0, hn⟩))
  | n + 1, hn =>
    if h0 : (n + 1) % 2 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) ((isHop0_iff ⟨n + 1, hn⟩).mpr h0) (notLater_of_even ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩),
       acc1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) ((isHop0_iff ⟨n + 1, hn⟩).mpr h0) (notLater_of_even ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) (notHop0_of_odd ⟨n + 1, hn⟩ h0) (later_of_odd ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (accAt c n (Nat.lt_of_succ_lt hn)).2,
       acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) accM (Memref.isWhole_whole _) (notHop0_of_odd ⟨n + 1, hn⟩ h0) (later_of_odd ⟨n + 1, hn⟩ h0) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (blk1 V c 6 ⟨n + 1, hn⟩) (accAt c n (Nat.lt_of_succ_lt hn)).2)

theorem accAt_A (c : Dev nD) (t : Fin cfg1.N) (h0 : t.val % 2 = 0) :
    accAt V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) ((isHop0_iff t).mpr h0) (notLater_of_even t h0) (blk1 V c 0 t) (blk1 V c 1 t) (blk1 V c 2 t) (blk1 V c 3 t) (blk1 V c 4 t) (blk1 V c 5 t) (blk1 V c 6 t),
      acc1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) ((isHop0_iff t).mpr h0) (notLater_of_even t h0) (blk1 V c 0 t) (blk1 V c 1 t) (blk1 V c 2 t) (blk1 V c 3 t) (blk1 V c 4 t) (blk1 V c 5 t) (blk1 V c 6 t)) := by
  obtain ⟨n, hn⟩ := t
  cases n with
  | zero => exact rfl
  | succ n => exact (dif_pos h0).trans rfl

theorem accAt_B (c : Dev nD) (t : Fin cfg1.N) (h0 : ¬t.val % 2 = 0) :
    accAt V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) (notHop0_of_odd t h0) (later_of_odd t h0) (blk1 V c 0 t) (blk1 V c 1 t) (blk1 V c 2 t) (blk1 V c 3 t) (blk1 V c 4 t) (blk1 V c 5 t) (blk1 V c 6 t) (accAt V c (t.val - 1) (Nat.lt_of_le_of_lt (Nat.sub_le _ _) t.isLt)).2,
      acc1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) accM (Memref.isWhole_whole _) (notHop0_of_odd t h0) (later_of_odd t h0) (blk1 V c 0 t) (blk1 V c 1 t) (blk1 V c 2 t) (blk1 V c 3 t) (blk1 V c 4 t) (blk1 V c 5 t) (blk1 V c 6 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: the plain one before the first point; afterwards the scratch
    accumulator at what the point before left, and the generator register at some state. -/
def PhiAcc (c : Dev nD) : (n : ℕ) → n ≤ cfg1.N → sProp 𝕄
  | 0, _ => Pipeline.ΦA spec1 c
  | n + 1, hn => withAcc c (owns (c : Thread nD τ) accM fullShare ((accAt V c n hn).2))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = withAcc c (owns (c : Thread nD τ) accM fullShare ((accAt V c n hn).2)) := rfl
theorem PhiAcc_pos (c : Dev nD) (n : ℕ) (h : n ≤ cfg1.N) (hz : n ≠ 0) :
    PhiAcc V c n h = withAcc c (owns (c : Thread nD τ) accM fullShare ((accAt V c (n - 1) (by omega)).2)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => (accAt V c t.val t.isLt).1
  Φ t := PhiAcc V c t.val (Nat.le_of_lt_succ t.isLt)
  q _ := fullShare
  owed _ := 0

theorem dat1_A (c : Dev nD) (w : Fin cfg1.W) : (dat1 V c).A w = V c (Pipeline.arrRef spec1 w) := by
  dsimp only [dat1]
theorem PhiAcc_castSucc (c : Dev nD) (t : Fin cfg1.N) :
    (dat1 V c).Φ t.castSucc = PhiAcc V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = (accAt V c t.val t.isLt).1 := by dsimp only [dat1]
theorem dat1_before0 (c : Dev nD) (t : Fin cfg1.N) (d) : (dat1 V c).before 0 t d = blk1 V c 0 t :=
  before1_in0 V (dat1 V c) (dat1_A V c 0) (dat1_after0 V c) t d
theorem dat1_before1 (c : Dev nD) (t : Fin cfg1.N) (d) : (dat1 V c).before 1 t d = blk1 V c 1 t :=
  before1_in1 V (dat1 V c) (dat1_A V c 1) (dat1_after1 V c) t d
theorem dat1_before2 (c : Dev nD) (t : Fin cfg1.N) (d) : (dat1 V c).before 2 t d = blk1 V c 2 t :=
  before1_in2 V (dat1 V c) (dat1_A V c 2) (dat1_after2 V c) t d
theorem dat1_before3 (c : Dev nD) (t : Fin cfg1.N) (d) : (dat1 V c).before 3 t d = blk1 V c 3 t :=
  before1_in3 V (dat1 V c) (dat1_A V c 3) (dat1_after3 V c) t d
theorem dat1_before4 (c : Dev nD) (t : Fin cfg1.N) (d) : (dat1 V c).before 4 t d = blk1 V c 4 t :=
  before1_in4 V (dat1 V c) (dat1_A V c 4) (dat1_after4 V c) t d
theorem dat1_before5 (c : Dev nD) (t : Fin cfg1.N) (d) : (dat1 V c).before 5 t d = blk1 V c 5 t :=
  before1_in5 V (dat1 V c) (dat1_A V c 5) (dat1_after5 V c) t d
theorem dat1_before6 (c : Dev nD) (t : Fin cfg1.N) (d) : (dat1 V c).before 6 t d = blk1 V c 6 t :=
  before1_in6 V (dat1 V c) (dat1_A V c 6) (dat1_after6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1 (c : Dev nD) (w : Fin cfg1.W) (t : Fin cfg1.N) :
    (dat1 V c).leavesExact w t = owns (c : Thread nD τ) ((cfg1.win w).stage (cfg1.slots t w)) fullShare ((dat1 V c).after w t) := by
  unfold Dat.leavesExact; rw [live1 w t]

set_option maxHeartbeats 4800000 in
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2, dat1_before3, dat1_before4, dat1_before5, dat1_before6]
  rw [show (dat1 V c).owesAt () t.succ = (dat1 V c).owesAt () t.castSucc from rfl]
  rw [show (dat1 V c).Φ t.succ = PhiAcc V c (t.val + 1) t.isLt from rfl, PhiAcc_succ]
  have hN : t.val < 16 := lt_of_lt_of_eq t.isLt (show cfg1.N = 16 from N_1)
  simp only [leaves1, dat1_after0, dat1_after1, dat1_after2, dat1_after3, dat1_after4, dat1_after5, dat1_after6, dat1_after7]
  by_cases h0 : t.val % 2 = 0
  · rw [accAt_A V c t h0]
    unfold out1_A acc1_A; (try dsimp only)
    by_cases hz : t.val = 0
    · rw [PhiAcc_castSucc V c t, PhiAcc_zero V c _ _ hz, PhiA1_eq]
      iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRun1_A c (grid1.coords t) _ _ _ _ _ _ _ _ _ _ _ _ _ _ _ _ _ _ ((isHop0_iff t).mpr h0) (notLater_of_even t h0) (blk1 V c 0 t) (blk1 V c 1 t) (blk1 V c 2 t) (blk1 V c 3 t) (blk1 V c 4 t) (blk1 V c 5 t) (blk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (cover_acc1_A c _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out1_A c _ _ _ _ _ _ _ _ _ _ _ _ _ _ _ _ _ _ _ _ _ _ _ _ _ _ _ _ )
    · rw [PhiAcc_castSucc V c t, PhiAcc_pos V c _ _ hz]
      iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((bodyRun1_A c (grid1.coords t) _ _ _ _ _ _ _ _ _ _ _ _ _ _ _ _ _ _ ((isHop0_iff t).mpr h0) (notLater_of_even t h0) (blk1 V c 0 t) (blk1 V c 1 t) (blk1 V c 2 t) (blk1 V c 3 t) (blk1 V c 4 t) (blk1 V c 5 t) (blk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (cover_acc1_A c _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out1_A c _ _ _ _ _ _ _ _ _ _ _ _ _ _ _ _ _ _ _ _ _ _ _ _ _ _ _ _ )
  · rw [accAt_B V c t h0]
    unfold out1_B acc1_B; (try dsimp only)
    have hz : t.val ≠ 0 := fun h => h0 (by rw [h])
    rw [PhiAcc_castSucc V c t, PhiAcc_pos V c _ _ hz]
    iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyRun1_B c (grid1.coords t) _ _ _ _ _ _ _ _ _ _ _ _ _ _ _ _ _ _ (notHop0_of_odd t h0) (later_of_odd t h0) (blk1 V c 0 t) (blk1 V c 1 t) (blk1 V c 2 t) (blk1 V c 3 t) (blk1 V c 4 t) (blk1 V c 5 t) (blk1 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, ⟨%es0, HS0⟩⟩
    isplitl [HA HB HC HD HS0 Hg]
    · isplitl [HA HB HC HD HS0]
      · isplitl [HA]; · iexact HA
        isplitl [HB]; · iexact HB
        isplitl [HC]; · iexact HC
        isplitl [HD]; · iexact HD
        unfold owns; iexists _; isplitr
        swap; · iexact HS0
        ipureintro; exact View.read_writes_of_cover _ _ _ _ _ (cover_acc1_B c _ _ _ _ _ _ _ _ _ _ _ _ _ _ _ _ _ _ _ _ _ _ _ _ _ _ _ _ _ )
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_out1_B c _ _ _ _ _ _ _ _ _ _ _ _ _ _ _ _ _ _ _ _ _ _ _ _ _ _ _ _ _ )

theorem body_obligation1 (c : Dev nD) : BodyObligation (dat1 (F := F) V c) (defs₀ (F := F)) Variants.none () Set.univ := fun t => by
  rw [bigSep_W1, bigSep_W1]
  exact body1_at V c t

/-- What the launch hands the region is the invariant before the first point. -/
theorem dat1_in (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the invariant gives the plain one back: the accumulator's named contents are forgotten. -/
theorem dat1_out (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 16 := N_1; omega), PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

end Cert.KernelIdeal.Hand

end
-- ==== Proof.KIRun.lean ====
/-
  The whole program as four segments — the host operations before the regions (the gathers and
  weight transposes), the pooling region, the attention / recurrent region, the host operations
  after them (the epilogue) — and its run: every weakly fair execution terminates, and every
  unscoped buffer ends at a named valuation: the launch memory, then the first host stretch, then
  each region's arrays at what its write-backs leave, then the last host stretch.
-/
import proofs.«169310_j21139829031662_1_alg».proof.Proof.KIReg1
import proofs.«169310_j21139829031662_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c => V0 m c
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the pooling region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the attention / recurrent region. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-- After the epilogue. -/
abbrev W4 : Dev nD → Valuation τ sig (Elt F) := fun c => StableHlo.after hostOps2 (W3 m c)

/-- A buffer that neither host stretch writes and no region stages ends as launched. -/
theorem W4_kept (c : Dev nD) (b : Ref sig .tc) (h0 : b ∉ hostOps0_W) (h2 : b ∉ hostOps2_W)
    (ha0 : ∀ w, Pipeline.arrRef spec0 w ≠ b) (ha1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b ha1
    _ = W1 m c (Proc.devRef .tc b) := W2_of_ne m c b ha0
    _ = W0 m c (Proc.devRef .tc b) := StableHlo.after_of_writes_sub hostOps0 _ hostOps0_writes h0
    _ = m ((c : Thread nD τ).loc b) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := dat1_in (VV2 m) c
    unfold Pipeline.ΦA at h
    rw [show (pdats m 1 c).Φ 0 = (dat1 (VV2 m) c).Φ 0 from rfl]
    iintro ⟨Hp, -, Hr⟩
    iapply h
    isplitl [Hr]; · iexact Hr
    iexact Hp
  hout c := by
    rw [Pipeline.ownSems0_none]
    have h := dat1_out (VV2 m) c
    unfold Pipeline.ΦA at h
    rw [show (pdats m 1 c).Φ (Fin.last _) = (dat1 (VV2 m) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- Every weakly fair execution of the program terminates, nothing faulting, and every unscoped
    buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun c => by
      show iprop(StableHlo.held (c : Thread nD τ) (Pipeline.ucRefs τ sig) (W4 m c) ∗ Rst c) ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KIFrame.lean ====
/-
  The program's frame, and its run with the result named: every execution terminates, the
  fourteen argument arrays end as launched (no host operation writes one and no region stages
  one as an output), and the result buffer ends at the last valuation's contents.
-/
import proofs.«169310_j21139829031662_1_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide)),
    (h c _ (mem_uc main_arg10 (by decide))).trans (W4_kept m c main_arg10 (by decide) (by decide) (by decide) (by decide)),
    (h c _ (mem_uc main_arg11 (by decide))).trans (W4_kept m c main_arg11 (by decide) (by decide) (by decide) (by decide)),
    (h c _ (mem_uc main_arg12 (by decide))).trans (W4_kept m c main_arg12 (by decide) (by decide) (by decide) (by decide)),
    (h c _ (mem_uc main_arg13 (by decide))).trans (W4_kept m c main_arg13 (by decide) (by decide) (by decide) (by decide))⟩) (run_all m ρ)

theorem run_value : θ_run defs (onTc (τ := τ) (main (F := F))) ⟨m, fun _ => 0, ρ⟩ (fun r => ∀ c : Dev nD,
      r.2.mem ((c.tc : Thread nD τ).loc main_v71) = W4 m c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v71 (by decide)), (h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide)),
    (h c _ (mem_uc main_arg10 (by decide))).trans (W4_kept m c main_arg10 (by decide) (by decide) (by decide) (by decide)),
    (h c _ (mem_uc main_arg11 (by decide))).trans (W4_kept m c main_arg11 (by decide) (by decide) (by decide) (by decide)),
    (h c _ (mem_uc main_arg12 (by decide))).trans (W4_kept m c main_arg12 (by decide) (by decide) (by decide) (by decide)),
    (h c _ (mem_uc main_arg13 (by decide))).trans (W4_kept m c main_arg13 (by decide) (by decide) (by decide) (by decide))⟩) (run_all m ρ)

end Cert.KernelIdeal.Hand

end
-- ==== Proof.KIPayA.lean ====
import proofs.«169310_j21139829031662_1_alg».proof.Proof.Gen.KernelIdeal.Skeleton
import Idealize.ShloMosaic.Lib.ValueLayout
import Idealize.ShloMosaic.PureOps.Ideal.Laws

/-!
# The two kernel bodies' stored values: the pooling sum, and a hop's contribution stored or accumulated

The pooling body stores, at `(p, d)`, the sum over the 64 seed items of its block. The attention body computes one
array, the hop's contribution, from its seven blocks; at the first hop it stores it, at a later hop it adds it to what
the output block holds.
-/

noncomputable section

open scoped BigOperators

namespace Cert.KernelIdeal.PayValue

open Cert.KernelIdeal Cert.KernelIdeal.Gen Idealize.ShloMosaic Idealize.ShloMosaic.ValueIdx

/-! ## Sums over one axis -/

/-- The sum over the middle axis of a `[512, 64, 32]` array at `(p, d)` is `∑ k, src (p, k, d)`. -/
theorem sum_axis1_of3 (src : FVec Ideal S512x64x32 .f32) (h : S512x64x32.Reduces [1] S512x32) (hφ : FKind.Formats .f32)
    (hacc : (0x00000000#32 : BitVec 32) = 0x00000000#32) (p : Fin 512) (d : Fin 32) :
    multiReduction .add [1] S512x32 src 0x00000000#32 h hφ hacc (ix2 p d) = ∑ k : Fin 64, src (ix3 p k d) :=
  (Ideal.multiReduction_add_single src 0x00000000#32 h hφ hacc (ix2 p d)).trans
    (Finset.sum_congr rfl fun k _ => congrArg src (funext fun a => by
      match a with
      | ⟨0, _⟩ => rfl
      | ⟨1, _⟩ => rfl
      | ⟨2, _⟩ => rfl))

/-! ## The pooling body -/

/-- The pooling body's stored value at `(p, d)`: the sum over the 64 seed items. -/
theorem pool_apply (x : Vec Ideal S512x64x32 .bf16) (p : Fin 512) (d : Fin 32) :
    k0_pay1 (F := Ideal) x (ix2 p d) = ∑ k : Fin 64, x (ix3 p k d) := by
  unfold k0_pay1
  refine (sum_axis1_of3 _ _ _ _ p d).trans ?_
  refine Finset.sum_congr rfl fun k _ => ?_
  rw [extf_apply, shapeCast_self]

/-! ## The attention body -/

/-- A hop's contribution as the attention body computes it from its seven blocks: the heads, relations and tails
blocks, the two weight matrices (transposed) and the two bias rows. -/
def contrib (x0 x1 x2 : Vec Ideal S1x512x64x32 .bf16) (x3 : Vec Ideal S64x32 .bf16) (x4 : Vec Ideal S32x32 .bf16)
    (x5 x6 : Vec Ideal S1x32 .f32) : FVec Ideal S512x32 .f32 :=
  k1_pay1 (k1_pay7 x0 x1 x2) (k1_pay8 x0 x1) (k1_pay9 x1 x2) (k1_pay10 x3) (k1_pay11 x4) (k1_pay12 x5) (k1_pay13 x6)

/-- At the first hop the body stores the contribution. -/
theorem first_apply (x0 x1 x2 : Vec Ideal S1x512x64x32 .bf16) (x3 : Vec Ideal S64x32 .bf16) (x4 : Vec Ideal S32x32 .bf16)
    (x5 x6 : Vec Ideal S1x32 .f32) (p : Fin 512) (d : Fin 32) :
    k1_pay2 (F := Ideal) (k1_pay7 x0 x1 x2) (k1_pay8 x0 x1) (k1_pay9 x1 x2) (k1_pay10 x3) (k1_pay11 x4) (k1_pay12 x5)
        (k1_pay13 x6) (ix2 p d)
      = contrib x0 x1 x2 x3 x4 x5 x6 (ix2 p d) := by
  unfold k1_pay2 contrib
  rw [shapeCast_self]

/-- At a later hop the body stores what the output block holds plus the contribution. -/
theorem later_apply (x0 x1 x2 : Vec Ideal S1x512x64x32 .bf16) (x3 : Vec Ideal S64x32 .bf16) (x4 : Vec Ideal S32x32 .bf16)
    (x5 x6 : Vec Ideal S1x32 .f32) (acc : Vec Ideal S512x32 .f32) (p : Fin 512) (d : Fin 32) :
    k1_pay3 (F := Ideal) (k1_pay7 x0 x1 x2) (k1_pay8 x0 x1) (k1_pay9 x1 x2) (k1_pay10 x3) (k1_pay11 x4) (k1_pay12 x5)
        (k1_pay13 x6) acc (ix2 p d)
      = acc (ix2 p d) + contrib x0 x1 x2 x3 x4 x5 x6 (ix2 p d) := by
  unfold k1_pay3 contrib
  rw [shapeCast_self, addf_apply]

end Cert.KernelIdeal.PayValue

end
-- ==== Proof.KIArr0.lean ====
/-
  The pooled array: after the pooling region the output array holds, at (b, d), the sum over the
  64 seed items k of the gathered embedding at (b, k, d).  Each grid point t writes back the block
  of rows 512 t … 512 t + 511, computed from the same rows of the input array, and the eight
  blocks tile the array.
-/
import proofs.«169310_j21139829031662_1_alg».proof.Proof.KIReg0
import proofs.«169310_j21139829031662_1_alg».proof.Proof.KIPayA
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

theorem z2 : (![0, 0] : Fin 2 → Nat) = fun _ => 0 := funext fun a => by fin_cases a <;> rfl
theorem z3 : (![0, 0, 0] : Fin 3 → Nat) = fun _ => 0 := funext fun a => by fin_cases a <;> rfl

/-- The pooled array as one function of the gathered seed embeddings. -/
def pooledArr (c : Dev nD) : S4096x32.Idx → EReal := fun i =>
  ∑ k : Fin 64, (V c main_v7 : S4096x64x32.Idx → EReal) (ix3 ⟨(i 0).val, (i 0).isLt⟩ k ⟨(i 1).val, (i 1).isLt⟩)

/-- The two windows' block indices, decided over the grid: the input block moves with the output block along the rows and sits at 0 elsewhere. -/
theorem blocks0 : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

theorem blocks0_onto : ∀ q : Fin 8, ∃ t : Fin cfg0.N, win0_1.index t = ![q.val, 0] :=
  (by decide +kernel : ∀ q : Fin 8, ∃ t : Fin grid0.N, win0_1.index t = ![q.val, 0])

/-- What point `t` writes back is block `t` of the pooled array. -/
theorem flushed0_eq (c : Dev nD) (t : Fin cfg0.N) :
    (dat0 V c).flushed 1 t = ((cfg0.win 1).blk t).view.read (Elt Ideal) (pooledArr V c) := by
  show (cfg0.win 1).cut (grid0.coords t) ((dat0 V c).after 1 t) = _
  rw [dat0_after1]
  unfold pooled0
  rw [View.canon_unit_zero z2]
  simp only [View.ld_unit_zero (S := S512x64x32) z3]
  obtain ⟨e0, e1, e2, e3, e4⟩ := blocks0 t
  funext j
  obtain ⟨p, d, rfl⟩ : ∃ (p : Fin 512) (d : Fin 32), j = ix2 p d := ⟨j 0, j 1, eq_ix2 j⟩
  show k0_pay1 (F := Ideal) (blk0 V c 0 t) (ix2 p d) = pooledArr V c (((cfg0.win 1).blk t).view.emb (ix2 p d))
  rw [PayValue.pool_apply]
  unfold pooledArr
  refine Finset.sum_congr rfl fun k _ => ?_
  show V c main_v7 (((cfg0.win 0).blk t).view.emb (ix3 p k d)) = V c main_v7 (ix3 _ k _)
  refine congrArg _ ?_
  funext a; apply Fin.ext
  match a with
  | ⟨0, _⟩ => show win0_0.index t (0 : Fin 3) * 512 + 1 * p.val = win0_1.index t (0 : Fin 2) * 512 + 1 * p.val; omega
  | ⟨1, _⟩ => show win0_0.index t (1 : Fin 3) * 64 + 1 * k.val = k.val; omega
  | ⟨2, _⟩ => show win0_0.index t (2 : Fin 3) * 32 + 1 * d.val = win0_1.index t (1 : Fin 2) * 32 + 1 * d.val; omega

theorem mem_blk0 (t : Fin cfg0.N) (i : S4096x32.Idx) :
    i ∈ ((cfg0.win 1).blk t).view.set ↔ ∀ a : Fin 2, win0_1.index t a * S512x32.size a ≤ (i a).val ∧ (i a).val < win0_1.index t a * S512x32.size a + S512x32.size a := by
  show i ∈ ((View.whole main_v38).slice (win0_1.rect t)).set ↔ _
  rw [View.set_slice_whole, Rect.mem_set_unit]
  exact Iff.rfl

theorem cover0 (i : S4096x32.Idx) : ∃ t : Fin cfg0.N, (cfg0.win 1).flush t = true ∧ i ∈ ((cfg0.win 1).blk t).view.set := by
  have hi0 : (i 0).val < 4096 := (i 0).isLt
  have hi1 : (i 1).val < 32 := (i 1).isLt
  obtain ⟨t, ht⟩ := blocks0_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 32 ≤ (i 1).val ∧ (i 1).val < win0_1.index t (1 : Fin 2) * 32 + 32; omega

/-- The output array after the region. -/
theorem pooled_final (c : Dev nD) : (dat0 V c).arrAt 1 cfg0.N = pooledArr V c :=
  (dat0 V c).arrAt_eq_of_cover 1 (pooledArr V c) (fun t _ => flushed0_eq V c t) (cover0)

end Cert.KernelIdeal.Hand

end
-- ==== Proof.RowSpec.lean ====
import Idealize.ShloMosaic.PureOps.Ideal.Laws
import Idealize.ShloMosaic.Lib.ValueIdx
import Idealize.ShloMosaic.Lib.IdealHost

/-!
# The row specification

The mathematics both programs compute, one example (one row of the batch) at a time, over the extended reals,
with explicit finite sums over literal index types.

For one example and one hop, with `h k`, `r k`, `t k` the head, relation and tail embeddings of neighbour `k`
(64 neighbours, 32 coordinates each):

* `hr k = h k ++ r k` and `tr k = t k ++ r k` (64 coordinates: the first 32 from the entity, the last 32 from the relation);
* the score `s k = ∑ e, hr k e * tr k e`;
* the attention weight `π k = exp (s k - M) / ∑ k', exp (s k' - M)`, where `M` is the maximum of the scores, taken as the
  fold of `max` from `⊥` over the 64 neighbours (`rowMax`);
* the two steps of the recurrence, `h1 k d = tanh ((∑ e, hr k e * W d e) + b d + b' d)` and
  `h2 k d = tanh ((((∑ e, tr k e * W d e) + ∑ j, h1 k j * U d j) + b d) + b' d)`;
* the hop's contribution `∑ k, π k * h2 k d`.

The whole result at example `b` is the logistic function of `∑ d, (o d + u d) * (v d + w d)`, where
`o = (o₀ + hop 0) + hop 1`, `o₀ d = ∑ k, E[seed k] d`, and `u`, `v`, `w` are the rows of the user, entity and item tables
that the example's user and item select.

A row of a table selected by a 32-bit integer `i`: a negative `i` has the table's height added first, and the result,
read as a signed integer, is clamped into the table (`rowIx`).
-/

noncomputable section

open scoped BigOperators

namespace Cert.RowSpec

open Idealize.ShloMosaic Idealize.ShloMosaic.ValueIdx

/-! ## Rows of a table -/

/-- A negative index has the table's height added: `if i < 0 then i + N else i`, on 32-bit words. -/
def wrapIdx (N : BitVec 32) (i : BitVec 32) : BitVec 32 :=
  Scalar.select (IntOp.cmpi .slt i 0#32) (IntOp.addi i N) i

/-- The row of a table of height `N` that the word `i` selects: `i` wrapped, read signed, clamped into `[0, N - 1]`. -/
def rowIx (N : Nat) (hN : 0 < N) (i : BitVec 32) : Fin N :=
  ⟨min (wrapIdx (BitVec.ofNat 32 N) i).toInt.toNat (N - 1), by omega⟩

/-- The row of the table `tbl` (height `N`, width 32) selected by the word `i`. -/
def tableRow {N : Nat} (hN : 0 < N) (tbl : FVec Ideal ⟨2, ![N, 32]⟩ .f32) (i : BitVec 32) : Fin 32 → EReal :=
  fun d => tbl (ix2 (rowIx N hN i) d)

/-! ## One hop of one example -/

/-- Two vectors of 32 coordinates side by side: coordinates 0 … 31 from `a`, 32 … 63 from `b`. -/
def cat (a b : Fin 32 → EReal) (e : Fin 64) : EReal :=
  if h : e.val < 32 then a ⟨e.val, h⟩ else b ⟨e.val - 32, by omega⟩

/-- The maximum of 64 scores: the fold of `max` from `⊥`. -/
def rowMax (s : Fin 64 → EReal) : EReal := (Finset.univ : Finset (Fin 64)).fold max ⊥ s

/-- The softmax of 64 scores, shifted by their maximum. -/
def softmax (s : Fin 64 → EReal) (k : Fin 64) : EReal :=
  Ideal.div (Ideal.exp (s k - rowMax s)) (∑ k' : Fin 64, Ideal.exp (s k' - rowMax s))

/-- The score of neighbour `k`: the inner product of `h k ++ r k` and `t k ++ r k`. -/
def score (h r t : Fin 64 → Fin 32 → EReal) (k : Fin 64) : EReal :=
  ∑ e : Fin 64, cat (h k) (r k) e * cat (t k) (r k) e

/-- The first step of the recurrence at neighbour `k`, coordinate `d`. -/
def step1 (h r : Fin 64 → Fin 32 → EReal) (wih : Fin 32 → Fin 64 → EReal) (bih bhh : Fin 32 → EReal)
    (k : Fin 64) (d : Fin 32) : EReal :=
  Ideal.tanh ((∑ e : Fin 64, cat (h k) (r k) e * wih d e) + bih d + bhh d)

/-- The second step of the recurrence at neighbour `k`, coordinate `d`. -/
def step2 (h r t : Fin 64 → Fin 32 → EReal) (wih : Fin 32 → Fin 64 → EReal) (whh : Fin 32 → Fin 32 → EReal)
    (bih bhh : Fin 32 → EReal) (k : Fin 64) (d : Fin 32) : EReal :=
  Ideal.tanh ((((∑ e : Fin 64, cat (t k) (r k) e * wih d e) + ∑ j : Fin 32, step1 h r wih bih bhh k j * whh d j)
    + bih d) + bhh d)

/-- One example's contribution in one hop: the attention-weighted sum of the recurrence's final states. -/
def hopRow (h r t : Fin 64 → Fin 32 → EReal) (wih : Fin 32 → Fin 64 → EReal) (whh : Fin 32 → Fin 32 → EReal)
    (bih bhh : Fin 32 → EReal) : Fin 32 → EReal :=
  fun d => ∑ k : Fin 64, softmax (score h r t) k * step2 h r t wih whh bih bhh k d

/-! ## The epilogue -/

/-- The logistic function of the inner product of `o + ru` and `ei + ri`. -/
def finalScore (o ru ei ri : Fin 32 → EReal) : EReal :=
  Ideal.div 1 (1 + Ideal.exp (-(∑ d : Fin 32, (o d + ru d) * (ei d + ri d))))

/-! ## The whole result -/

/-- The sum of the 64 seed items' entity rows of example `b`. -/
def seedRow (hop0 : IVec ⟨2, ![4096, 64]⟩ 32) (ent : FVec Ideal ⟨2, ![500000, 32]⟩ .f32) (b : Fin 4096) : Fin 32 → EReal :=
  fun d => ∑ k : Fin 64, tableRow (by decide : 0 < 500000) ent (hop0 (ix2 b k)) d

/-- Hop `l`'s contribution to example `b`. -/
def hopOf (heads rels tails : IVec ⟨3, ![2, 4096, 64]⟩ 32) (ent : FVec Ideal ⟨2, ![500000, 32]⟩ .f32)
    (rel : FVec Ideal ⟨2, ![64, 32]⟩ .f32) (wih : FVec Ideal ⟨2, ![32, 64]⟩ .f32) (whh : FVec Ideal ⟨2, ![32, 32]⟩ .f32)
    (bih bhh : FVec Ideal ⟨1, ![32]⟩ .f32) (l : Fin 2) (b : Fin 4096) : Fin 32 → EReal :=
  hopRow (fun k => tableRow (by decide : 0 < 500000) ent (heads (ix3 l b k)))
    (fun k => tableRow (by decide : 0 < 64) rel (rels (ix3 l b k)))
    (fun k => tableRow (by decide : 0 < 500000) ent (tails (ix3 l b k)))
    (fun d e => wih (ix2 d e)) (fun d j => whh (ix2 d j)) (fun d => bih (ix1 d)) (fun d => bhh (ix1 d))

/-- The result at example `b`, with the hops added as `(o₀ + hop 0) + hop 1`. -/
def Grow (users items : IVec ⟨1, ![4096]⟩ 32) (hop0 : IVec ⟨2, ![4096, 64]⟩ 32)
    (heads rels tails : IVec ⟨3, ![2, 4096, 64]⟩ 32) (ent : FVec Ideal ⟨2, ![500000, 32]⟩ .f32)
    (rel : FVec Ideal ⟨2, ![64, 32]⟩ .f32) (usr : FVec Ideal ⟨2, ![100000, 32]⟩ .f32)
    (itm : FVec Ideal ⟨2, ![200000, 32]⟩ .f32) (wih : FVec Ideal ⟨2, ![32, 64]⟩ .f32)
    (whh : FVec Ideal ⟨2, ![32, 32]⟩ .f32) (bih bhh : FVec Ideal ⟨1, ![32]⟩ .f32) (b : Fin 4096) : EReal :=
  finalScore
    (fun d => (seedRow hop0 ent b d + hopOf heads rels tails ent rel wih whh bih bhh 0 b d)
      + hopOf heads rels tails ent rel wih whh bih bhh 1 b d)
    (tableRow (by decide : 0 < 100000) usr (users (ix1 b)))
    (tableRow (by decide : 0 < 500000) ent (items (ix1 b)))
    (tableRow (by decide : 0 < 200000) itm (items (ix1 b)))

/-- The whole result as one function of the fourteen argument arrays. -/
def G (users items : IVec ⟨1, ![4096]⟩ 32) (hop0 : IVec ⟨2, ![4096, 64]⟩ 32)
    (heads rels tails : IVec ⟨3, ![2, 4096, 64]⟩ 32) (ent : FVec Ideal ⟨2, ![500000, 32]⟩ .f32)
    (rel : FVec Ideal ⟨2, ![64, 32]⟩ .f32) (usr : FVec Ideal ⟨2, ![100000, 32]⟩ .f32)
    (itm : FVec Ideal ⟨2, ![200000, 32]⟩ .f32) (wih : FVec Ideal ⟨2, ![32, 64]⟩ .f32)
    (whh : FVec Ideal ⟨2, ![32, 32]⟩ .f32) (bih bhh : FVec Ideal ⟨1, ![32]⟩ .f32) : FVec Ideal ⟨1, ![4096]⟩ .f32 :=
  fun j => Grow users items hop0 heads rels tails ent rel usr itm wih whh bih bhh ⟨(j 0).val, (j 0).isLt⟩

/-- The result at the index whose coordinate is `b`. -/
theorem G_ix1 (users items : IVec ⟨1, ![4096]⟩ 32) (hop0 : IVec ⟨2, ![4096, 64]⟩ 32)
    (heads rels tails : IVec ⟨3, ![2, 4096, 64]⟩ 32) (ent : FVec Ideal ⟨2, ![500000, 32]⟩ .f32)
    (rel : FVec Ideal ⟨2, ![64, 32]⟩ .f32) (usr : FVec Ideal ⟨2, ![100000, 32]⟩ .f32)
    (itm : FVec Ideal ⟨2, ![200000, 32]⟩ .f32) (wih : FVec Ideal ⟨2, ![32, 64]⟩ .f32)
    (whh : FVec Ideal ⟨2, ![32, 32]⟩ .f32) (bih bhh : FVec Ideal ⟨1, ![32]⟩ .f32) (b : Fin 4096) :
    G users items hop0 heads rels tails ent rel usr itm wih whh bih bhh (ix1 b)
      = Grow users items hop0 heads rels tails ent rel usr itm wih whh bih bhh b := rfl

end Cert.RowSpec

end
-- ==== Proof.KIArrDefs.lean ====
/-
  The attention array stated: at (b, d) the first hop's contribution plus the second hop's, each
  the row specification's `hopRow` of the hop's gathered neighbour embeddings of example b and
  the (transposed) weights and biases, as the region finds them.
-/
import proofs.«169310_j21139829031662_1_alg».proof.Proof.KIReg1
import proofs.«169310_j21139829031662_1_alg».proof.Proof.RowSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-- One hop's contribution at example `b`, coordinate `d`, from the region's operand arrays. -/
def hopArr (c : Dev nD) (l : Fin 2) (b : Fin 4096) (d : Fin 32) : EReal :=
  Cert.RowSpec.hopRow (fun k e => (V c main_v15 : S2x4096x64x32.Idx → EReal) (ix4 l b k e))
    (fun k e => (V c main_v23 : S2x4096x64x32.Idx → EReal) (ix4 l b k e))
    (fun k e => (V c main_v31 : S2x4096x64x32.Idx → EReal) (ix4 l b k e))
    (fun dd e => (V c main_v33 : S64x32.Idx → EReal) (ix2 e dd))
    (fun dd j => (V c main_v35 : S32x32.Idx → EReal) (ix2 j dd))
    (fun dd => (V c main_v36 : S1x32.Idx → EReal) (ix2 0 dd))
    (fun dd => (V c main_v37 : S1x32.Idx → EReal) (ix2 0 dd)) d

/-- The attention array as one function of the operand arrays. -/
def attnArr (c : Dev nD) : S4096x32.Idx → EReal := fun i =>
  hopArr V c 0 ⟨(i 0).val, (i 0).isLt⟩ ⟨(i 1).val, (i 1).isLt⟩ + hopArr V c 1 ⟨(i 0).val, (i 0).isLt⟩ ⟨(i 1).val, (i 1).isLt⟩

end Cert.KernelIdeal.Hand

end
-- ==== Proof.KIHost0.lean ====
import proofs.«169310_j21139829031662_1_alg».proof.Proof.Gen.KernelIdeal.Regions
import proofs.«169310_j21139829031662_1_alg».proof.Proof.RowSpec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

/-!
# The operands of the two kernel regions, read at an index

Before the first region the program prepares, from the argument arrays, the arrays the regions read:

* for each of the four integer arrays of row numbers (the seed items, the heads, the relations, the tails) the rows of
  a table (the entity table, or the relation table for the relations) that the numbers select — a negative number
  first has the table's height added (`if i < 0 then i + N else i`), the result is read as a signed integer and clamped
  into the table, and the row is copied; the change of format that follows is the identity on extended reals;
* the two weight matrices transposed;
* the two bias vectors with a leading axis of extent one.

Each theorem below says what one of these arrays holds at an index, in terms of the argument arrays: a selected row is
`Cert.RowSpec.tableRow`.
-/

noncomputable section

namespace Cert.KernelIdeal.HostValue

open Idealize.ShloMosaic Idealize.ShloMosaic.ValueIdx Idealize.ShloMosaic.TcCoe
open Cert.KernelIdeal Cert.KernelIdeal.Gen

/-! ## A row gather read at an index

The gather that copies whole rows of a table `[N, 32]`: the start indices carry one trailing axis of extent one, the
table's axis 0 is collapsed and is the one axis the start index names, the slice is `[1, 32]`, and the result's last axis
is the row's. At `(…, e)` the result is the table at `(row, e)`, the row being the start index read as a signed integer
and clamped into `[0, N - 1]`. One statement per number of leading axes. -/

section Rows
variable {α : Type}

/-- A start index read as a signed integer and clamped into `[0, N - 1]`. -/
def clampRow {w : Nat} (N : Nat) (hN : 0 < N) (z : BitVec w) : Fin N := ⟨min z.toInt.toNat (N - 1), by omega⟩

/-- The dimension numbers of a row gather with start indices `[R, C, 1]`. -/
abbrev rowDims3 (N R C : Nat)
    (wf : GatherDims.WF ⟨2, ![N, 32]⟩ ⟨3, ![R, C, 1]⟩ ⟨3, ![R, C, 32]⟩ [2] [0] [] [0] [] 2 ![1, 32]) :
    GatherDims ⟨2, ![N, 32]⟩ ⟨3, ![R, C, 1]⟩ ⟨3, ![R, C, 32]⟩ where
  offsetDims := [2]
  collapsedSliceDims := [0]
  operandBatchingDims := []
  startIndicesBatchingDims := []
  startIndexMap := [0]
  indexVectorDim := 2
  sliceSizes := ![1, 32]
  wf := wf

theorem gather_rows3 {N R C w : Nat} (hN : 0 < N)
    (wf : GatherDims.WF ⟨2, ![N, 32]⟩ ⟨3, ![R, C, 1]⟩ ⟨3, ![R, C, 32]⟩ [2] [0] [] [0] [] 2 ![1, 32])
    (x : (⟨2, ![N, 32]⟩ : Shape).Idx → α) (idx : IVec ⟨3, ![R, C, 1]⟩ w) (r : Fin R) (c : Fin C) (e : Fin 32) :
    Host.gather (rowDims3 N R C wf) x idx (ix3 r c e)
      = x (ix2 (clampRow N hN (idx (ix3 r c (0 : Fin 1)))) e) := by
  unfold Host.gather
  congr 1
  funext a
  refine Fin.ext ?_
  match a with
  | ⟨0, _⟩ =>
    show (rowDims3 N R C wf).start (ix3 r c e) idx 0 + (rowDims3 N R C wf).batchCoord (ix3 r c e) 0
      + (rowDims3 N R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N R C wf).startIndexMap from List.mem_singleton.mpr rfl)]
    have hsi : (rowDims3 N R C wf).siIdx (ix3 r c e) ⟨List.idxOf (0 : Fin 2) (rowDims3 N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims3 N R C wf).start (ix3 r c e) idx 1 + (rowDims3 N R C wf).batchCoord (ix3 r c e) 1
      + (rowDims3 N R C wf).offCoord (ix3 r c e) 1 = e.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- The dimension numbers of a row gather with start indices `[A, R, C, 1]`. -/
abbrev rowDims4 (N A R C : Nat)
    (wf : GatherDims.WF ⟨2, ![N, 32]⟩ ⟨4, ![A, R, C, 1]⟩ ⟨4, ![A, R, C, 32]⟩ [3] [0] [] [0] [] 3 ![1, 32]) :
    GatherDims ⟨2, ![N, 32]⟩ ⟨4, ![A, R, C, 1]⟩ ⟨4, ![A, R, C, 32]⟩ where
  offsetDims := [3]
  collapsedSliceDims := [0]
  operandBatchingDims := []
  startIndicesBatchingDims := []
  startIndexMap := [0]
  indexVectorDim := 3
  sliceSizes := ![1, 32]
  wf := wf

theorem gather_rows4 {N A R C w : Nat} (hN : 0 < N)
    (wf : GatherDims.WF ⟨2, ![N, 32]⟩ ⟨4, ![A, R, C, 1]⟩ ⟨4, ![A, R, C, 32]⟩ [3] [0] [] [0] [] 3 ![1, 32])
    (x : (⟨2, ![N, 32]⟩ : Shape).Idx → α) (idx : IVec ⟨4, ![A, R, C, 1]⟩ w) (l : Fin A) (r : Fin R) (c : Fin C) (e : Fin 32) :
    Host.gather (rowDims4 N A R C wf) x idx (ix4 l r c e)
      = x (ix2 (clampRow N hN (idx (ix4 l r c (0 : Fin 1)))) e) := by
  unfold Host.gather
  congr 1
  funext a
  refine Fin.ext ?_
  match a with
  | ⟨0, _⟩ =>
    show (rowDims4 N A R C wf).start (ix4 l r c e) idx 0 + (rowDims4 N A R C wf).batchCoord (ix4 l r c e) 0
      + (rowDims4 N A R C wf).offCoord (ix4 l r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims4 N A R C wf).startIndexMap from List.mem_singleton.mpr rfl)]
    have hsi : (rowDims4 N A R C wf).siIdx (ix4 l r c e) ⟨List.idxOf (0 : Fin 2) (rowDims4 N A R C wf).startIndexMap,
        List.idxOf_lt_length_iff.2 (List.mem_singleton.mpr rfl)⟩ = ix4 l r c (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowDims4 N A R C wf).start (ix4 l r c e) idx 1 + (rowDims4 N A R C wf).batchCoord (ix4 l r c e) 1
      + (rowDims4 N A R C wf).offCoord (ix4 l r c e) 1 = e.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- The dimension numbers of a row gather with start indices `[R, 1]`. -/
abbrev rowDims2 (N R : Nat)
    (wf : GatherDims.WF ⟨2, ![N, 32]⟩ ⟨2, ![R, 1]⟩ ⟨2, ![R, 32]⟩ [1] [0] [] [0] [] 1 ![1, 32]) :
    GatherDims ⟨2, ![N, 32]⟩ ⟨2, ![R, 1]⟩ ⟨2, ![R, 32]⟩ where
  offsetDims := [1]
  collapsedSliceDims := [0]
  operandBatchingDims := []
  startIndicesBatchingDims := []
  startIndexMap := [0]
  indexVectorDim := 1
  sliceSizes := ![1, 32]
  wf := wf

theorem gather_rows2 {N R w : Nat} (hN : 0 < N)
    (wf : GatherDims.WF ⟨2, ![N, 32]⟩ ⟨2, ![R, 1]⟩ ⟨2, ![R, 32]⟩ [1] [0] [] [0] [] 1 ![1, 32])
    (x : (⟨2, ![N, 32]⟩ : Shape).Idx → α) (idx : IVec ⟨2, ![R, 1]⟩ w) (r : Fin R) (e : Fin 32) :
    Host.gather (rowDims2 N R wf) x idx (ix2 r e)
      = x (ix2 (clampRow N hN (idx (ix2 r (0 : Fin 1)))) e) := by
  unfold Host.gather
  congr 1
  funext a
  refine Fin.ext ?_
  match a with
  | ⟨0, _⟩ =>
    show (rowDims2 N R wf).start (ix2 r e) idx 0 + (rowDims2 N R wf).batchCoord (ix2 r e) 0
      + (rowDims2 N R wf).offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N R wf).startIndexMap from List.mem_singleton.mpr rfl)]
    have hsi : (rowDims2 N R wf).siIdx (ix2 r e) ⟨List.idxOf (0 : Fin 2) (rowDims2 N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims2 N R wf).start (ix2 r e) idx 1 + (rowDims2 N R wf).batchCoord (ix2 r e) 1
      + (rowDims2 N R wf).offCoord (ix2 r e) 1 = e.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end Rows

/-! ## The wrap of a negative row number, and the rows it selects -/

/-- `if i < 0 then i + n else i` over a whole array of 32-bit words, read at an index. -/
theorem wrap_apply {s : Shape} (ids : IVec s 32) (n : BitVec 32)
    (h0 : (⟨0, ![]⟩ : Shape).BroadcastsInDim s ![]) (i : s.Idx) :
    select (cmpi .slt ids (broadcastInDim s ![] h0 (constantI ⟨0, ![]⟩ 32 0#32)))
      (addi ids (broadcastInDim s ![] h0 (constantI ⟨0, ![]⟩ 32 n))) ids i = Cert.RowSpec.wrapIdx n (ids i) := by
  show Scalar.select (IntOp.cmpi .slt (ids i) (broadcastInDim s ![] h0 (constantI ⟨0, ![]⟩ 32 0#32) i))
    (IntOp.addi (ids i) (broadcastInDim s ![] h0 (constantI ⟨0, ![]⟩ 32 n) i)) (ids i) = _
  rw [broadcastInDim_scalar_apply, broadcastInDim_scalar_apply]
  rfl

/-- Rows of a table selected by an `[R, C]` array of row numbers `w` (given a trailing unit axis): at `(r, c, e)` the
    table's row `w (r, c)`, read signed and clamped, at coordinate `e`. -/
theorem rows3_apply {N R C : Nat} (hN : 0 < N)
    (wf : GatherDims.WF ⟨2, ![N, 32]⟩ ⟨3, ![R, C, 1]⟩ ⟨3, ![R, C, 32]⟩ [2] [0] [] [0] [] 2 ![1, 32])
    (hb : (⟨2, ![R, C]⟩ : Shape).BroadcastsInDim ⟨3, ![R, C, 1]⟩ ![0, 1])
    (tbl : FVec Ideal ⟨2, ![N, 32]⟩ .f32) (w : IVec ⟨2, ![R, C]⟩ 32) (r : Fin R) (c : Fin C) (e : Fin 32) :
    Host.gather (rowDims3 N R C wf) tbl (broadcastInDim ⟨3, ![R, C, 1]⟩ ![0, 1] hb w) (ix3 r c e)
      = tbl (ix2 (clampRow N hN (w (ix2 r c))) e) := by
  have h : broadcastInDim ⟨3, ![R, C, 1]⟩ ![0, 1] hb w (ix3 r c (0 : Fin 1)) = w (ix2 r c) :=
    broadcastInDim_apply ![0, 1] hb w (ix3 r c (0 : Fin 1)) (ix2 r c) fun a => match a with
      | ⟨0, _⟩ => by show r.val = if R = 1 then 0 else r.val; split <;> omega
      | ⟨1, _⟩ => by show c.val = if C = 1 then 0 else c.val; split <;> omega
  rw [gather_rows3 hN, h]

/-- The same with one more leading axis: row numbers `[A, R, C]`. -/
theorem rows4_apply {N A R C : Nat} (hN : 0 < N)
    (wf : GatherDims.WF ⟨2, ![N, 32]⟩ ⟨4, ![A, R, C, 1]⟩ ⟨4, ![A, R, C, 32]⟩ [3] [0] [] [0] [] 3 ![1, 32])
    (hb : (⟨3, ![A, R, C]⟩ : Shape).BroadcastsInDim ⟨4, ![A, R, C, 1]⟩ ![0, 1, 2])
    (tbl : FVec Ideal ⟨2, ![N, 32]⟩ .f32) (w : IVec ⟨3, ![A, R, C]⟩ 32) (l : Fin A) (r : Fin R) (c : Fin C) (e : Fin 32) :
    Host.gather (rowDims4 N A R C wf) tbl (broadcastInDim ⟨4, ![A, R, C, 1]⟩ ![0, 1, 2] hb w) (ix4 l r c e)
      = tbl (ix2 (clampRow N hN (w (ix3 l r c))) e) := by
  have h : broadcastInDim ⟨4, ![A, R, C, 1]⟩ ![0, 1, 2] hb w (ix4 l r c (0 : Fin 1)) = w (ix3 l r c) :=
    broadcastInDim_apply ![0, 1, 2] hb w (ix4 l r c (0 : Fin 1)) (ix3 l r c) fun a => match a with
      | ⟨0, _⟩ => by show l.val = if A = 1 then 0 else l.val; split <;> omega
      | ⟨1, _⟩ => by show r.val = if R = 1 then 0 else r.val; split <;> omega
      | ⟨2, _⟩ => by show c.val = if C = 1 then 0 else c.val; split <;> omega
  rw [gather_rows4 hN, h]

/-- The same with a single leading axis: row numbers `[R]`. -/
theorem rows2_apply {N R : Nat} (hN : 0 < N)
    (wf : GatherDims.WF ⟨2, ![N, 32]⟩ ⟨2, ![R, 1]⟩ ⟨2, ![R, 32]⟩ [1] [0] [] [0] [] 1 ![1, 32])
    (hb : (⟨1, ![R]⟩ : Shape).BroadcastsInDim ⟨2, ![R, 1]⟩ ![0])
    (tbl : FVec Ideal ⟨2, ![N, 32]⟩ .f32) (w : IVec ⟨1, ![R]⟩ 32) (r : Fin R) (e : Fin 32) :
    Host.gather (rowDims2 N R wf) tbl (broadcastInDim ⟨2, ![R, 1]⟩ ![0] hb w) (ix2 r e)
      = tbl (ix2 (clampRow N hN (w (ix1 r))) e) := by
  have h : broadcastInDim ⟨2, ![R, 1]⟩ ![0] hb w (ix2 r (0 : Fin 1)) = w (ix1 r) :=
    broadcastInDim_apply ![0] hb w (ix2 r (0 : Fin 1)) (ix1 r) fun a => match a with
      | ⟨0, _⟩ => by show r.val = if R = 1 then 0 else r.val; split <;> omega
  rw [gather_rows2 hN, h]

/-- The row of a table that a word selects is the clamp of its wrap. -/
theorem rowIx_eq (N : Nat) (hN : 0 < N) (i : BitVec 32) :
    Cert.RowSpec.rowIx N hN i = clampRow N hN (Cert.RowSpec.wrapIdx (BitVec.ofNat 32 N) i) := rfl

/-! ## The regions' operands -/

variable (m : (ℓ : Loc nD τ sig) → Buf (Elt Ideal) ℓ) (c : Dev nD)

/-- The seed items' entity rows: at `(b, k, d)` coordinate `d` of the entity table's row selected by seed item `k` of
    example `b`. -/
theorem v7_apply (b : Fin 4096) (k : Fin 64) (d : Fin 32) :
    (V1 m c main_v7 : S4096x64x32.Idx → EReal) (ix3 b k d)
      = Cert.RowSpec.tableRow (by decide : 0 < 500000) (m ((c : Thread nD τ).loc main_arg6))
          ((m ((c : Thread nD τ).loc main_arg2) : S4096x64.Idx → BitVec 32) (ix2 b k)) d := by
  dsimp only [V1]
  after_results_simp
  rw [truncf_apply]
  refine (rows3_apply (by decide) gather_S500000x32_S4096x64x1_S4096x64x32_2_0_n_n_0_2_132_wf
    bcast_S4096x64_S4096x64x1_0_1 _ _ b k d).trans ?_
  rw [wrap_apply]
  rfl

/-- The heads' entity rows: at `(l, b, k, d)` coordinate `d` of the entity table's row selected by the head of
    neighbour `k` of example `b` in hop `l`. -/
theorem v15_apply (l : Fin 2) (b : Fin 4096) (k : Fin 64) (d : Fin 32) :
    (V1 m c main_v15 : S2x4096x64x32.Idx → EReal) (ix4 l b k d)
      = Cert.RowSpec.tableRow (by decide : 0 < 500000) (m ((c : Thread nD τ).loc main_arg6))
          ((m ((c : Thread nD τ).loc main_arg3) : S2x4096x64.Idx → BitVec 32) (ix3 l b k)) d := by
  dsimp only [V1]
  after_results_simp
  rw [truncf_apply]
  refine (rows4_apply (by decide) gather_S500000x32_S2x4096x64x1_S2x4096x64x32_3_0_n_n_0_3_132_wf
    bcast_S2x4096x64_S2x4096x64x1_0_1_2 _ _ l b k d).trans ?_
  rw [wrap_apply]
  rfl

/-- The relations' rows: at `(l, b, k, d)` coordinate `d` of the relation table's row selected by the relation of
    neighbour `k` of example `b` in hop `l`. -/
theorem v23_apply (l : Fin 2) (b : Fin 4096) (k : Fin 64) (d : Fin 32) :
    (V1 m c main_v23 : S2x4096x64x32.Idx → EReal) (ix4 l b k d)
      = Cert.RowSpec.tableRow (by decide : 0 < 64) (m ((c : Thread nD τ).loc main_arg7))
          ((m ((c : Thread nD τ).loc main_arg4) : S2x4096x64.Idx → BitVec 32) (ix3 l b k)) d := by
  dsimp only [V1]
  after_results_simp
  rw [truncf_apply]
  refine (rows4_apply (by decide) gather_S64x32_S2x4096x64x1_S2x4096x64x32_3_0_n_n_0_3_132_wf
    bcast_S2x4096x64_S2x4096x64x1_0_1_2 _ _ l b k d).trans ?_
  rw [wrap_apply]
  rfl

/-- The tails' entity rows: at `(l, b, k, d)` coordinate `d` of the entity table's row selected by the tail of
    neighbour `k` of example `b` in hop `l`. -/
theorem v31_apply (l : Fin 2) (b : Fin 4096) (k : Fin 64) (d : Fin 32) :
    (V1 m c main_v31 : S2x4096x64x32.Idx → EReal) (ix4 l b k d)
      = Cert.RowSpec.tableRow (by decide : 0 < 500000) (m ((c : Thread nD τ).loc main_arg6))
          ((m ((c : Thread nD τ).loc main_arg5) : S2x4096x64.Idx → BitVec 32) (ix3 l b k)) d := by
  dsimp only [V1]
  after_results_simp
  rw [truncf_apply]
  refine (rows4_apply (by decide) gather_S500000x32_S2x4096x64x1_S2x4096x64x32_3_0_n_n_0_3_132_wf
    bcast_S2x4096x64_S2x4096x64x1_0_1_2 _ _ l b k d).trans ?_
  rw [wrap_apply]
  rfl

/-- The input weights transposed: at `(e, d)` the weight matrix at `(d, e)`. -/
theorem v33_apply (e : Fin 64) (d : Fin 32) :
    (V1 m c main_v33 : S64x32.Idx → EReal) (ix2 e d)
      = (m ((c : Thread nD τ).loc main_arg10) : S32x64.Idx → EReal) (ix2 d e) := by
  dsimp only [V1]
  after_results_simp
  rw [truncf_apply]
  exact transpose_ix2_apply _ transposes_S32x64_S64x32_1_0 e d

/-- The recurrent weights transposed: at `(j, d)` the weight matrix at `(d, j)`. -/
theorem v35_apply (j d : Fin 32) :
    (V1 m c main_v35 : S32x32.Idx → EReal) (ix2 j d)
      = (m ((c : Thread nD τ).loc main_arg11) : S32x32.Idx → EReal) (ix2 d j) := by
  dsimp only [V1]
  after_results_simp
  rw [truncf_apply]
  exact transpose_ix2_apply _ transposes_S32x32_S32x32_1_0 j d

/-- The input bias as a `[1, 32]` array: at `(0, d)` the bias at `d`. -/
theorem v36_apply (d : Fin 32) :
    (V1 m c main_v36 : S1x32.Idx → EReal) (ix2 (0 : Fin 1) d)
      = (m ((c : Thread nD τ).loc main_arg12) : S32.Idx → EReal) (ix1 d) := by
  dsimp only [V1]
  after_results_simp
  exact shapeCast_a_1a_apply _ shapeCasts_S32_S1x32 0 d

/-- The recurrent bias as a `[1, 32]` array: at `(0, d)` the bias at `d`. -/
theorem v37_apply (d : Fin 32) :
    (V1 m c main_v37 : S1x32.Idx → EReal) (ix2 (0 : Fin 1) d)
      = (m ((c : Thread nD τ).loc main_arg13) : S32.Idx → EReal) (ix1 d) := by
  dsimp only [V1]
  after_results_simp
  exact shapeCast_a_1a_apply _ shapeCasts_S32_S1x32 0 d

end Cert.KernelIdeal.HostValue

end
-- ==== Proof.KIVal0.lean ====
/-
  The two regions' output arrays in terms of the argument arrays: the pooled array is the row
  specification's seed sum, each hop's contribution its `hopOf`; the operands the regions read are
  what the first host stretch left (no region writes them), which are rows of the tables selected
  by the index arrays, the transposed weights and the reshaped biases.
-/
import proofs.«169310_j21139829031662_1_alg».proof.Proof.KIRun
import proofs.«169310_j21139829031662_1_alg».proof.Proof.KIArr0
import proofs.«169310_j21139829031662_1_alg».proof.Proof.KIArrDefs
import proofs.«169310_j21139829031662_1_alg».proof.Proof.KIHost0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (c : Dev nD)

/-- A buffer no window of the pooling region stages is, after it, what the first host stretch left. -/
theorem VV2_kept (b : Ref sig .tc) (h : ∀ w, Pipeline.arrRef spec0 w ≠ b) : VV2 m c b = V1 m c b := W2_of_ne m c b h

theorem pooled_row (b : Fin 4096) (d : Fin 32) :
    pooledArr (VV1 m) c (ix2 b d) = Cert.RowSpec.seedRow (m ((c : Thread nD τ).loc main_arg2)) (m ((c : Thread nD τ).loc main_arg6)) b d := by
  unfold pooledArr Cert.RowSpec.seedRow
  refine Finset.sum_congr rfl fun k _ => ?_
  exact HostValue.v7_apply m c b k d

theorem hop_row (l : Fin 2) (b : Fin 4096) (d : Fin 32) :
    hopArr (VV2 m) c l b d = Cert.RowSpec.hopOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) l b d := by
  unfold hopArr Cert.RowSpec.hopOf
  rw [VV2_kept m c main_v15 (by decide), VV2_kept m c main_v23 (by decide), VV2_kept m c main_v31 (by decide),
    VV2_kept m c main_v33 (by decide), VV2_kept m c main_v35 (by decide), VV2_kept m c main_v36 (by decide), VV2_kept m c main_v37 (by decide)]
  have e0 : (fun (k : Fin 64) (e : Fin 32) => (V1 m c main_v15 : S2x4096x64x32.Idx → EReal) (ix4 l b k e)) = _ := funext fun k => funext fun e => HostValue.v15_apply m c l b k e
  have e1 : (fun (k : Fin 64) (e : Fin 32) => (V1 m c main_v23 : S2x4096x64x32.Idx → EReal) (ix4 l b k e)) = _ := funext fun k => funext fun e => HostValue.v23_apply m c l b k e
  have e2 : (fun (k : Fin 64) (e : Fin 32) => (V1 m c main_v31 : S2x4096x64x32.Idx → EReal) (ix4 l b k e)) = _ := funext fun k => funext fun e => HostValue.v31_apply m c l b k e
  have e3 : (fun (dd : Fin 32) (e : Fin 64) => (V1 m c main_v33 : S64x32.Idx → EReal) (ix2 e dd)) = _ := funext fun dd => funext fun e => HostValue.v33_apply m c e dd
  have e4 : (fun (dd : Fin 32) (j : Fin 32) => (V1 m c main_v35 : S32x32.Idx → EReal) (ix2 j dd)) = _ := funext fun dd => funext fun j => HostValue.v35_apply m c j dd
  have e5 : (fun (dd : Fin 32) => (V1 m c main_v36 : S1x32.Idx → EReal) (ix2 0 dd)) = _ := funext fun dd => HostValue.v36_apply m c dd
  have e6 : (fun (dd : Fin 32) => (V1 m c main_v37 : S1x32.Idx → EReal) (ix2 0 dd)) = _ := funext fun dd => HostValue.v37_apply m c dd
  exact (congrArg (fun f => Cert.RowSpec.hopRow f _ _ _ _ _ _ d) e0).trans <| (congrArg (fun f => Cert.RowSpec.hopRow _ f _ _ _ _ _ d) e1).trans <|
    (congrArg (fun f => Cert.RowSpec.hopRow _ _ f _ _ _ _ d) e2).trans <| (congrArg (fun f => Cert.RowSpec.hopRow _ _ _ f _ _ _ d) e3).trans <|
    (congrArg (fun f => Cert.RowSpec.hopRow _ _ _ _ f _ _ d) e4).trans <| (congrArg (fun f => Cert.RowSpec.hopRow _ _ _ _ _ f _ d) e5).trans <|
    (congrArg (fun f => Cert.RowSpec.hopRow _ _ _ _ _ _ f d) e6)

theorem attn_row (b : Fin 4096) (d : Fin 32) :
    attnArr (VV2 m) c (ix2 b d) = Cert.RowSpec.hopOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) 0 b d
      + Cert.RowSpec.hopOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) 1 b d := by
  unfold attnArr
  show hopArr (VV2 m) c 0 b d + hopArr (VV2 m) c 1 b d = _
  rw [hop_row, hop_row]

end Cert.KernelIdeal.Hand

end
-- ==== Proof.KIPieces.lean ====
/-
  What the two cases of the attention / recurrent body leave, named: at the first hop both the
  accumulator and the output block hold the hop's contribution; at a later hop both hold the
  previous accumulator plus the hop's contribution.
-/
import proofs.«169310_j21139829031662_1_alg».proof.Proof.KIReg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

set_option maxHeartbeats 2000000 in
theorem acc1_A_eq (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) :
    acc1_A c i arg2 harg2 arg3 harg3 arg4 harg4 arg5 harg5 arg6 harg6 arg7 harg7 arg8 harg8 arg9 harg9 arg10 harg10 hc0 hc1 x0 x1 x2 x3 x4 x5 x6 = k1_pay2 (k1_pay7 x0 x1 x2) (k1_pay8 x0 x1) (k1_pay9 x1 x2) (k1_pay10 x3) (k1_pay11 x4) (k1_pay12 x5) (k1_pay13 x6) := by
  unfold acc1_A
  rw [View.read_writes_eq_canon _ _ _ (cover_acc1_A c i arg2 harg2 arg3 harg3 arg4 harg4 arg5 harg5 arg6 harg6 arg7 harg7 arg8 harg8 arg9 harg9 arg10 harg10 hc0 hc1 x0 x1 x2 x3 x4 x5 x6)]
  unfold bodyRun1_A; dsimp only; sl_unfold_words
  rw [View.canon_unit_zero hz2]
  simp only [View.readAt_eq_ld, Memref.IsWhole.read_unread, View.ld_unit_zero (S := S1x512x64x32) hz4, View.ld_unit_zero (S := S64x32) hz2, View.ld_unit_zero (S := S32x32) hz2, View.ld_unit_zero (S := S1x32) hz2]

set_option maxHeartbeats 2000000 in
theorem out1_A_eq (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : isHop0 i) (hc1 : ¬isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) :
    out1_A c i arg2 harg2 arg3 harg3 arg4 harg4 arg5 harg5 arg6 harg6 arg7 harg7 arg8 harg8 arg9 harg9 arg10 harg10 hc0 hc1 x0 x1 x2 x3 x4 x5 x6 = k1_pay2 (k1_pay7 x0 x1 x2) (k1_pay8 x0 x1) (k1_pay9 x1 x2) (k1_pay10 x3) (k1_pay11 x4) (k1_pay12 x5) (k1_pay13 x6) := by
  unfold out1_A
  rw [View.read_writes_eq_canon _ _ _ (cover_out1_A c i arg2 harg2 arg3 harg3 arg4 harg4 arg5 harg5 arg6 harg6 arg7 harg7 arg8 harg8 arg9 harg9 arg10 harg10 hc0 hc1 x0 x1 x2 x3 x4 x5 x6)]
  unfold bodyRun1_A; dsimp only; sl_unfold_words
  rw [View.canon_unit_zero hz2]
  simp only [View.readAt_eq_ld, Memref.IsWhole.read_unread, View.ld_unit_zero (S := S1x512x64x32) hz4, View.ld_unit_zero (S := S64x32) hz2, View.ld_unit_zero (S := S32x32) hz2, View.ld_unit_zero (S := S1x32) hz2, View.ld_unit_zero (S := S512x32) hz2]
  exact View.readCov_unit_zero _ hz2 _ _

set_option maxHeartbeats 2000000 in
theorem acc1_B_eq (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) :
    acc1_B c i arg2 harg2 arg3 harg3 arg4 harg4 arg5 harg5 arg6 harg6 arg7 harg7 arg8 harg8 arg9 harg9 arg10 harg10 hc0 hc1 x0 x1 x2 x3 x4 x5 x6 xs0 = k1_pay3 (k1_pay7 x0 x1 x2) (k1_pay8 x0 x1) (k1_pay9 x1 x2) (k1_pay10 x3) (k1_pay11 x4) (k1_pay12 x5) (k1_pay13 x6) xs0 := by
  unfold acc1_B
  rw [View.read_writes_eq_canon _ _ _ (cover_acc1_B c i arg2 harg2 arg3 harg3 arg4 harg4 arg5 harg5 arg6 harg6 arg7 harg7 arg8 harg8 arg9 harg9 arg10 harg10 hc0 hc1 x0 x1 x2 x3 x4 x5 x6 xs0)]
  unfold bodyRun1_B; dsimp only; sl_unfold_words
  rw [View.canon_unit_zero hz2]
  simp only [View.readAt_eq_ld, Memref.IsWhole.read_unread, View.ld_unit_zero (S := S1x512x64x32) hz4, View.ld_unit_zero (S := S64x32) hz2, View.ld_unit_zero (S := S32x32) hz2, View.ld_unit_zero (S := S1x32) hz2, View.ld_unit_zero (S := S512x32) hz2]

set_option maxHeartbeats 2000000 in
theorem out1_B_eq (c : Dev nD) (i : grid1.Coords) (arg2 : Memref sig .tc .vmem S1x512x64x32 .bf16) (harg2 : arg2.IsWhole) (arg3 : Memref sig .tc .vmem S1x512x64x32 .bf16) (harg3 : arg3.IsWhole) (arg4 : Memref sig .tc .vmem S1x512x64x32 .bf16) (harg4 : arg4.IsWhole) (arg5 : Memref sig .tc .vmem S64x32 .bf16) (harg5 : arg5.IsWhole) (arg6 : Memref sig .tc .vmem S32x32 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S512x32 .f32) (harg10 : arg10.IsWhole) (hc0 : ¬isHop0 i) (hc1 : isLater i) (x0 : Vec F S1x512x64x32 .bf16) (x1 : Vec F S1x512x64x32 .bf16) (x2 : Vec F S1x512x64x32 .bf16) (x3 : Vec F S64x32 .bf16) (x4 : Vec F S32x32 .bf16) (x5 : Vec F S1x32 .f32) (x6 : Vec F S1x32 .f32) (xs0 : Vec F S512x32 .f32) :
    out1_B c i arg2 harg2 arg3 harg3 arg4 harg4 arg5 harg5 arg6 harg6 arg7 harg7 arg8 harg8 arg9 harg9 arg10 harg10 hc0 hc1 x0 x1 x2 x3 x4 x5 x6 xs0 = k1_pay3 (k1_pay7 x0 x1 x2) (k1_pay8 x0 x1) (k1_pay9 x1 x2) (k1_pay10 x3) (k1_pay11 x4) (k1_pay12 x5) (k1_pay13 x6) xs0 := by
  unfold out1_B
  rw [View.read_writes_eq_canon _ _ _ (cover_out1_B c i arg2 harg2 arg3 harg3 arg4 harg4 arg5 harg5 arg6 harg6 arg7 harg7 arg8 harg8 arg9 harg9 arg10 harg10 hc0 hc1 x0 x1 x2 x3 x4 x5 x6 xs0)]
  unfold bodyRun1_B; dsimp only; sl_unfold_words
  rw [View.canon_unit_zero hz2]
  simp only [View.readAt_eq_ld, Memref.IsWhole.read_unread, View.ld_unit_zero (S := S1x512x64x32) hz4, View.ld_unit_zero (S := S64x32) hz2, View.ld_unit_zero (S := S32x32) hz2, View.ld_unit_zero (S := S1x32) hz2, View.ld_unit_zero (S := S512x32) hz2]
  exact View.readCov_unit_zero _ hz2 _ _

end Cert.KernelIdeal.Hand

end
-- ==== Proof.KIPayOps.lean ====
import proofs.«169310_j21139829031662_1_alg».proof.Proof.Gen.KernelIdeal.Skeleton
import Idealize.ShloMosaic.Lib.ValueLayout
import Idealize.ShloMosaic.PureOps.Ideal.Laws

/-!
# Array operations read at an index

Each operation of the two kernel bodies that is not elementwise, read at one index given by its coordinates:
the sum over one axis, the maximum over one axis, the reshapes that add or drop a unit axis or merge two axes,
the broadcasts of a column or a row, and the product of two matrices.
-/

noncomputable section

open scoped BigOperators

namespace Cert.KernelIdeal.PayValue

open Cert.KernelIdeal Cert.KernelIdeal.Gen Idealize.ShloMosaic Idealize.ShloMosaic.ValueIdx

/-! ## The row of the merged array: neighbour `k` of example `p` is row `p * 64 + k` -/

/-- Row `p * 64 + k` of a `[32768, ·]` array: neighbour `k` of example `p`. -/
def row (p : Fin 512) (k : Fin 64) : Fin 32768 := ⟨p.val * 64 + k.val, by omega⟩

/-! ## Sums and maxima over one axis -/

/-- The sum over the last axis of a `[512, 64, 64]` array at `(p, k)` is `∑ e, src (p, k, e)`. -/
theorem sum_axis2_of3 (src : FVec Ideal S512x64x64 .f32) (h : S512x64x64.Reduces [2] S512x64) (hφ : FKind.Formats .f32)
    (hacc : (0x00000000#32 : BitVec 32) = 0x00000000#32) (p : Fin 512) (k : Fin 64) :
    multiReduction .add [2] S512x64 src 0x00000000#32 h hφ hacc (ix2 p k) = ∑ e : Fin 64, src (ix3 p k e) :=
  (Ideal.multiReduction_add_single src 0x00000000#32 h hφ hacc (ix2 p k)).trans
    (Finset.sum_congr rfl fun e _ => congrArg src (funext fun a => by
      match a with
      | ⟨0, _⟩ => rfl
      | ⟨1, _⟩ => rfl
      | ⟨2, _⟩ => rfl))

/-- The sum over the last axis of a `[512, 64]` array at `p` is `∑ k, src (p, k)`. -/
theorem sum_axis1_of2 (src : FVec Ideal S512x64 .f32) (h : S512x64.Reduces [1] S512) (hφ : FKind.Formats .f32)
    (hacc : (0x00000000#32 : BitVec 32) = 0x00000000#32) (p : Fin 512) :
    multiReduction .add [1] S512 src 0x00000000#32 h hφ hacc (ix1 p) = ∑ k : Fin 64, src (ix2 p k) :=
  (Ideal.multiReduction_add_single src 0x00000000#32 h hφ hacc (ix1 p)).trans
    (Finset.sum_congr rfl fun k _ => congrArg src (funext fun a => by
      match a with
      | ⟨0, _⟩ => rfl
      | ⟨1, _⟩ => rfl))

/-- The word `0xFF800000` is minus infinity. -/
theorem ofBits_neg_inf_f32 : Ideal.ofBits .f32 0xFF800000#32 = ⊥ := by
  simp [Ideal.ofBits, Ideal.ieee]

/-- The maximum over the last axis of a `[512, 64]` array, from minus infinity, at `p`: the fold of `max` from `⊥`
over `k ↦ src (p, k)`. -/
theorem max_axis1_of2 (src : FVec Ideal S512x64 .f32) (h : S512x64.Reduces [1] S512) (hφ : FKind.Formats .f32)
    (hacc : (0xFF800000#32 : BitVec 32) = 0xFF800000#32) (p : Fin 512) :
    multiReduction .maximumf [1] S512 src 0xFF800000#32 h hφ hacc (ix1 p)
      = (Finset.univ : Finset (Fin 64)).fold max ⊥ (fun k => src (ix2 p k)) := by
  have hf : (src ∘ h.lift (ix1 p)) = fun k : Fin 64 => src (ix2 p k) :=
    funext fun k => congrArg src (funext fun a => by
      match a with
      | ⟨0, _⟩ => rfl
      | ⟨1, _⟩ => rfl)
  refine (Ideal.multiReduction_maximumf_single src 0xFF800000#32 h hφ hacc (ix1 p)).trans ?_
  rw [hf, Ideal.ofBits_def, ofBits_neg_inf_f32]
  rfl

/-! ## Reshapes -/

/-- A `[512]` array viewed as a column `[512, 1]`. -/
theorem shapeCast_col_apply {α : Type} (x : (S512 : Shape).Idx → α) (h : S512.ShapeCasts S512x1) (p : Fin 512) (u : Fin 1) :
    shapeCast S512x1 x h (ix2 p u) = x (ix1 p) :=
  shapeCast_apply x h _ _ (by
    rw [Shape.rowMajor_val_one, Shape.rowMajor_val_two]
    show p.val = p.val * 1 + u.val
    omega)

/-- A `[512, 64]` array viewed as `[512, 64, 1]`. -/
theorem shapeCast_last_apply {α : Type} (x : (S512x64 : Shape).Idx → α) (h : S512x64.ShapeCasts S512x64x1) (p : Fin 512)
    (k : Fin 64) (u : Fin 1) : shapeCast S512x64x1 x h (ix3 p k u) = x (ix2 p k) :=
  shapeCast_apply x h _ _ (by
    rw [Shape.rowMajor_val_two, Shape.rowMajor_val_three]
    show p.val * 64 + k.val = (p.val * 64 + k.val) * 1 + u.val
    omega)

/-- A `[512, 64, 64]` array with its first two axes merged: row `p * 64 + k` is `(p, k)`. -/
theorem shapeCast_merge_apply {α : Type} (x : (S512x64x64 : Shape).Idx → α) (h : S512x64x64.ShapeCasts S32768x64) (p : Fin 512)
    (k : Fin 64) (e : Fin 64) : shapeCast S32768x64 x h (ix2 (row p k) e) = x (ix3 p k e) :=
  shapeCast_apply x h _ _ (by
    rw [Shape.rowMajor_val_two, Shape.rowMajor_val_three]
    rfl)

/-- A `[32768, 32]` array with its first axis split: `(p, k)` is row `p * 64 + k`. -/
theorem shapeCast_split_apply {α : Type} (x : (S32768x32 : Shape).Idx → α) (h : S32768x32.ShapeCasts S512x64x32) (p : Fin 512)
    (k : Fin 64) (d : Fin 32) : shapeCast S512x64x32 x h (ix3 p k d) = x (ix2 (row p k) d) :=
  shapeCast_apply x h _ _ (by
    rw [Shape.rowMajor_val_two, Shape.rowMajor_val_three]
    rfl)

/-! ## Broadcasts -/

/-- A column `[512, 1]` broadcast along its rows to `[512, 64]`. -/
theorem broadcastTo_col_apply {α : Type} (v : (S512x1 : Shape).Idx → α) (h : S512x1.Broadcasts S512x64) (p : Fin 512) (k : Fin 64) :
    broadcastTo S512x64 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- A `[512, 64, 1]` array broadcast along its last axis to `[512, 64, 32]`. -/
theorem broadcastTo_last_apply {α : Type} (v : (S512x64x1 : Shape).Idx → α) (h : S512x64x1.Broadcasts S512x64x32) (p : Fin 512)
    (k : Fin 64) (d : Fin 32) : broadcastTo S512x64x32 v h (ix3 p k d) = v (ix3 p k (0 : Fin 1)) := by
  refine broadcastTo_apply v h (ix3 p k d) (ix3 p k (0 : Fin 1)) fun ax => ?_
  match ax with
  | ⟨0, _⟩ => rfl
  | ⟨1, _⟩ => rfl
  | ⟨2, _⟩ => rfl

/-! ## Two arrays side by side along the last axis -/

/-- Two `[512, 64, 32]` arrays side by side along the last axis, at `(p, k, e)`: the first at `e` below 32, the second
at `e - 32` from 32 on. -/
theorem concat_apply {α : Type} (a b : (S512x64x32 : Shape).Idx → α)
    (h : Shape.Concatenates [S512x64x32, S512x64x32] S512x64x64 2) (p : Fin 512) (k : Fin 64) (e : Fin 64) :
    concatenate S512x64x64 2 [⟨S512x64x32, a⟩, ⟨S512x64x32, b⟩] h (ix3 p k e)
      = if he : e.val < 32 then a (ix3 p k ⟨e.val, he⟩) else b (ix3 p k ⟨e.val - 32, by omega⟩) := by
  by_cases he : e.val < 32
  · rw [dif_pos he]
    refine concatenate_pair_apply_left 2 a b h (ix3 p k e) rfl (ix3 p k ⟨e.val, he⟩) fun c => ?_
    match c with
    | ⟨0, _⟩ => rfl
    | ⟨1, _⟩ => rfl
    | ⟨2, _⟩ => rfl
  · rw [dif_neg he]
    refine concatenate_pair_apply_right 2 a b h (ix3 p k e) rfl rfl (ix3 p k ⟨e.val - 32, by omega⟩) (fun c => ?_) ?_
    · match c with
      | ⟨0, _⟩ => exact fun _ => rfl
      | ⟨1, _⟩ => exact fun _ => rfl
      | ⟨2, _⟩ => exact fun hne => absurd rfl hne
    · show e.val - 32 + 32 = e.val
      omega

/-! ## Products of matrices -/

/-- The left operand's index of the 64-term product, on its free axis: the result's row. -/
theorem lhs64_0 (i : (S32768x32 : Shape).Idx) (q : dot_S32768x64_S64x32_S32768x32_1_0_0_1_n_n.contr.Idx) : (dot_S32768x64_S64x32_S32768x32_1_0_0_1_n_n.lhsIdx i q 0).val = (i 0).val := by
  unfold DotDims.lhsIdx
  rw [dif_neg (show ¬(0 : Fin S32768x64.rank) ∈ dot_S32768x64_S64x32_S32768x32_1_0_0_1_n_n.lhsBatch by decide),
    dif_pos (show (0 : Fin S32768x64.rank) ∈ dot_S32768x64_S64x32_S32768x32_1_0_0_1_n_n.lhsNonContracting by decide)]
  rfl

/-- The left operand's index on its contracted axis: the contraction's coordinate. -/
theorem lhs64_1 (i : (S32768x32 : Shape).Idx) (q : dot_S32768x64_S64x32_S32768x32_1_0_0_1_n_n.contr.Idx) :
    (dot_S32768x64_S64x32_S32768x32_1_0_0_1_n_n.lhsIdx i q 1).val = (q ⟨0, by decide⟩).val :=
  dot_S32768x64_S64x32_S32768x32_1_0_0_1_n_n.lhsIdx_val_of_single rfl i q

/-- The right operand's index on its contracted axis: the contraction's coordinate. -/
theorem rhs64_0 (i : (S32768x32 : Shape).Idx) (q : dot_S32768x64_S64x32_S32768x32_1_0_0_1_n_n.contr.Idx) :
    (dot_S32768x64_S64x32_S32768x32_1_0_0_1_n_n.rhsIdx i q 0).val = (q ⟨0, by decide⟩).val :=
  dot_S32768x64_S64x32_S32768x32_1_0_0_1_n_n.rhsIdx_val_of_single rfl i q

/-- The right operand's index on its free axis: the result's column. -/
theorem rhs64_1 (i : (S32768x32 : Shape).Idx) (q : dot_S32768x64_S64x32_S32768x32_1_0_0_1_n_n.contr.Idx) : (dot_S32768x64_S64x32_S32768x32_1_0_0_1_n_n.rhsIdx i q 1).val = (i 1).val := by
  unfold DotDims.rhsIdx
  rw [dif_neg (show ¬(1 : Fin S64x32.rank) ∈ dot_S32768x64_S64x32_S32768x32_1_0_0_1_n_n.rhsBatch by decide),
    dif_pos (show (1 : Fin S64x32.rank) ∈ dot_S32768x64_S64x32_S32768x32_1_0_0_1_n_n.rhsNonContracting by decide)]
  rfl

/-- The product of a `[32768, 64]` matrix and a `[64, 32]` matrix into a zero accumulator, at `(n, d)`:
`∑ e, lhs (n, e) * rhs (e, d)`. -/
theorem matmul64_apply (lhs : FVec Ideal S32768x64 .bf16) (rhs : FVec Ideal S64x32 .bf16) (n : Fin 32768) (d : Fin 32) :
    matmul dot_S32768x64_S64x32_S32768x32_1_0_0_1_n_n none lhs rhs (constant (F := Ideal) S32768x32 .f32 0x00000000#32) (ix2 n d)
      = ∑ e : Fin 64, lhs (ix2 n e) * rhs (ix2 e d) := by
  simp only [matmul]
  rw [Ideal.matmul_constant_zero_apply, ← Equiv.sum_comp (contrEquiv1 dot_S32768x64_S64x32_S32768x32_1_0_0_1_n_n 64 rfl rfl).symm]
  refine Finset.sum_congr rfl fun e _ => ?_
  have hk := contrEquiv1_symm_val dot_S32768x64_S64x32_S32768x32_1_0_0_1_n_n 64 rfl rfl e
  have el : dot_S32768x64_S64x32_S32768x32_1_0_0_1_n_n.lhsIdx (ix2 n d) ((contrEquiv1 dot_S32768x64_S64x32_S32768x32_1_0_0_1_n_n 64 rfl rfl).symm e) = ix2 n e :=
    funext fun a => Fin.ext (by
      match a with
      | ⟨0, _⟩ => exact lhs64_0 _ _
      | ⟨1, _⟩ => exact (lhs64_1 _ _).trans hk)
  have er : dot_S32768x64_S64x32_S32768x32_1_0_0_1_n_n.rhsIdx (ix2 n d) ((contrEquiv1 dot_S32768x64_S64x32_S32768x32_1_0_0_1_n_n 64 rfl rfl).symm e) = ix2 e d :=
    funext fun a => Fin.ext (by
      match a with
      | ⟨0, _⟩ => exact (rhs64_0 _ _).trans hk
      | ⟨1, _⟩ => exact rhs64_1 _ _)
  rw [el, er]

/-- The left operand's index of the 32-term product, on its free axis: the result's row. -/
theorem lhs32_0 (i : (S32768x32 : Shape).Idx) (q : dot_S32768x32_S32x32_S32768x32_1_0_0_1_n_n.contr.Idx) : (dot_S32768x32_S32x32_S32768x32_1_0_0_1_n_n.lhsIdx i q 0).val = (i 0).val := by
  unfold DotDims.lhsIdx
  rw [dif_neg (show ¬(0 : Fin S32768x32.rank) ∈ dot_S32768x32_S32x32_S32768x32_1_0_0_1_n_n.lhsBatch by decide),
    dif_pos (show (0 : Fin S32768x32.rank) ∈ dot_S32768x32_S32x32_S32768x32_1_0_0_1_n_n.lhsNonContracting by decide)]
  rfl

/-- The left operand's index on its contracted axis: the contraction's coordinate. -/
theorem lhs32_1 (i : (S32768x32 : Shape).Idx) (q : dot_S32768x32_S32x32_S32768x32_1_0_0_1_n_n.contr.Idx) :
    (dot_S32768x32_S32x32_S32768x32_1_0_0_1_n_n.lhsIdx i q 1).val = (q ⟨0, by decide⟩).val :=
  dot_S32768x32_S32x32_S32768x32_1_0_0_1_n_n.lhsIdx_val_of_single rfl i q

/-- The right operand's index on its contracted axis: the contraction's coordinate. -/
theorem rhs32_0 (i : (S32768x32 : Shape).Idx) (q : dot_S32768x32_S32x32_S32768x32_1_0_0_1_n_n.contr.Idx) :
    (dot_S32768x32_S32x32_S32768x32_1_0_0_1_n_n.rhsIdx i q 0).val = (q ⟨0, by decide⟩).val :=
  dot_S32768x32_S32x32_S32768x32_1_0_0_1_n_n.rhsIdx_val_of_single rfl i q

/-- The right operand's index on its free axis: the result's column. -/
theorem rhs32_1 (i : (S32768x32 : Shape).Idx) (q : dot_S32768x32_S32x32_S32768x32_1_0_0_1_n_n.contr.Idx) : (dot_S32768x32_S32x32_S32768x32_1_0_0_1_n_n.rhsIdx i q 1).val = (i 1).val := by
  unfold DotDims.rhsIdx
  rw [dif_neg (show ¬(1 : Fin S32x32.rank) ∈ dot_S32768x32_S32x32_S32768x32_1_0_0_1_n_n.rhsBatch by decide),
    dif_pos (show (1 : Fin S32x32.rank) ∈ dot_S32768x32_S32x32_S32768x32_1_0_0_1_n_n.rhsNonContracting by decide)]
  rfl

/-- The product of a `[32768, 32]` matrix and a `[32, 32]` matrix into a zero accumulator, at `(n, d)`:
`∑ e, lhs (n, e) * rhs (e, d)`. -/
theorem matmul32_apply (lhs : FVec Ideal S32768x32 .bf16) (rhs : FVec Ideal S32x32 .bf16) (n : Fin 32768) (d : Fin 32) :
    matmul dot_S32768x32_S32x32_S32768x32_1_0_0_1_n_n none lhs rhs (constant (F := Ideal) S32768x32 .f32 0x00000000#32) (ix2 n d)
      = ∑ e : Fin 32, lhs (ix2 n e) * rhs (ix2 e d) := by
  simp only [matmul]
  rw [Ideal.matmul_constant_zero_apply, ← Equiv.sum_comp (contrEquiv1 dot_S32768x32_S32x32_S32768x32_1_0_0_1_n_n 32 rfl rfl).symm]
  refine Finset.sum_congr rfl fun e _ => ?_
  have hk := contrEquiv1_symm_val dot_S32768x32_S32x32_S32768x32_1_0_0_1_n_n 32 rfl rfl e
  have el : dot_S32768x32_S32x32_S32768x32_1_0_0_1_n_n.lhsIdx (ix2 n d) ((contrEquiv1 dot_S32768x32_S32x32_S32768x32_1_0_0_1_n_n 32 rfl rfl).symm e) = ix2 n e :=
    funext fun a => Fin.ext (by
      match a with
      | ⟨0, _⟩ => exact lhs32_0 _ _
      | ⟨1, _⟩ => exact (lhs32_1 _ _).trans hk)
  have er : dot_S32768x32_S32x32_S32768x32_1_0_0_1_n_n.rhsIdx (ix2 n d) ((contrEquiv1 dot_S32768x32_S32x32_S32768x32_1_0_0_1_n_n 32 rfl rfl).symm e) = ix2 e d :=
    funext fun a => Fin.ext (by
      match a with
      | ⟨0, _⟩ => exact (rhs32_0 _ _).trans hk
      | ⟨1, _⟩ => exact rhs32_1 _ _)
  rw [el, er]

end Cert.KernelIdeal.PayValue

end
-- ==== Proof.KIPay.lean ====
import proofs.«169310_j21139829031662_1_alg».proof.Proof.KIPayA
import proofs.«169310_j21139829031662_1_alg».proof.Proof.KIPayOps
import proofs.«169310_j21139829031662_1_alg».proof.Proof.RowSpec

/-!
# A hop's contribution at an index

The array the attention body computes from its seven blocks, read at `(p, d)`: example `p`'s row of the hop,
as the row specification writes it.
-/

noncomputable section

open scoped BigOperators

namespace Cert.KernelIdeal.PayValue

open Cert.KernelIdeal Cert.KernelIdeal.Gen Idealize.ShloMosaic Idealize.ShloMosaic.ValueIdx

open Cert.RowSpec

/-! ## The gathered rows side by side -/

/-- A block with its leading unit axis dropped. -/
theorem pay4_apply (x : Vec Ideal S1x512x64x32 .bf16) (p : Fin 512) (k : Fin 64) (e : Fin 32) :
    k1_pay4 (F := Ideal) x (ix3 p k e) = x (ix4 (0 : Fin 1) p k e) := by
  unfold k1_pay4
  exact shapeCast_1abc_abc_apply x _ p k e

/-- The first block's row of neighbour `k` followed by the second block's. -/
theorem pay5_apply (x0 x1 : Vec Ideal S1x512x64x32 .bf16) (p : Fin 512) (k : Fin 64) (e : Fin 64) :
    k1_pay5 (F := Ideal) x0 x1 (ix3 p k e)
      = cat (fun e' => x0 (ix4 (0 : Fin 1) p k e')) (fun e' => x1 (ix4 (0 : Fin 1) p k e')) e := by
  unfold k1_pay5
  refine (concat_apply _ _ _ p k e).trans ?_
  unfold cat
  by_cases he : e.val < 32
  · rw [dif_pos he, dif_pos he]
    exact shapeCast_1abc_abc_apply x0 _ p k _
  · rw [dif_neg he, dif_neg he]
    exact pay4_apply x1 p k _

/-- The second block's row of neighbour `k` followed by the first block's. -/
theorem pay6_apply (x1 x2 : Vec Ideal S1x512x64x32 .bf16) (p : Fin 512) (k : Fin 64) (e : Fin 64) :
    k1_pay6 (F := Ideal) x1 x2 (ix3 p k e)
      = cat (fun e' => x2 (ix4 (0 : Fin 1) p k e')) (fun e' => x1 (ix4 (0 : Fin 1) p k e')) e := by
  unfold k1_pay6
  refine (concat_apply _ _ _ p k e).trans ?_
  unfold cat
  by_cases he : e.val < 32
  · rw [dif_pos he, dif_pos he]
    exact shapeCast_1abc_abc_apply x2 _ p k _
  · rw [dif_neg he, dif_neg he]
    exact pay4_apply x1 p k _

/-- The same rows in the merged arrays: row `p * 64 + k`. -/
theorem pay8_apply (x0 x1 : Vec Ideal S1x512x64x32 .bf16) (p : Fin 512) (k : Fin 64) (e : Fin 64) :
    k1_pay8 (F := Ideal) x0 x1 (ix2 (row p k) e)
      = cat (fun e' => x0 (ix4 (0 : Fin 1) p k e')) (fun e' => x1 (ix4 (0 : Fin 1) p k e')) e := by
  unfold k1_pay8
  exact (shapeCast_merge_apply _ _ p k e).trans (pay5_apply x0 x1 p k e)

theorem pay9_apply (x1 x2 : Vec Ideal S1x512x64x32 .bf16) (p : Fin 512) (k : Fin 64) (e : Fin 64) :
    k1_pay9 (F := Ideal) x1 x2 (ix2 (row p k) e)
      = cat (fun e' => x2 (ix4 (0 : Fin 1) p k e')) (fun e' => x1 (ix4 (0 : Fin 1) p k e')) e := by
  unfold k1_pay9
  exact (shapeCast_merge_apply _ _ p k e).trans (pay6_apply x1 x2 p k e)

/-! ## The elementwise exponential and hyperbolic tangent at an index -/

theorem exp_apply {s : Shape} {φ : FTy} (v : FVec Ideal s φ) (i : s.Idx) : exp v i = Ideal.exp (v i) := rfl
theorem tanh_apply {s : Shape} {φ : FTy} (v : FVec Ideal s φ) (i : s.Idx) : tanh v i = Ideal.tanh (v i) := rfl

/-! ## The attention weights -/

/-- The attention weight of neighbour `k` of example `p`: the softmax of the 64 scores. -/
theorem pay7_apply (x0 x1 x2 : Vec Ideal S1x512x64x32 .bf16) (p : Fin 512) (k : Fin 64) (u : Fin 1) :
    k1_pay7 (F := Ideal) x0 x1 x2 (ix3 p k u)
      = softmax (score (fun k e => x0 (ix4 (0 : Fin 1) p k e)) (fun k e => x1 (ix4 (0 : Fin 1) p k e))
          (fun k e => x2 (ix4 (0 : Fin 1) p k e))) k := by
  unfold k1_pay7
  -- the scores
  generalize hs : multiReduction (F := Ideal) FKind.add [2] S512x64
    (mulf (extf FTy.f32 (k1_pay5 x0 x1) bitsLt_bf16_f32) (extf FTy.f32 (k1_pay6 x1 x2) bitsLt_bf16_f32))
    0x00000000#32 reduces_S512x64x64_S512x64 (.inl rfl) rfl = s
  have hsc : ∀ k', s (ix2 p k') = score (fun k e => x0 (ix4 (0 : Fin 1) p k e)) (fun k e => x1 (ix4 (0 : Fin 1) p k e))
      (fun k e => x2 (ix4 (0 : Fin 1) p k e)) k' := fun k' => by
    rw [← hs]
    refine (sum_axis2_of3 _ _ _ _ p k').trans ?_
    unfold score
    refine Finset.sum_congr rfl fun e _ => ?_
    rw [mulf_apply, extf_apply, extf_apply, pay5_apply, pay6_apply]
  generalize score (fun k e => x0 (ix4 (0 : Fin 1) p k e)) (fun k e => x1 (ix4 (0 : Fin 1) p k e))
      (fun k e => x2 (ix4 (0 : Fin 1) p k e)) = sc at hsc ⊢
  clear hs
  -- their maximum, as a column broadcast along the rows
  generalize hm : broadcastTo S512x64 (shapeCast S512x1 (maximumf (broadcast S512 (FloatOps.ofBits (F := Ideal) .f32 0xFF800000#32))
    (multiReduction .maximumf [1] S512 s 0xFF800000#32 reduces_S512x64_S512 (.inl rfl) rfl)) shapeCasts_S512_S512x1)
    broadcasts_S512x1_S512x64 = m
  have hmx : ∀ k', m (ix2 p k') = rowMax sc := fun k' => by
    rw [← hm]
    refine (broadcastTo_col_apply _ _ p k').trans ((shapeCast_col_apply _ _ p 0).trans ?_)
    rw [maximumf_apply, broadcast_apply, Ideal.ofBits_def, ofBits_neg_inf_f32, max_bot_left]
    refine (max_axis1_of2 _ _ _ _ p).trans ?_
    unfold rowMax
    rw [show (fun k' => s (ix2 p k')) = sc from funext hsc]
  clear hm
  -- the exponentials
  generalize hE : exp (subf s m) = E
  have hEx : ∀ k', E (ix2 p k') = Ideal.exp (sc k' - rowMax sc) := fun k' => by
    rw [← hE, exp_apply, subf_apply, hsc, hmx]
  clear hE
  -- the quotient
  refine (shapeCast_last_apply _ _ p k u).trans ?_
  rw [divf_apply]
  unfold softmax
  refine congrArg₂ Ideal.div (hEx k) ?_
  refine (broadcastTo_col_apply _ _ p k).trans ((shapeCast_col_apply _ _ p 0).trans ((sum_axis1_of2 _ _ _ _ p).trans ?_))
  exact Finset.sum_congr rfl fun k' _ => hEx k'

/-! ## The recurrence and the weighted sum -/

/-- The first step of the recurrence, from any two merged arrays, the weights and the bias rows: at row `n`,
coordinate `j`. -/
theorem step1_apply (v24 : FVec Ideal S32768x64 .bf16) (v27 : FVec Ideal S64x32 .bf16) (v31 v33 : FVec Ideal S1x32 .f32)
    (n : Fin 32768) (j : Fin 32) :
    tanh (addf (addf (matmul dot_S32768x64_S64x32_S32768x32_1_0_0_1_n_n none v24 v27
        (constant (F := Ideal) S32768x32 .f32 0x00000000#32)) (broadcastTo S32768x32 v31 broadcasts_S1x32_S32768x32))
        (broadcastTo S32768x32 v33 broadcasts_S1x32_S32768x32)) (ix2 n j)
      = Ideal.tanh ((∑ e : Fin 64, v24 (ix2 n e) * v27 (ix2 e j)) + v31 (ix2 (0 : Fin 1) j) + v33 (ix2 (0 : Fin 1) j)) := by
  rw [tanh_apply, addf_apply, addf_apply, matmul64_apply, broadcastTo_1b_ab_apply, broadcastTo_1b_ab_apply]

/-- The body's result from its seven intermediate arrays, at `(p, d)`: the sum over the neighbours of the weight
times the recurrence's final state. -/
theorem pay1_apply (v23 : FVec Ideal S512x64x1 .f32) (v24 v25 : FVec Ideal S32768x64 .bf16) (v27 : FVec Ideal S64x32 .bf16)
    (v29 : FVec Ideal S32x32 .bf16) (v31 v33 : FVec Ideal S1x32 .f32) (p : Fin 512) (d : Fin 32) :
    k1_pay1 (F := Ideal) v23 v24 v25 v27 v29 v31 v33 (ix2 p d)
      = ∑ k : Fin 64, v23 (ix3 p k (0 : Fin 1)) *
          Ideal.tanh ((((∑ e : Fin 64, v25 (ix2 (row p k) e) * v27 (ix2 e d))
            + ∑ j : Fin 32, Ideal.tanh ((∑ e : Fin 64, v24 (ix2 (row p k) e) * v27 (ix2 e j)) + v31 (ix2 (0 : Fin 1) j)
                + v33 (ix2 (0 : Fin 1) j)) * v29 (ix2 j d))
            + v31 (ix2 (0 : Fin 1) d)) + v33 (ix2 (0 : Fin 1) d)) := by
  unfold k1_pay1
  refine (sum_axis1_of3 _ _ _ _ p d).trans ?_
  refine Finset.sum_congr rfl fun k _ => ?_
  rw [mulf_apply]
  refine congrArg₂ (fun a b => a * b) (broadcastTo_last_apply _ _ p k d) ((shapeCast_split_apply _ _ p k d).trans ?_)
  rw [tanh_apply, addf_apply, addf_apply, addf_apply, matmul64_apply, matmul32_apply, broadcastTo_1b_ab_apply,
    broadcastTo_1b_ab_apply]
  refine congrArg Ideal.tanh (congrArg₂ (fun a b => a + b) (congrArg₂ (fun a b => a + b)
    (congrArg₂ (fun a b => a + b) rfl (Finset.sum_congr rfl fun j _ => ?_)) rfl) rfl)
  rw [truncf_apply, step1_apply]

/-! ## The contribution -/

/-- The hop's contribution at `(p, d)` is example `p`'s row of the hop at coordinate `d`. -/
theorem contrib_apply (x0 x1 x2 : Vec Ideal S1x512x64x32 .bf16) (x3 : Vec Ideal S64x32 .bf16) (x4 : Vec Ideal S32x32 .bf16)
    (x5 x6 : Vec Ideal S1x32 .f32) (p : Fin 512) (d : Fin 32) :
    contrib x0 x1 x2 x3 x4 x5 x6 (ix2 p d)
      = hopRow (fun k e => x0 (ix4 0 p k e)) (fun k e => x1 (ix4 0 p k e)) (fun k e => x2 (ix4 0 p k e))
          (fun dd e => x3 (ix2 e dd)) (fun dd j => x4 (ix2 j dd)) (fun dd => x5 (ix2 0 dd)) (fun dd => x6 (ix2 0 dd)) d := by
  unfold contrib
  rw [pay1_apply]
  unfold hopRow step2 step1
  refine Finset.sum_congr rfl fun k _ => ?_
  rw [pay7_apply]
  simp only [pay8_apply, pay9_apply]
  unfold k1_pay10 k1_pay11 k1_pay12 k1_pay13
  simp only [shapeCast_self]

end Cert.KernelIdeal.PayValue

end
-- ==== Proof.KIArr1.lean ====
/-
  The attention array: after the attention / recurrent region the output array holds, at (b, d),
  the first hop's contribution plus the second hop's.  Grid point t is (tile t / 2, hop t % 2);
  the output block of a tile is written back after its second hop, when the accumulator holds the
  first hop's contribution (left there by the even point before) plus the second's; each
  contribution is computed from rows 512 (t / 2) … of the hop's gathered arrays, and the eight
  blocks tile the array.
-/
import proofs.«169310_j21139829031662_1_alg».proof.Proof.KIPieces
import proofs.«169310_j21139829031662_1_alg».proof.Proof.KIArrDefs
import proofs.«169310_j21139829031662_1_alg».proof.Proof.KIPay
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

/-- The windows' block indices, decided over the grid. -/
theorem blocks1 : ∀ t : Fin cfg1.N,
    (win1_0.index t (0 : Fin 4) = t.val % 2 ∧ win1_0.index t (1 : Fin 4) = t.val / 2 ∧ win1_0.index t (2 : Fin 4) = 0 ∧ win1_0.index t (3 : Fin 4) = 0)
    ∧ (win1_1.index t (0 : Fin 4) = t.val % 2 ∧ win1_1.index t (1 : Fin 4) = t.val / 2 ∧ win1_1.index t (2 : Fin 4) = 0 ∧ win1_1.index t (3 : Fin 4) = 0)
    ∧ (win1_2.index t (0 : Fin 4) = t.val % 2 ∧ win1_2.index t (1 : Fin 4) = t.val / 2 ∧ win1_2.index t (2 : Fin 4) = 0 ∧ win1_2.index t (3 : Fin 4) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val / 2 ∧ win1_7.index t (1 : Fin 2) = 0) :=
  (by decide +kernel : ∀ t : Fin grid1.N, _)

/-- The hop's contribution computed from the blocks at point `t` is the hop's row of the arrays. -/
theorem contrib_at (c : Dev nD) (t : Fin cfg1.N) (p : Fin 512) (d : Fin 32) (l : Fin 2) (b : Fin 4096)
    (hl : l.val = t.val % 2) (hb : b.val = t.val / 2 * 512 + p.val) :
    PayValue.contrib (blk1 V c 0 t) (blk1 V c 1 t) (blk1 V c 2 t) (blk1 V c 3 t) (blk1 V c 4 t) (blk1 V c 5 t) (blk1 V c 6 t) (ix2 p d) = hopArr V c l b d := by
  obtain ⟨⟨a0, a1, a2, a3⟩, ⟨b0, b1, b2, b3⟩, ⟨c0, c1, c2, c3⟩, ⟨d0, d1⟩, ⟨e0, e1⟩, ⟨f0, f1⟩, ⟨g0, g1⟩, -⟩ := blocks1 t
  rw [PayValue.contrib_apply]
  unfold hopArr
  have h0 : (fun (k : Fin 64) (e : Fin 32) => blk1 V c 0 t (ix4 0 p k e)) = fun k e => (V c main_v15 : S2x4096x64x32.Idx → EReal) (ix4 l b k e) := by
    funext k e
    show V c main_v15 (((cfg1.win 0).blk t).view.emb (ix4 0 p k e)) = V c main_v15 (ix4 l b k e)
    refine congrArg _ ?_
    funext a; apply Fin.ext
    match a with
    | ⟨0, _⟩ => show win1_0.index t (0 : Fin 4) * 1 + 1 * 0 = l.val; omega
    | ⟨1, _⟩ => show win1_0.index t (1 : Fin 4) * 512 + 1 * p.val = b.val; omega
    | ⟨2, _⟩ => show win1_0.index t (2 : Fin 4) * 64 + 1 * k.val = k.val; omega
    | ⟨3, _⟩ => show win1_0.index t (3 : Fin 4) * 32 + 1 * e.val = e.val; omega
  have h1 : (fun (k : Fin 64) (e : Fin 32) => blk1 V c 1 t (ix4 0 p k e)) = fun k e => (V c main_v23 : S2x4096x64x32.Idx → EReal) (ix4 l b k e) := by
    funext k e
    show V c main_v23 (((cfg1.win 1).blk t).view.emb (ix4 0 p k e)) = V c main_v23 (ix4 l b k e)
    refine congrArg _ ?_
    funext a; apply Fin.ext
    match a with
    | ⟨0, _⟩ => show win1_1.index t (0 : Fin 4) * 1 + 1 * 0 = l.val; omega
    | ⟨1, _⟩ => show win1_1.index t (1 : Fin 4) * 512 + 1 * p.val = b.val; omega
    | ⟨2, _⟩ => show win1_1.index t (2 : Fin 4) * 64 + 1 * k.val = k.val; omega
    | ⟨3, _⟩ => show win1_1.index t (3 : Fin 4) * 32 + 1 * e.val = e.val; omega
  have h2 : (fun (k : Fin 64) (e : Fin 32) => blk1 V c 2 t (ix4 0 p k e)) = fun k e => (V c main_v31 : S2x4096x64x32.Idx → EReal) (ix4 l b k e) := by
    funext k e
    show V c main_v31 (((cfg1.win 2).blk t).view.emb (ix4 0 p k e)) = V c main_v31 (ix4 l b k e)
    refine congrArg _ ?_
    funext a; apply Fin.ext
    match a with
    | ⟨0, _⟩ => show win1_2.index t (0 : Fin 4) * 1 + 1 * 0 = l.val; omega
    | ⟨1, _⟩ => show win1_2.index t (1 : Fin 4) * 512 + 1 * p.val = b.val; omega
    | ⟨2, _⟩ => show win1_2.index t (2 : Fin 4) * 64 + 1 * k.val = k.val; omega
    | ⟨3, _⟩ => show win1_2.index t (3 : Fin 4) * 32 + 1 * e.val = e.val; omega
  have h3 : (fun (dd : Fin 32) (e : Fin 64) => blk1 V c 3 t (ix2 e dd)) = fun dd e => (V c main_v33 : S64x32.Idx → EReal) (ix2 e dd) := by
    funext dd e
    show V c main_v33 (((cfg1.win 3).blk t).view.emb (ix2 e dd)) = V c main_v33 (ix2 e dd)
    refine congrArg _ ?_
    funext a; apply Fin.ext
    match a with
    | ⟨0, _⟩ => show win1_3.index t (0 : Fin 2) * 64 + 1 * e.val = e.val; omega
    | ⟨1, _⟩ => show win1_3.index t (1 : Fin 2) * 32 + 1 * dd.val = dd.val; omega
  have h4 : (fun (dd : Fin 32) (j : Fin 32) => blk1 V c 4 t (ix2 j dd)) = fun dd j => (V c main_v35 : S32x32.Idx → EReal) (ix2 j dd) := by
    funext dd j
    show V c main_v35 (((cfg1.win 4).blk t).view.emb (ix2 j dd)) = V c main_v35 (ix2 j dd)
    refine congrArg _ ?_
    funext a; apply Fin.ext
    match a with
    | ⟨0, _⟩ => show win1_4.index t (0 : Fin 2) * 32 + 1 * j.val = j.val; omega
    | ⟨1, _⟩ => show win1_4.index t (1 : Fin 2) * 32 + 1 * dd.val = dd.val; omega
  have h5 : (fun (dd : Fin 32) => blk1 V c 5 t (ix2 0 dd)) = fun dd => (V c main_v36 : S1x32.Idx → EReal) (ix2 0 dd) := by
    funext dd
    show V c main_v36 (((cfg1.win 5).blk t).view.emb (ix2 0 dd)) = V c main_v36 (ix2 0 dd)
    refine congrArg _ ?_
    funext a; apply Fin.ext
    match a with
    | ⟨0, _⟩ => show win1_5.index t (0 : Fin 2) * 1 + 1 * 0 = 0; omega
    | ⟨1, _⟩ => show win1_5.index t (1 : Fin 2) * 32 + 1 * dd.val = dd.val; omega
  have h6 : (fun (dd : Fin 32) => blk1 V c 6 t (ix2 0 dd)) = fun dd => (V c main_v37 : S1x32.Idx → EReal) (ix2 0 dd) := by
    funext dd
    show V c main_v37 (((cfg1.win 6).blk t).view.emb (ix2 0 dd)) = V c main_v37 (ix2 0 dd)
    refine congrArg _ ?_
    funext a; apply Fin.ext
    match a with
    | ⟨0, _⟩ => show win1_6.index t (0 : Fin 2) * 1 + 1 * 0 = 0; omega
    | ⟨1, _⟩ => show win1_6.index t (1 : Fin 2) * 32 + 1 * dd.val = dd.val; omega
  rw [h0, h1, h2, h3, h4, h5, h6]

/-- What an odd point writes back is its tile's block of the attention array. -/
theorem flushed1_eq (c : Dev nD) (t : Fin cfg1.N) (hf : (cfg1.win 7).flush t = true) :
    (dat1 V c).flushed 7 t = ((cfg1.win 7).blk t).view.read (Elt Ideal) (attnArr V c) := by
  have hodd : t.val % 2 = 1 := (flush1_7 t).mp hf
  have hN : t.val < 16 := lt_of_lt_of_eq t.isLt (show cfg1.N = 16 from N_1)
  have hne : ¬t.val % 2 = 0 := by omega
  have hx : t.val - 1 < cfg1.N := Nat.lt_of_le_of_lt (Nat.sub_le _ _) t.isLt
  obtain ⟨-, -, -, -, -, -, -, ⟨o0, o1⟩⟩ := blocks1 t
  show (cfg1.win 7).cut (grid1.coords t) ((dat1 V c).after 7 t) = _
  rw [dat1_after7, accAt_B V c t hne]
  dsimp only
  rw [out1_B_eq]
  have hprev : (accAt V c (t.val - 1) hx).2
      = k1_pay2 (k1_pay7 (blk1 V c 0 ⟨t.val - 1, hx⟩) (blk1 V c 1 ⟨t.val - 1, hx⟩) (blk1 V c 2 ⟨t.val - 1, hx⟩)) (k1_pay8 (blk1 V c 0 ⟨t.val - 1, hx⟩) (blk1 V c 1 ⟨t.val - 1, hx⟩)) (k1_pay9 (blk1 V c 1 ⟨t.val - 1, hx⟩) (blk1 V c 2 ⟨t.val - 1, hx⟩)) (k1_pay10 (blk1 V c 3 ⟨t.val - 1, hx⟩)) (k1_pay11 (blk1 V c 4 ⟨t.val - 1, hx⟩)) (k1_pay12 (blk1 V c 5 ⟨t.val - 1, hx⟩)) (k1_pay13 (blk1 V c 6 ⟨t.val - 1, hx⟩)) := by
    have e : accAt V c (t.val - 1) hx = _ := accAt_A V c ⟨t.val - 1, hx⟩ (by show (t.val - 1) % 2 = 0; omega)
    rw [e]
    dsimp only
    exact acc1_A_eq _ _ _ _ _ _ _ _ _ _ _ _ _ _ _ _ _ _ _ _ _ _ _ _ _ _ _ _ _
  rw [hprev]
  funext j
  obtain ⟨p, d, rfl⟩ : ∃ (p : Fin 512) (d : Fin 32), j = ix2 p d := ⟨j 0, j 1, eq_ix2 j⟩
  show k1_pay3 (F := Ideal) _ _ _ _ _ _ _ _ (ix2 p d) = attnArr V c (((cfg1.win 7).blk t).view.emb (ix2 p d))
  rw [PayValue.later_apply, PayValue.first_apply]
  have hb : ((((cfg1.win 7).blk t).view.emb (ix2 p d)) 0).val = t.val / 2 * 512 + p.val := by
    show win1_7.index t (0 : Fin 2) * 512 + 1 * p.val = _; omega
  have hd : ((((cfg1.win 7).blk t).view.emb (ix2 p d)) 1).val = d.val := by
    show win1_7.index t (1 : Fin 2) * 32 + 1 * d.val = _; omega
  unfold attnArr
  rw [contrib_at V c ⟨t.val - 1, hx⟩ p d 0 ⟨_, ((((cfg1.win 7).blk t).view.emb (ix2 p d)) 0).isLt⟩ (by show 0 = (t.val - 1) % 2; omega) (by show _ = (t.val - 1) / 2 * 512 + p.val; rw [hb]; omega),
    contrib_at V c t p d 1 ⟨_, ((((cfg1.win 7).blk t).view.emb (ix2 p d)) 0).isLt⟩ (by show 1 = t.val % 2; omega) (by show _ = t.val / 2 * 512 + p.val; rw [hb])]
  have hdd : (⟨((((cfg1.win 7).blk t).view.emb (ix2 p d)) 1).val, ((((cfg1.win 7).blk t).view.emb (ix2 p d)) 1).isLt⟩ : Fin 32) = d := Fin.ext hd
  rw [hdd]

theorem mem_blk1 (t : Fin cfg1.N) (i : S4096x32.Idx) :
    i ∈ ((cfg1.win 7).blk t).view.set ↔ ∀ a : Fin 2, win1_7.index t a * S512x32.size a ≤ (i a).val ∧ (i a).val < win1_7.index t a * S512x32.size a + S512x32.size a := by
  show i ∈ ((View.whole main_v39).slice (win1_7.rect t)).set ↔ _
  rw [View.set_slice_whole, Rect.mem_set_unit]
  exact Iff.rfl

theorem cover1 (i : S4096x32.Idx) : ∃ t : Fin cfg1.N, (cfg1.win 7).flush t = true ∧ i ∈ ((cfg1.win 7).blk t).view.set := by
  have hi0 : (i 0).val < 4096 := (i 0).isLt
  have hi1 : (i 1).val < 32 := (i 1).isLt
  have hN : cfg1.N = 16 := N_1
  refine ⟨⟨2 * ((i 0).val / 512) + 1, by omega⟩, (flush1_7 _).mpr (by show (2 * ((i 0).val / 512) + 1) % 2 = 1; omega), ?_⟩
  obtain ⟨-, -, -, -, -, -, -, ⟨o0, o1⟩⟩ := blocks1 ⟨2 * ((i 0).val / 512) + 1, by omega⟩
  rw [mem_blk1]
  intro a
  match a with
  | ⟨0, _⟩ => show win1_7.index _ (0 : Fin 2) * 512 ≤ (i 0).val ∧ (i 0).val < win1_7.index _ (0 : Fin 2) * 512 + 512; rw [o0]; show (2 * ((i 0).val / 512) + 1) / 2 * 512 ≤ _ ∧ _ < (2 * ((i 0).val / 512) + 1) / 2 * 512 + 512; omega
  | ⟨1, _⟩ => show win1_7.index _ (1 : Fin 2) * 32 ≤ (i 1).val ∧ (i 1).val < win1_7.index _ (1 : Fin 2) * 32 + 32; rw [o1]; omega

/-- The output array after the region. -/
theorem attn_final (c : Dev nD) : (dat1 V c).arrAt 7 cfg1.N = attnArr V c :=
  (dat1 V c).arrAt_eq_of_cover 7 (attnArr V c) (fun t hf => flushed1_eq V c t hf) (cover1)

end Cert.KernelIdeal.Hand

end
-- ==== Proof.KIHost2.lean ====
import proofs.«169310_j21139829031662_1_alg».proof.Proof.KIHost0

/-!
# The epilogue, read at an index

After the two regions the program adds their results (`o = o₀ + hops`), selects the user's row of the user table and
adds it, selects the item's rows of the entity table and of the item table and adds them, multiplies the two sums
coordinate by coordinate, sums the 32 coordinates from zero, and applies the logistic function written as
`1 / (1 + exp (-x))`. Read at example `b` this is `Cert.RowSpec.finalScore` of the four rows, whatever the two regions
left in their result arrays.
-/

noncomputable section

open scoped BigOperators

namespace Cert.KernelIdeal.HostValue

open Idealize.ShloMosaic Idealize.ShloMosaic.ValueIdx Idealize.ShloMosaic.TcCoe
open Cert.KernelIdeal Cert.KernelIdeal.Gen

/-- Summing a `[4096, 32]` array over its second axis: the index put back at `(b, d)`. -/
theorem lift_ix1 (h : S4096x32.Reduces [1] S4096) (b : Fin 4096) (d : Fin 32) : h.lift (ix1 b) d = ix2 b d := by
  funext a
  refine Fin.ext ?_
  match a with
  | ⟨0, _⟩ => rfl
  | ⟨1, _⟩ => rfl

/-- The logistic function of a row sum: `1 / (1 + exp (-(0 + ∑ d, x (b, d))))`, with the two ones and the zero given
    by their words. -/
theorem logistic_rowsum_apply (x : FVec Ideal S4096x32 .f32) (b : Fin 4096) :
    Host.divf (broadcastInDim S4096 ![] bcast_S_S4096 (constant (F := Ideal) S_ .f32 0x3F800000#32))
        (addf (broadcastInDim S4096 ![] bcast_S_S4096 (constant (F := Ideal) S_ .f32 0x3F800000#32))
          (Host.exp (Host.negf (Host.reduceAdd x (constant (F := Ideal) S_ .f32 0x00000000#32)
            reducesTo_S4096x32_S4096_d1 h_S_)))) (ix1 b)
      = Ideal.div 1 (1 + Ideal.exp (-(∑ d : Fin 32, x (ix2 b d)))) := by
  have hone : broadcastInDim S4096 ![] bcast_S_S4096 (constant (F := Ideal) S_ .f32 0x3F800000#32) (ix1 b) = 1 := by
    rw [broadcastInDim_scalar_apply, constant_apply, Ideal.ofBits_one_f32]
  have hsum : Host.reduceAdd x (constant (F := Ideal) S_ .f32 0x00000000#32) reducesTo_S4096x32_S4096_d1 h_S_ (ix1 b)
      = ∑ d : Fin 32, x (ix2 b d) := by
    rw [hostReduceAdd_apply, constant_apply, Ideal.ofBits_zero_f32,
      Ideal.hostReduceAdd_single reducesTo_S4096x32_S4096_d1 (by decide : S4096x32.Reduces [1] S4096), zero_add]
    exact Finset.sum_congr rfl fun d _ => congrArg x (lift_ix1 _ b d)
  show Ideal.div (broadcastInDim S4096 ![] bcast_S_S4096 (constant (F := Ideal) S_ .f32 0x3F800000#32) (ix1 b))
    (broadcastInDim S4096 ![] bcast_S_S4096 (constant (F := Ideal) S_ .f32 0x3F800000#32) (ix1 b)
      + Ideal.exp (-(Host.reduceAdd x (constant (F := Ideal) S_ .f32 0x00000000#32) reducesTo_S4096x32_S4096_d1 h_S_ (ix1 b)))) = _
  rw [hone, hsum]

/-! ## The three selected rows -/

/-- The user table's row that a user number selects, as the epilogue computes it. -/
theorem user_row (tbl : FVec Ideal S100000x32 .f32) (ids : IVec S4096 32) (b : Fin 4096) (d : Fin 32) :
    Host.gather gather_S100000x32_S4096x1_S4096x32_1_0_n_n_0_1_132 tbl
        (broadcastInDim S4096x1 ![0] bcast_S4096_S4096x1_0
          (select (cmpi .slt ids (broadcastInDim S4096 ![] bcast_S_S4096 (constantI S_ 32 0#32)))
            (addi ids (broadcastInDim S4096 ![] bcast_S_S4096 (constantI S_ 32 100000#32))) ids)) (ix2 b d)
      = Cert.RowSpec.tableRow (by decide : 0 < 100000) tbl (ids (ix1 b)) d :=
  (rows2_apply (by decide) gather_S100000x32_S4096x1_S4096x32_1_0_n_n_0_1_132_wf bcast_S4096_S4096x1_0 tbl _ b d).trans
    (by rw [wrap_apply]; rfl)

/-- The entity table's row that an item number selects, as the epilogue computes it. -/
theorem entity_row (tbl : FVec Ideal S500000x32 .f32) (ids : IVec S4096 32) (b : Fin 4096) (d : Fin 32) :
    Host.gather gather_S500000x32_S4096x1_S4096x32_1_0_n_n_0_1_132 tbl
        (broadcastInDim S4096x1 ![0] bcast_S4096_S4096x1_0
          (select (cmpi .slt ids (broadcastInDim S4096 ![] bcast_S_S4096 (constantI S_ 32 0#32)))
            (addi ids (broadcastInDim S4096 ![] bcast_S_S4096 (constantI S_ 32 500000#32))) ids)) (ix2 b d)
      = Cert.RowSpec.tableRow (by decide : 0 < 500000) tbl (ids (ix1 b)) d :=
  (rows2_apply (by decide) gather_S500000x32_S4096x1_S4096x32_1_0_n_n_0_1_132_wf bcast_S4096_S4096x1_0 tbl _ b d).trans
    (by rw [wrap_apply]; rfl)

/-- The item table's row that an item number selects, as the epilogue computes it. -/
theorem item_row (tbl : FVec Ideal S200000x32 .f32) (ids : IVec S4096 32) (b : Fin 4096) (d : Fin 32) :
    Host.gather gather_S200000x32_S4096x1_S4096x32_1_0_n_n_0_1_132 tbl
        (broadcastInDim S4096x1 ![0] bcast_S4096_S4096x1_0
          (select (cmpi .slt ids (broadcastInDim S4096 ![] bcast_S_S4096 (constantI S_ 32 0#32)))
            (addi ids (broadcastInDim S4096 ![] bcast_S_S4096 (constantI S_ 32 200000#32))) ids)) (ix2 b d)
      = Cert.RowSpec.tableRow (by decide : 0 < 200000) tbl (ids (ix1 b)) d :=
  (rows2_apply (by decide) gather_S200000x32_S4096x1_S4096x32_1_0_n_n_0_1_132_wf bcast_S4096_S4096x1_0 tbl _ b d).trans
    (by rw [wrap_apply]; rfl)

variable (m : (ℓ : Loc nD τ sig) → Buf (Elt Ideal) ℓ) (c : Dev nD)

/-- The program's result at example `b`, from any contents `W` of the buffers in which the five argument arrays the
    epilogue reads are as launched and the two regions' result arrays are `o₀` and `o₁`: the logistic function of the
    inner product of `(o₀ + o₁) + u` and `v + w`, where `u`, `v`, `w` are the rows of the user, entity and item tables
    that the example's user and item select. -/
theorem tail_apply_of (W : Valuation τ sig (Elt Ideal))
    (hu : W (Proc.devRef .tc main_arg0) = m ((c : Thread nD τ).loc main_arg0))
    (hi : W (Proc.devRef .tc main_arg1) = m ((c : Thread nD τ).loc main_arg1))
    (he : W (Proc.devRef .tc main_arg6) = m ((c : Thread nD τ).loc main_arg6))
    (hru : W (Proc.devRef .tc main_arg8) = m ((c : Thread nD τ).loc main_arg8))
    (hri : W (Proc.devRef .tc main_arg9) = m ((c : Thread nD τ).loc main_arg9))
    (o₀ o₁ : S4096x32.Idx → EReal) (h₀ : W (Proc.devRef .tc main_v38) = o₀) (h₁ : W (Proc.devRef .tc main_v39) = o₁)
    (b : Fin 4096) :
    (StableHlo.after (hostOps2 (F := Ideal)) W (Proc.devRef .tc main_v71) : S4096.Idx → EReal) (ix1 b)
      = Cert.RowSpec.finalScore (fun d => o₀ (ix2 b d) + o₁ (ix2 b d))
          (Cert.RowSpec.tableRow (by decide : 0 < 100000) (m ((c : Thread nD τ).loc main_arg8))
            ((m ((c : Thread nD τ).loc main_arg0) : S4096.Idx → BitVec 32) (ix1 b)))
          (Cert.RowSpec.tableRow (by decide : 0 < 500000) (m ((c : Thread nD τ).loc main_arg6))
            ((m ((c : Thread nD τ).loc main_arg1) : S4096.Idx → BitVec 32) (ix1 b)))
          (Cert.RowSpec.tableRow (by decide : 0 < 200000) (m ((c : Thread nD τ).loc main_arg9))
            ((m ((c : Thread nD τ).loc main_arg1) : S4096.Idx → BitVec 32) (ix1 b))) := by
  after_results_simp
  rw [hu, hi, he, hru, hri, h₀, h₁]
  refine (logistic_rowsum_apply _ b).trans ?_
  unfold Cert.RowSpec.finalScore
  refine congrArg (fun s : EReal => Ideal.div 1 (1 + Ideal.exp (-s))) (Finset.sum_congr rfl fun d _ => ?_)
  rw [mulf_apply, addf_apply, addf_apply, addf_apply, user_row, entity_row, item_row]

/-- The same with the two regions' result arrays read off `W` itself. -/
theorem tail_apply (W : Valuation τ sig (Elt Ideal))
    (hu : W (Proc.devRef .tc main_arg0) = m ((c : Thread nD τ).loc main_arg0))
    (hi : W (Proc.devRef .tc main_arg1) = m ((c : Thread nD τ).loc main_arg1))
    (he : W (Proc.devRef .tc main_arg6) = m ((c : Thread nD τ).loc main_arg6))
    (hru : W (Proc.devRef .tc main_arg8) = m ((c : Thread nD τ).loc main_arg8))
    (hri : W (Proc.devRef .tc main_arg9) = m ((c : Thread nD τ).loc main_arg9)) (b : Fin 4096) :
    (StableHlo.after (hostOps2 (F := Ideal)) W (Proc.devRef .tc main_v71) : S4096.Idx → EReal) (ix1 b)
      = Cert.RowSpec.finalScore
          (fun d => HAdd.hAdd (α := EReal) (β := EReal) (γ := EReal) (W (Proc.devRef .tc main_v38) (ix2 b d))
            (W (Proc.devRef .tc main_v39) (ix2 b d)))
          (Cert.RowSpec.tableRow (by decide : 0 < 100000) (m ((c : Thread nD τ).loc main_arg8))
            ((m ((c : Thread nD τ).loc main_arg0) : S4096.Idx → BitVec 32) (ix1 b)))
          (Cert.RowSpec.tableRow (by decide : 0 < 500000) (m ((c : Thread nD τ).loc main_arg6))
            ((m ((c : Thread nD τ).loc main_arg1) : S4096.Idx → BitVec 32) (ix1 b)))
          (Cert.RowSpec.tableRow (by decide : 0 < 200000) (m ((c : Thread nD τ).loc main_arg9))
            ((m ((c : Thread nD τ).loc main_arg1) : S4096.Idx → BitVec 32) (ix1 b))) :=
  tail_apply_of m c W hu hi he hru hri _ _ rfl rfl b

end Cert.KernelIdeal.HostValue

end
-- ==== Proof.KIValue.lean ====
/-
  The kernel program's result as the row specification's `G` of the argument arrays.  The epilogue
  reads the two regions' output arrays — the seed sum and the two hops' contributions — adds the
  user row, multiplies by the item's two rows added, sums over the 32 coordinates and applies the
  logistic function; the kernel adds the two hops first and the seed sum last, the specification
  the seed sum first, which is the associativity of addition on the extended reals.
-/
import proofs.«169310_j21139829031662_1_alg».proof.Proof.KIVal0
import proofs.«169310_j21139829031662_1_alg».proof.Proof.KIArr1
import proofs.«169310_j21139829031662_1_alg».proof.Proof.KIHost2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ) (c : Dev nD)

/-- An argument array is, after both regions, as launched. -/
theorem W3_arg (b : Ref sig .tc) (h0 : b ∉ hostOps0_W) (ha0 : ∀ w, Pipeline.arrRef spec0 w ≠ b) (ha1 : ∀ w, Pipeline.arrRef spec1 w ≠ b) :
    W3 m c (Proc.devRef .tc b) = m ((c : Thread nD τ).loc b) :=
  calc W3 m c (Proc.devRef .tc b)
    _ = W2 m c (Proc.devRef .tc b) := W3_of_ne m c b ha1
    _ = W1 m c (Proc.devRef .tc b) := W2_of_ne m c b ha0
    _ = W0 m c (Proc.devRef .tc b) := StableHlo.after_of_writes_sub hostOps0 _ hostOps0_writes h0
    _ = m ((c : Thread nD τ).loc b) := rfl

theorem pooled_at_end : W3 m c (Proc.devRef .tc main_v38) = pooledArr (VV1 m) c :=
  (W3_of_ne m c main_v38 (by decide)).trans ((W2_arr m c 1).trans (pooled_final (VV1 m) c))

theorem attn_at_end : W3 m c (Proc.devRef .tc main_v39) = attnArr (VV2 m) c :=
  (W3_arr m c 7).trans (attn_final (VV2 m) c)

theorem kernel_value :
    (W4 m c (Proc.devRef .tc main_v71) : S4096.Idx → EReal) = Cert.RowSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext j
  obtain ⟨b, rfl⟩ : ∃ b : Fin 4096, j = ix1 b := ⟨j 0, eq_ix1 j⟩
  rw [Cert.RowSpec.G_ix1]
  refine (HostValue.tail_apply_of m c (W3 m c) (W3_arg m c main_arg0 (by decide) (by decide) (by decide))
    (W3_arg m c main_arg1 (by decide) (by decide) (by decide)) (W3_arg m c main_arg6 (by decide) (by decide) (by decide))
    (W3_arg m c main_arg8 (by decide) (by decide) (by decide)) (W3_arg m c main_arg9 (by decide) (by decide) (by decide))
    (pooledArr (VV1 m) c) (attnArr (VV2 m) c) (pooled_at_end m c) (attn_at_end m c) b).trans ?_
  unfold Cert.RowSpec.Grow
  congr 1
  funext d
  rw [pooled_row, attn_row, add_assoc]

end Cert.KernelIdeal.Hand

end
-- ==== Proof.GatherRows.lean ====
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

/-!
# Rows of a table read by a gather

A gather of whole rows of a table of height `N` and width 32, the row chosen by one start index per result row:
result element `(…, e)` is the table at (the start index read signed and clamped into `[0, N - 1]`, `e`).
Two arrangements of the start indices: `[4096, 64, 1]` (one row per example and neighbour) and `[4096, 1]` (one row per example).
-/

noncomputable section

open scoped BigOperators

namespace Cert.HostRead

open Idealize.ShloMosaic Idealize.ShloMosaic.ValueIdx

variable {α : Type}

/-- The dimension numbers of a gather of rows at start indices `[4096, 64, 1]`. -/
abbrev rowsDims3 (N : Nat)
    (wf : GatherDims.WF ⟨2, ![N, 32]⟩ ⟨3, ![4096, 64, 1]⟩ ⟨3, ![4096, 64, 32]⟩ [2] [0] [] [0] [] 2 ![1, 32]) :
    GatherDims ⟨2, ![N, 32]⟩ ⟨3, ![4096, 64, 1]⟩ ⟨3, ![4096, 64, 32]⟩ where
  offsetDims := [2]
  collapsedSliceDims := [0]
  operandBatchingDims := []
  startIndicesBatchingDims := []
  startIndexMap := [0]
  indexVectorDim := 2
  sliceSizes := ![1, 32]
  wf := wf

/-- The gather read at `(b, k, e)`: the table at the clamped start index `idx[b, k, 0]` and column `e`. -/
theorem gather_rows3_apply {N w : Nat} (hN : 0 < N)
    (wf : GatherDims.WF ⟨2, ![N, 32]⟩ ⟨3, ![4096, 64, 1]⟩ ⟨3, ![4096, 64, 32]⟩ [2] [0] [] [0] [] 2 ![1, 32])
    (x : (⟨2, ![N, 32]⟩ : Shape).Idx → α) (idx : IVec ⟨3, ![4096, 64, 1]⟩ w) (b : Fin 4096) (k : Fin 64) (e : Fin 32) :
    Host.gather (rowsDims3 N wf) x idx (ix3 b k e)
      = x (ix2 (⟨min (idx (ix3 b k (0 : Fin 1))).toInt.toNat (N - 1), by omega⟩ : Fin N) e) := by
  unfold Host.gather
  congr 1
  funext a
  refine Fin.ext ?_
  match a with
  | ⟨0, _⟩ =>
    show (rowsDims3 N wf).start (ix3 b k e) idx 0 + (rowsDims3 N wf).batchCoord (ix3 b k e) 0
      + (rowsDims3 N wf).offCoord (ix3 b k e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N wf).startIndexMap from List.mem_singleton.mpr rfl)]
    have hsi : (rowsDims3 N wf).siIdx (ix3 b k e) ⟨List.idxOf (0 : Fin 2) (rowsDims3 N wf).startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    rfl
  | ⟨1, _⟩ =>
    show (rowsDims3 N wf).start (ix3 b k e) idx 1 + (rowsDims3 N wf).batchCoord (ix3 b k e) 1
      + (rowsDims3 N wf).offCoord (ix3 b k e) 1 = e.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    have hk : (rowsDims3 N wf).sKept = [(1 : Fin 2)] := by
      show ((List.finRange 2).filter fun a : Fin 2 => a ∉ (([0] : List (Fin 2)) ++ [])) = [1]
      decide
    have hix : List.idxOf (1 : Fin 2) (rowsDims3 N wf).sKept = 0 := by rw [hk]; rfl
    have key : ∀ (n : Nat) (hn : n < ([2] : List (Fin 3)).length), n = 0 →
        0 + 0 + (ix3 b k e (([2] : List (Fin 3))[n]'hn)).val = e.val := by
      intro n hn h0; subst h0; exact Nat.zero_add _
    exact key _ _ hix

/-- The dimension numbers of a gather of rows at start indices `[4096, 1]`. -/
abbrev rowsDims2 (N : Nat)
    (wf : GatherDims.WF ⟨2, ![N, 32]⟩ ⟨2, ![4096, 1]⟩ ⟨2, ![4096, 32]⟩ [1] [0] [] [0] [] 1 ![1, 32]) :
    GatherDims ⟨2, ![N, 32]⟩ ⟨2, ![4096, 1]⟩ ⟨2, ![4096, 32]⟩ where
  offsetDims := [1]
  collapsedSliceDims := [0]
  operandBatchingDims := []
  startIndicesBatchingDims := []
  startIndexMap := [0]
  indexVectorDim := 1
  sliceSizes := ![1, 32]
  wf := wf

/-- The gather read at `(b, e)`: the table at the clamped start index `idx[b, 0]` and column `e`. -/
theorem gather_rows2_apply {N w : Nat} (hN : 0 < N)
    (wf : GatherDims.WF ⟨2, ![N, 32]⟩ ⟨2, ![4096, 1]⟩ ⟨2, ![4096, 32]⟩ [1] [0] [] [0] [] 1 ![1, 32])
    (x : (⟨2, ![N, 32]⟩ : Shape).Idx → α) (idx : IVec ⟨2, ![4096, 1]⟩ w) (b : Fin 4096) (e : Fin 32) :
    Host.gather (rowsDims2 N wf) x idx (ix2 b e)
      = x (ix2 (⟨min (idx (ix2 b (0 : Fin 1))).toInt.toNat (N - 1), by omega⟩ : Fin N) e) := by
  unfold Host.gather
  congr 1
  funext a
  refine Fin.ext ?_
  match a with
  | ⟨0, _⟩ =>
    show (rowsDims2 N wf).start (ix2 b e) idx 0 + (rowsDims2 N wf).batchCoord (ix2 b e) 0
      + (rowsDims2 N wf).offCoord (ix2 b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N wf).startIndexMap from List.mem_singleton.mpr rfl)]
    have hsi : (rowsDims2 N wf).siIdx (ix2 b e) ⟨List.idxOf (0 : Fin 2) (rowsDims2 N wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rowsDims2 N wf).start (ix2 b e) idx 1 + (rowsDims2 N wf).batchCoord (ix2 b e) 1
      + (rowsDims2 N wf).offCoord (ix2 b e) 1 = e.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    have hk : (rowsDims2 N wf).sKept = [(1 : Fin 2)] := by
      show ((List.finRange 2).filter fun a : Fin 2 => a ∉ (([0] : List (Fin 2)) ++ [])) = [1]
      decide
    have hix : List.idxOf (1 : Fin 2) (rowsDims2 N wf).sKept = 0 := by rw [hk]; rfl
    have key : ∀ (n : Nat) (hn : n < ([1] : List (Fin 2)).length), n = 0 →
        0 + 0 + (ix2 b e (([1] : List (Fin 2))[n]'hn)).val = e.val := by
      intro n hn h0; subst h0; exact Nat.zero_add _
    exact key _ _ hix

end Cert.HostRead

end
-- ==== Proof.HostOps.lean ====
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import proofs.«169310_j21139829031662_1_alg».proof.Proof.RowSpec

/-!
# The host's operations read at an index

Each layout operation, sum, maximum and contraction of the per-hop chain, over the chain's literal shapes, read at one
index built from its coordinates: a slice of one hop, a concatenation of two 32-wide pieces, the sums over the last and
the middle axis, the row maximum, and the broadcasts of a row statistic and of a bias.
-/

noncomputable section

open scoped BigOperators

namespace Cert.HostRead

open Idealize.ShloMosaic Idealize.ShloMosaic.ValueIdx

variable {α : Type}

/-! ## Layout -/

/-- Hop `o` of a `[2, 4096, 64]` array, as a `[4096, 64]` array, at `(b, k)`. -/
theorem slice_hop_apply (o : Nat) (ho : o < 2) (A : (⟨3, ![2, 4096, 64]⟩ : Shape).Idx → α)
    (h1 : (⟨3, ![2, 4096, 64]⟩ : Shape).Slices ![o, 0, 0] ⟨3, ![1, 4096, 64]⟩)
    (h2 : (⟨3, ![1, 4096, 64]⟩ : Shape).ShapeCasts ⟨2, ![4096, 64]⟩) (b : Fin 4096) (k : Fin 64) :
    shapeCast ⟨2, ![4096, 64]⟩ (extractStridedSlice ⟨3, ![1, 4096, 64]⟩ ![o, 0, 0] A h1) h2 (ix2 b k)
      = A (ix3 (⟨o, ho⟩ : Fin 2) b k) := by
  rw [shapeCast_1ab_ab_apply]
  refine extractStridedSlice_apply _ A h1 _ _ (fun a => ?_)
  match a with
  | ⟨0, _⟩ => rfl
  | ⟨1, _⟩ => exact (Nat.zero_add _).symm
  | ⟨2, _⟩ => exact (Nat.zero_add _).symm

/-- Two `[4096, 64, 32]` arrays side by side along the last axis, at `(b, k, e)`. -/
theorem cat_apply (A B : (⟨3, ![4096, 64, 32]⟩ : Shape).Idx → EReal)
    (h : Shape.Concatenates [⟨3, ![4096, 64, 32]⟩, ⟨3, ![4096, 64, 32]⟩] ⟨3, ![4096, 64, 64]⟩ 2)
    (b : Fin 4096) (k : Fin 64) (e : Fin 64) :
    concatenate ⟨3, ![4096, 64, 64]⟩ 2 [⟨⟨3, ![4096, 64, 32]⟩, A⟩, ⟨⟨3, ![4096, 64, 32]⟩, B⟩] h (ix3 b k e)
      = RowSpec.cat (fun e' => A (ix3 b k e')) (fun e' => B (ix3 b k e')) e := by
  unfold RowSpec.cat
  split
  · next hlt =>
    refine concatenate_pair_apply_left 2 A B h _ rfl (ix3 b k (⟨e.val, hlt⟩ : Fin 32)) (fun c => ?_)
    match c with
    | ⟨0, _⟩ => rfl
    | ⟨1, _⟩ => rfl
    | ⟨2, _⟩ => rfl
  · next hge =>
    refine concatenate_pair_apply_right 2 A B h _ rfl rfl (ix3 b k (⟨e.val - 32, by omega⟩ : Fin 32)) (fun c hc => ?_) ?_
    · match c with
      | ⟨0, _⟩ => rfl
      | ⟨1, _⟩ => rfl
      | ⟨2, _⟩ => exact absurd rfl hc
    · show e.val - 32 + 32 = e.val
      omega

/-- A `[4096]` row statistic broadcast to `[4096, 1]` and then to `[4096, 64]`, at `(b, k)`. -/
theorem bcast_row_apply (v : (⟨1, ![4096]⟩ : Shape).Idx → α)
    (h1 : (⟨1, ![4096]⟩ : Shape).BroadcastsInDim ⟨2, ![4096, 1]⟩ ![0])
    (h2 : (⟨2, ![4096, 1]⟩ : Shape).BroadcastsInDim ⟨2, ![4096, 64]⟩ ![0, 1]) (b : Fin 4096) (k : Fin 64) :
    broadcastInDim ⟨2, ![4096, 64]⟩ ![0, 1] h2 (broadcastInDim ⟨2, ![4096, 1]⟩ ![0] h1 v) (ix2 b k) = v (ix1 b) := by
  rw [broadcastInDim_apply ![0, 1] h2 _ (ix2 b k) (ix2 b (0 : Fin 1)) (fun a => by
    match a with
    | ⟨0, _⟩ => exact (if_neg (show ¬ ((4096 : Nat) = 1) by decide)).symm
    | ⟨1, _⟩ => exact (if_pos rfl).symm)]
  exact broadcastInDim_apply ![0] h1 v (ix2 b (0 : Fin 1)) (ix1 b) (fun a => by
    match a with
    | ⟨0, _⟩ => exact (if_neg (show ¬ ((4096 : Nat) = 1) by decide)).symm)

/-- A `[4096, 64]` array broadcast to `[4096, 64, 1]` and then to `[4096, 64, 32]`, at `(b, k, d)`. -/
theorem bcast_weight_apply (p : (⟨2, ![4096, 64]⟩ : Shape).Idx → α)
    (h1 : (⟨2, ![4096, 64]⟩ : Shape).BroadcastsInDim ⟨3, ![4096, 64, 1]⟩ ![0, 1])
    (h2 : (⟨3, ![4096, 64, 1]⟩ : Shape).BroadcastsInDim ⟨3, ![4096, 64, 32]⟩ ![0, 1, 2])
    (b : Fin 4096) (k : Fin 64) (d : Fin 32) :
    broadcastInDim ⟨3, ![4096, 64, 32]⟩ ![0, 1, 2] h2 (broadcastInDim ⟨3, ![4096, 64, 1]⟩ ![0, 1] h1 p) (ix3 b k d)
      = p (ix2 b k) := by
  rw [broadcastInDim_apply ![0, 1, 2] h2 _ (ix3 b k d) (ix3 b k (0 : Fin 1)) (fun a => by
    match a with
    | ⟨0, _⟩ => exact (if_neg (show ¬ ((4096 : Nat) = 1) by decide)).symm
    | ⟨1, _⟩ => exact (if_neg (show ¬ ((64 : Nat) = 1) by decide)).symm
    | ⟨2, _⟩ => exact (if_pos rfl).symm)]
  exact broadcastInDim_apply ![0, 1] h1 p (ix3 b k (0 : Fin 1)) (ix2 b k) (fun a => by
    match a with
    | ⟨0, _⟩ => exact (if_neg (show ¬ ((4096 : Nat) = 1) by decide)).symm
    | ⟨1, _⟩ => exact (if_neg (show ¬ ((64 : Nat) = 1) by decide)).symm)

/-- A `[4096, 64]` array of words broadcast to `[4096, 64, 1]`, at `(b, k, 0)`. -/
theorem bcast_idx3_apply (p : (⟨2, ![4096, 64]⟩ : Shape).Idx → α)
    (h1 : (⟨2, ![4096, 64]⟩ : Shape).BroadcastsInDim ⟨3, ![4096, 64, 1]⟩ ![0, 1]) (b : Fin 4096) (k : Fin 64) :
    broadcastInDim ⟨3, ![4096, 64, 1]⟩ ![0, 1] h1 p (ix3 b k (0 : Fin 1)) = p (ix2 b k) :=
  broadcastInDim_apply ![0, 1] h1 p (ix3 b k (0 : Fin 1)) (ix2 b k) (fun a => by
    match a with
    | ⟨0, _⟩ => exact (if_neg (show ¬ ((4096 : Nat) = 1) by decide)).symm
    | ⟨1, _⟩ => exact (if_neg (show ¬ ((64 : Nat) = 1) by decide)).symm)

/-- A `[4096]` array of words broadcast to `[4096, 1]`, at `(b, 0)`. -/
theorem bcast_idx2_apply (p : (⟨1, ![4096]⟩ : Shape).Idx → α)
    (h1 : (⟨1, ![4096]⟩ : Shape).BroadcastsInDim ⟨2, ![4096, 1]⟩ ![0]) (b : Fin 4096) :
    broadcastInDim ⟨2, ![4096, 1]⟩ ![0] h1 p (ix2 b (0 : Fin 1)) = p (ix1 b) :=
  broadcastInDim_apply ![0] h1 p (ix2 b (0 : Fin 1)) (ix1 b) (fun a => by
    match a with
    | ⟨0, _⟩ => exact (if_neg (show ¬ ((4096 : Nat) = 1) by decide)).symm)

/-- A `[32]` bias broadcast to `[1, 1, 32]` and then to `[4096, 64, 32]`, at `(b, k, d)`. -/
theorem bcast_bias_apply (v : (⟨1, ![32]⟩ : Shape).Idx → α)
    (h1 : (⟨1, ![32]⟩ : Shape).BroadcastsInDim ⟨3, ![1, 1, 32]⟩ ![2])
    (h2 : (⟨3, ![1, 1, 32]⟩ : Shape).BroadcastsInDim ⟨3, ![4096, 64, 32]⟩ ![0, 1, 2])
    (b : Fin 4096) (k : Fin 64) (d : Fin 32) :
    broadcastInDim ⟨3, ![4096, 64, 32]⟩ ![0, 1, 2] h2 (broadcastInDim ⟨3, ![1, 1, 32]⟩ ![2] h1 v) (ix3 b k d)
      = v (ix1 d) := by
  rw [broadcastInDim_apply ![0, 1, 2] h2 _ (ix3 b k d) (ix3 (0 : Fin 1) (0 : Fin 1) d) (fun a => by
    match a with
    | ⟨0, _⟩ => exact (if_pos rfl).symm
    | ⟨1, _⟩ => exact (if_pos rfl).symm
    | ⟨2, _⟩ => exact (if_neg (show ¬ ((32 : Nat) = 1) by decide)).symm)]
  exact broadcastInDim_apply ![2] h1 v (ix3 (0 : Fin 1) (0 : Fin 1) d) (ix1 d) (fun a => by
    match a with
    | ⟨0, _⟩ => exact (if_neg (show ¬ ((32 : Nat) = 1) by decide)).symm)

/-! ## Sums and the maximum -/

/-- The sum over the last axis of a `[4096, 64, 64]` array from a zero initial value, at `(b, k)`. -/
theorem sum_last64_apply (X : FVec Ideal ⟨3, ![4096, 64, 64]⟩ .f32)
    (h : (⟨3, ![4096, 64, 64]⟩ : Shape).ReducesTo [2] ⟨2, ![4096, 64]⟩) (hu : 0 < (⟨0, ![]⟩ : Shape).numel)
    (b : Fin 4096) (k : Fin 64) :
    Host.reduceAdd X (constant (F := Ideal) ⟨0, ![]⟩ .f32 0x00000000#32) h hu (ix2 b k)
      = ∑ e : Fin 64, X (ix3 b k e) := by
  show Ideal.hostReduceAdd h X (Ideal.ofBits .f32 0x00000000#32) (ix2 b k) = _
  rw [Ideal.hostReduceAdd_single h (by decide), Ideal.ofBits_zero_f32, zero_add]
  refine Finset.sum_congr rfl fun e _ => ?_
  exact congrArg X (funext fun a => Fin.ext (by match a with | ⟨0, _⟩ => rfl | ⟨1, _⟩ => rfl | ⟨2, _⟩ => rfl))

/-- The sum over the middle axis of a `[4096, 64, 32]` array from a zero initial value, at `(b, d)`. -/
theorem sum_mid64_apply (X : FVec Ideal ⟨3, ![4096, 64, 32]⟩ .f32)
    (h : (⟨3, ![4096, 64, 32]⟩ : Shape).ReducesTo [1] ⟨2, ![4096, 32]⟩) (hu : 0 < (⟨0, ![]⟩ : Shape).numel)
    (b : Fin 4096) (d : Fin 32) :
    Host.reduceAdd X (constant (F := Ideal) ⟨0, ![]⟩ .f32 0x00000000#32) h hu (ix2 b d)
      = ∑ k : Fin 64, X (ix3 b k d) := by
  show Ideal.hostReduceAdd h X (Ideal.ofBits .f32 0x00000000#32) (ix2 b d) = _
  rw [Ideal.hostReduceAdd_single h (by decide), Ideal.ofBits_zero_f32, zero_add]
  refine Finset.sum_congr rfl fun e _ => ?_
  exact congrArg X (funext fun a => Fin.ext (by match a with | ⟨0, _⟩ => rfl | ⟨1, _⟩ => rfl | ⟨2, _⟩ => rfl))

/-- The sum over the last axis of a `[4096, 64]` array from a zero initial value, at `b`. -/
theorem sum_row64_apply (X : FVec Ideal ⟨2, ![4096, 64]⟩ .f32)
    (h : (⟨2, ![4096, 64]⟩ : Shape).ReducesTo [1] ⟨1, ![4096]⟩) (hu : 0 < (⟨0, ![]⟩ : Shape).numel) (b : Fin 4096) :
    Host.reduceAdd X (constant (F := Ideal) ⟨0, ![]⟩ .f32 0x00000000#32) h hu (ix1 b)
      = ∑ k : Fin 64, X (ix2 b k) := by
  show Ideal.hostReduceAdd h X (Ideal.ofBits .f32 0x00000000#32) (ix1 b) = _
  rw [Ideal.hostReduceAdd_single h (by decide), Ideal.ofBits_zero_f32, zero_add]
  refine Finset.sum_congr rfl fun e _ => ?_
  exact congrArg X (funext fun a => Fin.ext (by match a with | ⟨0, _⟩ => rfl | ⟨1, _⟩ => rfl))

/-- The sum over the last axis of a `[4096, 32]` array from a zero initial value, at `b`. -/
theorem sum_row32_apply (X : FVec Ideal ⟨2, ![4096, 32]⟩ .f32)
    (h : (⟨2, ![4096, 32]⟩ : Shape).ReducesTo [1] ⟨1, ![4096]⟩) (hu : 0 < (⟨0, ![]⟩ : Shape).numel) (b : Fin 4096) :
    Host.reduceAdd X (constant (F := Ideal) ⟨0, ![]⟩ .f32 0x00000000#32) h hu (ix1 b)
      = ∑ d : Fin 32, X (ix2 b d) := by
  show Ideal.hostReduceAdd h X (Ideal.ofBits .f32 0x00000000#32) (ix1 b) = _
  rw [Ideal.hostReduceAdd_single h (by decide), Ideal.ofBits_zero_f32, zero_add]
  refine Finset.sum_congr rfl fun e _ => ?_
  exact congrArg X (funext fun a => Fin.ext (by match a with | ⟨0, _⟩ => rfl | ⟨1, _⟩ => rfl))

/-- The pattern of minus infinity is the bottom of the extended reals. -/
theorem ofBits_neg_inf_f32 : Ideal.ofBits .f32 0xFF800000#32 = ⊥ := by simp [Ideal.ofBits, Ideal.ieee]

/-- The maximum over the last axis of a `[4096, 64]` array from minus infinity, at `b`: the row's `rowMax`. -/
theorem max_row64_apply (S : FVec Ideal ⟨2, ![4096, 64]⟩ .f32)
    (h : (⟨2, ![4096, 64]⟩ : Shape).ReducesTo [1] ⟨1, ![4096]⟩) (hu : 0 < (⟨0, ![]⟩ : Shape).numel) (b : Fin 4096) :
    Host.reduce (FloatOps.maximumf (F := Ideal) (φ := .f32)) S (constant (F := Ideal) ⟨0, ![]⟩ .f32 0xFF800000#32) h hu (ix1 b)
      = RowSpec.rowMax (fun k => S (ix2 b k)) := by
  rw [Host.reduce_eq_fold_single (FloatOps.maximumf (F := Ideal) (φ := .f32)) S _ h (by decide) hu (ix1 b)]
  unfold RowSpec.rowMax
  have e0 : (constant (F := Ideal) ⟨0, ![]⟩ .f32 0xFF800000#32) (Shape.Idx.first hu) = (⊥ : EReal) := ofBits_neg_inf_f32
  rw [e0]
  have e1 : (S ∘ (by decide : (⟨2, ![4096, 64]⟩ : Shape).Reduces [1] ⟨1, ![4096]⟩).lift (ix1 b))
      = fun k : Fin 64 => S (ix2 b k) :=
    funext fun k => congrArg S (funext fun a => Fin.ext (by match a with | ⟨0, _⟩ => rfl | ⟨1, _⟩ => rfl))
  rw [e1]
  rfl

end Cert.HostRead

end
-- ==== Proof.HostDot.lean ====
import Idealize.ShloMosaic.PureOps.Ideal.Laws
import Idealize.ShloMosaic.Lib.ValueIdx
import Idealize.ShloMosaic.Lib.IdealHost

/-!
# The contractions read at an index

The contraction of the last axis of a `[4096, 64, n]` array with the last axis of a `[32, n]` matrix, at `(b, k, d)`:
the sum over `e` of the array at `(b, k, e)` times the matrix at `(d, e)`.
-/

noncomputable section

open scoped BigOperators

namespace Cert.HostRead

open Idealize.ShloMosaic Idealize.ShloMosaic.ValueIdx

/-- The dimension numbers of the contraction of a `[4096, 64, n]` array's last axis with a `[32, n]` matrix's. -/
abbrev dotDims (n : Nat)
    (wf : DotDims.WF ⟨3, ![4096, 64, n]⟩ ⟨2, ![32, n]⟩ ⟨3, ![4096, 64, 32]⟩ [2] [1] [0, 1] [0] [] []) :
    DotDims ⟨3, ![4096, 64, n]⟩ ⟨2, ![32, n]⟩ ⟨3, ![4096, 64, 32]⟩ where
  lhsContracting := [2]
  rhsContracting := [1]
  lhsNonContracting := [0, 1]
  rhsNonContracting := [0]
  lhsBatch := []
  rhsBatch := []
  wf := wf

section
variable (n : Nat) (wf : DotDims.WF ⟨3, ![4096, 64, n]⟩ ⟨2, ![32, n]⟩ ⟨3, ![4096, 64, 32]⟩ [2] [1] [0, 1] [0] [] [])

theorem lhs_0 (i : (⟨3, ![4096, 64, 32]⟩ : Shape).Idx) (q : (dotDims n wf).contr.Idx) :
    ((dotDims n wf).lhsIdx i q 0).val = (i 0).val := by
  unfold DotDims.lhsIdx
  rw [dif_neg (show ¬ (0 : Fin 3) ∈ ([] : List (Fin 3)) by decide),
    dif_pos (show (0 : Fin 3) ∈ ([0, 1] : List (Fin 3)) by decide)]
  rfl

theorem lhs_1 (i : (⟨3, ![4096, 64, 32]⟩ : Shape).Idx) (q : (dotDims n wf).contr.Idx) :
    ((dotDims n wf).lhsIdx i q 1).val = (i 1).val := by
  unfold DotDims.lhsIdx
  rw [dif_neg (show ¬ (1 : Fin 3) ∈ ([] : List (Fin 3)) by decide),
    dif_pos (show (1 : Fin 3) ∈ ([0, 1] : List (Fin 3)) by decide)]
  rfl

theorem lhs_2 (i : (⟨3, ![4096, 64, 32]⟩ : Shape).Idx) (q : (dotDims n wf).contr.Idx) :
    ((dotDims n wf).lhsIdx i q 2).val = (q ⟨0, (Nat.one_pos : 0 < 1)⟩).val :=
  (dotDims n wf).lhsIdx_val_of_single rfl i q

theorem rhs_0 (i : (⟨3, ![4096, 64, 32]⟩ : Shape).Idx) (q : (dotDims n wf).contr.Idx) :
    ((dotDims n wf).rhsIdx i q 0).val = (i 2).val := by
  unfold DotDims.rhsIdx
  rw [dif_neg (show ¬ (0 : Fin 2) ∈ ([] : List (Fin 2)) by decide),
    dif_pos (show (0 : Fin 2) ∈ ([0] : List (Fin 2)) by decide)]
  rfl

theorem rhs_1 (i : (⟨3, ![4096, 64, 32]⟩ : Shape).Idx) (q : (dotDims n wf).contr.Idx) :
    ((dotDims n wf).rhsIdx i q 1).val = (q ⟨0, (Nat.one_pos : 0 < 1)⟩).val :=
  (dotDims n wf).rhsIdx_val_of_single rfl i q

/-- The contraction read at `(b, k, d)`. -/
theorem dot_apply (X : FVec Ideal ⟨3, ![4096, 64, n]⟩ .f32) (W : FVec Ideal ⟨2, ![32, n]⟩ .f32)
    (b : Fin 4096) (k : Fin 64) (d : Fin 32) :
    Host.dotGeneral (dotDims n wf) none X W (ix3 b k d) = ∑ e : Fin n, X (ix3 b k e) * W (ix2 d e) := by
  simp only [Host.dotGeneral]
  rw [Ideal.dotGeneral_apply, ← Equiv.sum_comp (contrEquiv1 (dotDims n wf) n rfl rfl).symm]
  refine Finset.sum_congr rfl fun e _ => ?_
  have hk := contrEquiv1_symm_val (dotDims n wf) n rfl rfl e
  have el : (dotDims n wf).lhsIdx (ix3 b k d) ((contrEquiv1 (dotDims n wf) n rfl rfl).symm e) = ix3 b k e :=
    funext fun a => Fin.ext (by
      match a with
      | ⟨0, _⟩ => exact lhs_0 n wf _ _
      | ⟨1, _⟩ => exact lhs_1 n wf _ _
      | ⟨2, _⟩ => exact (lhs_2 n wf _ _).trans hk)
  have er : (dotDims n wf).rhsIdx (ix3 b k d) ((contrEquiv1 (dotDims n wf) n rfl rfl).symm e) = ix2 d e :=
    funext fun a => Fin.ext (by
      match a with
      | ⟨0, _⟩ => exact rhs_0 n wf _ _
      | ⟨1, _⟩ => exact (rhs_1 n wf _ _).trans hk)
  rw [el, er]

end

end Cert.HostRead

end
-- ==== Proof.HopValue.lean ====
import proofs.«169310_j21139829031662_1_alg».proof.Proof.RowSpec
import proofs.«169310_j21139829031662_1_alg».proof.Proof.GatherRows
import proofs.«169310_j21139829031662_1_alg».proof.Proof.HostOps
import proofs.«169310_j21139829031662_1_alg».proof.Proof.HostDot

/-!
# The per-hop chain of host operations, and its value

The chain of host operations that one hop applies to the gathered head, relation and tail embeddings, named piece by
piece as functions of whole arrays, and each piece read at an index: the rows a table gives at wrapped indices
(`rows3`, `rows2`), one hop's indices (`hopIdx`), the concatenation (`catArr`), the scores (`scoreArr`), the shifted
exponentials (`expArr`), and the attention-weighted sum of the recurrence's final states (`hopArr`). The last theorem,
`hop_value`, says the chain's result at `(b, d)` is the row specification's `hopRow` of example `b`'s embeddings.
-/

noncomputable section

open scoped BigOperators

namespace Cert.HostRead

open Idealize.ShloMosaic Idealize.ShloMosaic.ValueIdx

abbrev S_ : Shape := ⟨0, ![]⟩
abbrev S32 : Shape := ⟨1, ![32]⟩
abbrev S4096 : Shape := ⟨1, ![4096]⟩
abbrev S4096x1 : Shape := ⟨2, ![4096, 1]⟩
abbrev S4096x32 : Shape := ⟨2, ![4096, 32]⟩
abbrev S4096x64 : Shape := ⟨2, ![4096, 64]⟩
abbrev S32x64 : Shape := ⟨2, ![32, 64]⟩
abbrev S32x32 : Shape := ⟨2, ![32, 32]⟩
abbrev S1x1x32 : Shape := ⟨3, ![1, 1, 32]⟩
abbrev S1x4096x64 : Shape := ⟨3, ![1, 4096, 64]⟩
abbrev S2x4096x64 : Shape := ⟨3, ![2, 4096, 64]⟩
abbrev S4096x64x1 : Shape := ⟨3, ![4096, 64, 1]⟩
abbrev S4096x64x32 : Shape := ⟨3, ![4096, 64, 32]⟩
abbrev S4096x64x64 : Shape := ⟨3, ![4096, 64, 64]⟩

/-! ## The shape facts the operations take -/

theorem fb0 : S_.BroadcastsInDim S4096x64 (![] : Fin 0 → Fin S4096x64.rank) := by decide
theorem fb1 : S4096x64.BroadcastsInDim S4096x64x1 (![0, 1] : Fin 2 → Fin S4096x64x1.rank) := by decide
theorem fb2 : S_.BroadcastsInDim S4096 (![] : Fin 0 → Fin S4096.rank) := by decide
theorem fb3 : S4096.BroadcastsInDim S4096x1 (![0] : Fin 1 → Fin S4096x1.rank) := by decide
theorem fb4 : S4096x1.BroadcastsInDim S4096x64 (![0, 1] : Fin 2 → Fin S4096x64.rank) := by decide
theorem fb5 : S32.BroadcastsInDim S1x1x32 (![2] : Fin 1 → Fin S1x1x32.rank) := by decide
theorem fb6 : S1x1x32.BroadcastsInDim S4096x64x32 (![0, 1, 2] : Fin 3 → Fin S4096x64x32.rank) := by decide
theorem fb7 : S4096x64x1.BroadcastsInDim S4096x64x32 (![0, 1, 2] : Fin 3 → Fin S4096x64x32.rank) := by decide
theorem fr1 : S4096x64x32.ReducesTo [1] S4096x32 := by decide
theorem fr2 : S4096x64x64.ReducesTo [2] S4096x64 := by decide
theorem fr3 : S4096x64.ReducesTo [1] S4096 := by decide
theorem fr4 : S4096x32.ReducesTo [1] S4096 := by decide
theorem fhu : 0 < S_.numel := by decide
theorem fsc : S1x4096x64.ShapeCasts S4096x64 := by decide
theorem fcat : Shape.Concatenates [S4096x64x32, S4096x64x32] S4096x64x64 2 := by decide
theorem fd64 : DotDims.WF S4096x64x64 S32x64 S4096x64x32 [2] [1] [0, 1] [0] [] [] := by decide
theorem fd32 : DotDims.WF S4096x64x32 S32x32 S4096x64x32 [2] [1] [0, 1] [0] [] [] := by decide

/-! ## The pieces -/

/-- The scalar zero. -/
abbrev Z0 : FVec Ideal S_ .f32 := constant (F := Ideal) S_ .f32 0x00000000#32
/-- The scalar minus infinity. -/
abbrev NInf : FVec Ideal S_ .f32 := constant (F := Ideal) S_ .f32 0xFF800000#32

/-- A `[4096, 64]` array of indices with the negative ones wrapped by the table's height `N`. -/
def wrap2 (N : BitVec 32) (I : IVec S4096x64 32) : IVec S4096x64 32 :=
  select (cmpi .slt I (broadcastInDim S4096x64 ![] fb0 (constantI S_ 32 0#32)))
    (addi I (broadcastInDim S4096x64 ![] fb0 (constantI S_ 32 N))) I

/-- A `[4096]` array of indices with the negative ones wrapped by the table's height `N`. -/
def wrap1 (N : BitVec 32) (I : IVec S4096 32) : IVec S4096 32 :=
  select (cmpi .slt I (broadcastInDim S4096 ![] fb2 (constantI S_ 32 0#32)))
    (addi I (broadcastInDim S4096 ![] fb2 (constantI S_ 32 N))) I

theorem wrap2_apply (N : BitVec 32) (I : IVec S4096x64 32) (j : S4096x64.Idx) :
    wrap2 N I j = RowSpec.wrapIdx N (I j) := rfl

theorem wrap1_apply (N : BitVec 32) (I : IVec S4096 32) (j : S4096.Idx) :
    wrap1 N I j = RowSpec.wrapIdx N (I j) := rfl

/-- The rows of a table at a `[4096, 64]` array of indices. -/
def rows3 {N : Nat}
    (wf : GatherDims.WF ⟨2, ![N, 32]⟩ S4096x64x1 S4096x64x32 [2] [0] [] [0] [] 2 ![1, 32])
    (tbl : FVec Ideal ⟨2, ![N, 32]⟩ .f32) (I : IVec S4096x64 32) : FVec Ideal S4096x64x32 .f32 :=
  Host.gather (rowsDims3 N wf) tbl (broadcastInDim S4096x64x1 ![0, 1] fb1 (wrap2 (BitVec.ofNat 32 N) I))

/-- The rows of a table at a `[4096]` array of indices. -/
def rows2 {N : Nat}
    (wf : GatherDims.WF ⟨2, ![N, 32]⟩ S4096x1 S4096x32 [1] [0] [] [0] [] 1 ![1, 32])
    (tbl : FVec Ideal ⟨2, ![N, 32]⟩ .f32) (I : IVec S4096 32) : FVec Ideal S4096x32 .f32 :=
  Host.gather (rowsDims2 N wf) tbl (broadcastInDim S4096x1 ![0] fb3 (wrap1 (BitVec.ofNat 32 N) I))

theorem rows3_apply {N : Nat} (hN : 0 < N)
    (wf : GatherDims.WF ⟨2, ![N, 32]⟩ S4096x64x1 S4096x64x32 [2] [0] [] [0] [] 2 ![1, 32])
    (tbl : FVec Ideal ⟨2, ![N, 32]⟩ .f32) (I : IVec S4096x64 32) (b : Fin 4096) (k : Fin 64) (e : Fin 32) :
    rows3 wf tbl I (ix3 b k e) = RowSpec.tableRow hN tbl (I (ix2 b k)) e := by
  unfold rows3
  rw [gather_rows3_apply hN]
  have hi : broadcastInDim S4096x64x1 ![0, 1] fb1 (wrap2 (BitVec.ofNat 32 N) I) (ix3 b k (0 : Fin 1))
      = RowSpec.wrapIdx (BitVec.ofNat 32 N) (I (ix2 b k)) := by rw [bcast_idx3_apply, wrap2_apply]
  unfold RowSpec.tableRow RowSpec.rowIx
  refine congrArg tbl (congrArg (fun r : Fin N => ix2 r e) (Fin.ext ?_))
  show min _ (N - 1) = min _ (N - 1)
  rw [hi]

theorem rows2_apply {N : Nat} (hN : 0 < N)
    (wf : GatherDims.WF ⟨2, ![N, 32]⟩ S4096x1 S4096x32 [1] [0] [] [0] [] 1 ![1, 32])
    (tbl : FVec Ideal ⟨2, ![N, 32]⟩ .f32) (I : IVec S4096 32) (b : Fin 4096) (e : Fin 32) :
    rows2 wf tbl I (ix2 b e) = RowSpec.tableRow hN tbl (I (ix1 b)) e := by
  unfold rows2
  rw [gather_rows2_apply hN]
  have hi : broadcastInDim S4096x1 ![0] fb3 (wrap1 (BitVec.ofNat 32 N) I) (ix2 b (0 : Fin 1))
      = RowSpec.wrapIdx (BitVec.ofNat 32 N) (I (ix1 b)) := by rw [bcast_idx2_apply, wrap1_apply]
  unfold RowSpec.tableRow RowSpec.rowIx
  refine congrArg tbl (congrArg (fun r : Fin N => ix2 r e) (Fin.ext ?_))
  show min _ (N - 1) = min _ (N - 1)
  rw [hi]

/-- Hop `o`'s indices out of a `[2, 4096, 64]` array. -/
def hopIdx (o : Nat) (h : S2x4096x64.Slices ![o, 0, 0] S1x4096x64) (A : IVec S2x4096x64 32) : IVec S4096x64 32 :=
  shapeCast S4096x64 (extractStridedSlice S1x4096x64 ![o, 0, 0] A h) fsc

theorem hopIdx_apply (o : Nat) (ho : o < 2) (h : S2x4096x64.Slices ![o, 0, 0] S1x4096x64) (A : IVec S2x4096x64 32)
    (b : Fin 4096) (k : Fin 64) : hopIdx o h A (ix2 b k) = A (ix3 (⟨o, ho⟩ : Fin 2) b k) :=
  slice_hop_apply o ho A h fsc b k

/-- Two `[4096, 64, 32]` arrays side by side. -/
def catArr (A B : FVec Ideal S4096x64x32 .f32) : FVec Ideal S4096x64x64 .f32 :=
  concatenate S4096x64x64 2 [⟨S4096x64x32, A⟩, ⟨S4096x64x32, B⟩] fcat

theorem catArr_apply (A B : FVec Ideal S4096x64x32 .f32) (b : Fin 4096) (k : Fin 64) (e : Fin 64) :
    catArr A B (ix3 b k e) = RowSpec.cat (fun e' => A (ix3 b k e')) (fun e' => B (ix3 b k e')) e :=
  cat_apply A B fcat b k e

/-- The scores: the inner products along the last axis. -/
def scoreArr (X Y : FVec Ideal S4096x64x64 .f32) : FVec Ideal S4096x64 .f32 :=
  Host.reduceAdd (mulf X Y) Z0 fr2 fhu

theorem scoreArr_apply (X Y : FVec Ideal S4096x64x64 .f32) (b : Fin 4096) (k : Fin 64) :
    scoreArr X Y (ix2 b k) = ∑ e : Fin 64, X (ix3 b k e) * Y (ix3 b k e) := by
  unfold scoreArr
  rw [sum_last64_apply]
  rfl

/-- The exponentials of the scores shifted by their row maximum. -/
def expArr (S : FVec Ideal S4096x64 .f32) : FVec Ideal S4096x64 .f32 :=
  Host.exp (subf S (broadcastInDim S4096x64 ![0, 1] fb4 (broadcastInDim S4096x1 ![0] fb3
    (maximumf (broadcastInDim S4096 ![] fb2 NInf) (Host.reduce FloatOps.maximumf S NInf fr3 fhu)))))

theorem expArr_apply (S : FVec Ideal S4096x64 .f32) (b : Fin 4096) (k : Fin 64) :
    expArr S (ix2 b k) = Ideal.exp (S (ix2 b k) - RowSpec.rowMax (fun k' => S (ix2 b k'))) := by
  unfold expArr
  show Ideal.exp (S (ix2 b k) - (broadcastInDim S4096x64 ![0, 1] fb4 (broadcastInDim S4096x1 ![0] fb3
    (maximumf (broadcastInDim S4096 ![] fb2 NInf) (Host.reduce FloatOps.maximumf S NInf fr3 fhu)))) (ix2 b k)) = _
  rw [bcast_row_apply]
  show Ideal.exp (S (ix2 b k) - max (Ideal.ofBits .f32 0xFF800000#32)
    (Host.reduce FloatOps.maximumf S NInf fr3 fhu (ix1 b))) = _
  rw [max_row64_apply, ofBits_neg_inf_f32, max_bot_left]

/-- A `[32]` bias on every example and neighbour. -/
def biasArr (v : FVec Ideal S32 .f32) : FVec Ideal S4096x64x32 .f32 :=
  broadcastInDim S4096x64x32 ![0, 1, 2] fb6 (broadcastInDim S1x1x32 ![2] fb5 v)

theorem biasArr_apply (v : FVec Ideal S32 .f32) (b : Fin 4096) (k : Fin 64) (d : Fin 32) :
    biasArr v (ix3 b k d) = v (ix1 d) := bcast_bias_apply v fb5 fb6 b k d

/-- The attention weights on every coordinate: the exponentials over their row sums. -/
def piArr (E : FVec Ideal S4096x64 .f32) : FVec Ideal S4096x64x32 .f32 :=
  broadcastInDim S4096x64x32 ![0, 1, 2] fb7 (broadcastInDim S4096x64x1 ![0, 1] fb1
    (Host.divf E (broadcastInDim S4096x64 ![0, 1] fb4 (broadcastInDim S4096x1 ![0] fb3 (Host.reduceAdd E Z0 fr3 fhu)))))

theorem piArr_apply (E : FVec Ideal S4096x64 .f32) (b : Fin 4096) (k : Fin 64) (d : Fin 32) :
    piArr E (ix3 b k d) = Ideal.div (E (ix2 b k)) (∑ k' : Fin 64, E (ix2 b k')) := by
  unfold piArr
  rw [bcast_weight_apply, hostDivf_apply, bcast_row_apply, sum_row64_apply]

/-- The first step of the recurrence on every example and neighbour. -/
def step1Arr (X : FVec Ideal S4096x64x64 .f32) (wih : FVec Ideal S32x64 .f32) (bih bhh : FVec Ideal S32 .f32) :
    FVec Ideal S4096x64x32 .f32 :=
  Host.tanh (addf (addf (Host.dotGeneral (dotDims 64 fd64) none X wih) (biasArr bih)) (biasArr bhh))

theorem step1Arr_apply (X : FVec Ideal S4096x64x64 .f32) (wih : FVec Ideal S32x64 .f32) (bih bhh : FVec Ideal S32 .f32)
    (b : Fin 4096) (k : Fin 64) (j : Fin 32) :
    step1Arr X wih bih bhh (ix3 b k j)
      = Ideal.tanh ((∑ e : Fin 64, X (ix3 b k e) * wih (ix2 j e)) + bih (ix1 j) + bhh (ix1 j)) := by
  unfold step1Arr
  show Ideal.tanh (Host.dotGeneral (dotDims 64 fd64) none X wih (ix3 b k j) + biasArr bih (ix3 b k j)
    + biasArr bhh (ix3 b k j)) = _
  rw [dot_apply, biasArr_apply, biasArr_apply]

/-- The second step of the recurrence on every example and neighbour. -/
def step2Arr (X Y : FVec Ideal S4096x64x64 .f32) (wih : FVec Ideal S32x64 .f32) (whh : FVec Ideal S32x32 .f32)
    (bih bhh : FVec Ideal S32 .f32) : FVec Ideal S4096x64x32 .f32 :=
  Host.tanh (addf (addf (addf (Host.dotGeneral (dotDims 64 fd64) none Y wih)
    (Host.dotGeneral (dotDims 32 fd32) none (step1Arr X wih bih bhh) whh)) (biasArr bih)) (biasArr bhh))

theorem step2Arr_apply (X Y : FVec Ideal S4096x64x64 .f32) (wih : FVec Ideal S32x64 .f32) (whh : FVec Ideal S32x32 .f32)
    (bih bhh : FVec Ideal S32 .f32) (b : Fin 4096) (k : Fin 64) (d : Fin 32) :
    step2Arr X Y wih whh bih bhh (ix3 b k d)
      = Ideal.tanh ((((∑ e : Fin 64, Y (ix3 b k e) * wih (ix2 d e))
          + ∑ j : Fin 32, step1Arr X wih bih bhh (ix3 b k j) * whh (ix2 d j)) + bih (ix1 d)) + bhh (ix1 d)) := by
  unfold step2Arr
  show Ideal.tanh (((Host.dotGeneral (dotDims 64 fd64) none Y wih (ix3 b k d)
    + Host.dotGeneral (dotDims 32 fd32) none (step1Arr X wih bih bhh) whh (ix3 b k d)) + biasArr bih (ix3 b k d))
    + biasArr bhh (ix3 b k d)) = _
  rw [dot_apply, dot_apply, biasArr_apply, biasArr_apply]

/-- One hop's contribution on every example: the attention-weighted sum of the recurrence's final states. -/
def hopArr (E : FVec Ideal S4096x64 .f32) (X Y : FVec Ideal S4096x64x64 .f32) (wih : FVec Ideal S32x64 .f32)
    (whh : FVec Ideal S32x32 .f32) (bih bhh : FVec Ideal S32 .f32) : FVec Ideal S4096x32 .f32 :=
  Host.reduceAdd (mulf (piArr E) (step2Arr X Y wih whh bih bhh)) Z0 fr1 fhu

theorem hopArr_apply (E : FVec Ideal S4096x64 .f32) (X Y : FVec Ideal S4096x64x64 .f32) (wih : FVec Ideal S32x64 .f32)
    (whh : FVec Ideal S32x32 .f32) (bih bhh : FVec Ideal S32 .f32) (b : Fin 4096) (d : Fin 32) :
    hopArr E X Y wih whh bih bhh (ix2 b d)
      = ∑ k : Fin 64, piArr E (ix3 b k d) * step2Arr X Y wih whh bih bhh (ix3 b k d) := by
  unfold hopArr
  rw [sum_mid64_apply]
  rfl

/-- The sum of the seed rows on every example. -/
def seedArr {N : Nat}
    (wf : GatherDims.WF ⟨2, ![N, 32]⟩ S4096x64x1 S4096x64x32 [2] [0] [] [0] [] 2 ![1, 32])
    (tbl : FVec Ideal ⟨2, ![N, 32]⟩ .f32) (I : IVec S4096x64 32) : FVec Ideal S4096x32 .f32 :=
  Host.reduceAdd (rows3 wf tbl I) Z0 fr1 fhu

theorem seedArr_apply {N : Nat} (hN : 0 < N)
    (wf : GatherDims.WF ⟨2, ![N, 32]⟩ S4096x64x1 S4096x64x32 [2] [0] [] [0] [] 2 ![1, 32])
    (tbl : FVec Ideal ⟨2, ![N, 32]⟩ .f32) (I : IVec S4096x64 32) (b : Fin 4096) (d : Fin 32) :
    seedArr wf tbl I (ix2 b d) = ∑ k : Fin 64, RowSpec.tableRow hN tbl (I (ix2 b k)) d := by
  unfold seedArr
  rw [sum_mid64_apply]
  exact Finset.sum_congr rfl fun k _ => rows3_apply hN wf tbl I b k d

/-! ## The hop's value -/

/-- The chain applied to gathered head, relation and tail embeddings `H`, `R`, `T` is, at `(b, d)`, the row
    specification's hop of example `b`'s embeddings. -/
theorem hop_value (H R T : FVec Ideal S4096x64x32 .f32) (wih : FVec Ideal S32x64 .f32) (whh : FVec Ideal S32x32 .f32)
    (bih bhh : FVec Ideal S32 .f32) (b : Fin 4096) (d : Fin 32) :
    hopArr (expArr (scoreArr (catArr H R) (catArr T R))) (catArr H R) (catArr T R) wih whh bih bhh (ix2 b d)
      = RowSpec.hopRow (fun k e => H (ix3 b k e)) (fun k e => R (ix3 b k e)) (fun k e => T (ix3 b k e))
          (fun d e => wih (ix2 d e)) (fun d j => whh (ix2 d j)) (fun d => bih (ix1 d)) (fun d => bhh (ix1 d)) d := by
  rw [hopArr_apply]
  unfold RowSpec.hopRow
  refine Finset.sum_congr rfl fun k _ => ?_
  have hscore : ∀ k' : Fin 64, scoreArr (catArr H R) (catArr T R) (ix2 b k')
      = RowSpec.score (fun k e => H (ix3 b k e)) (fun k e => R (ix3 b k e)) (fun k e => T (ix3 b k e)) k' := by
    intro k'
    rw [scoreArr_apply]
    unfold RowSpec.score
    exact Finset.sum_congr rfl fun e _ => by rw [catArr_apply, catArr_apply]
  have hexp : ∀ k' : Fin 64, expArr (scoreArr (catArr H R) (catArr T R)) (ix2 b k')
      = Ideal.exp (RowSpec.score (fun k e => H (ix3 b k e)) (fun k e => R (ix3 b k e)) (fun k e => T (ix3 b k e)) k'
          - RowSpec.rowMax (RowSpec.score (fun k e => H (ix3 b k e)) (fun k e => R (ix3 b k e))
              (fun k e => T (ix3 b k e)))) := by
    intro k'
    rw [expArr_apply, hscore k']
    congr 2
    exact congrArg RowSpec.rowMax (funext hscore)
  have hstep1 : ∀ j : Fin 32, step1Arr (catArr H R) wih bih bhh (ix3 b k j)
      = RowSpec.step1 (fun k e => H (ix3 b k e)) (fun k e => R (ix3 b k e)) (fun d e => wih (ix2 d e))
          (fun d => bih (ix1 d)) (fun d => bhh (ix1 d)) k j := by
    intro j
    rw [step1Arr_apply]
    unfold RowSpec.step1
    congr 3
    exact Finset.sum_congr rfl fun e _ => by rw [catArr_apply]
  congr 1
  · rw [piArr_apply, hexp k]
    unfold RowSpec.softmax
    congr 1
    exact Finset.sum_congr rfl fun k' _ => hexp k'
  · rw [step2Arr_apply]
    unfold RowSpec.step2
    congr 4
    · exact Finset.sum_congr rfl fun e _ => by rw [catArr_apply]
    · exact Finset.sum_congr rfl fun j _ => by rw [hstep1 j]

end Cert.HostRead

end
-- ==== Proof.RefTerm.lean ====
import proofs.«169310_j21139829031662_1_alg».proof.Proof.Gen.ReferenceIdeal.Run
import proofs.«169310_j21139829031662_1_alg».proof.Proof.HopValue

/-!
# The reference's value

The reference's result, as its run states it (the composed term of the host operations over the argument arrays), is the
row specification `RowSpec.G` of the argument arrays. First the run's named intermediate arrays are recognised as the
pieces of the per-hop chain (`HostRead`), by unfolding names only; then the result is read at one example `b`, where
each hop is `HostRead.hop_value`, and each table row is `HostRead.rows3_apply` / `rows2_apply`.
-/

noncomputable section

open scoped BigOperators

namespace Cert.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

variable (V0 : Valuation τ sig (Elt Ideal))

/-! ## The run's named arrays are the chain's pieces -/

set_option maxRecDepth 8192 in
theorem v9_eq : res_main_v9 (F := Ideal) V0 = HostRead.hopIdx 0 slices_S2x4096x64_S1x4096x64_0_0_0 (V0 (Proc.devRef .tc main_arg3)) := rfl
set_option maxRecDepth 8192 in
theorem v18_eq : res_main_v18 (F := Ideal) V0 = HostRead.hopIdx 0 slices_S2x4096x64_S1x4096x64_0_0_0 (V0 (Proc.devRef .tc main_arg4)) := rfl
set_option maxRecDepth 8192 in
theorem v27_eq : res_main_v27 (F := Ideal) V0 = HostRead.hopIdx 0 slices_S2x4096x64_S1x4096x64_0_0_0 (V0 (Proc.devRef .tc main_arg5)) := rfl
set_option maxRecDepth 8192 in
theorem v74_eq : res_main_v74 (F := Ideal) V0 = HostRead.hopIdx 1 slices_S2x4096x64_S1x4096x64_1_0_0 (V0 (Proc.devRef .tc main_arg3)) := rfl
set_option maxRecDepth 8192 in
theorem v83_eq : res_main_v83 (F := Ideal) V0 = HostRead.hopIdx 1 slices_S2x4096x64_S1x4096x64_1_0_0 (V0 (Proc.devRef .tc main_arg4)) := rfl
set_option maxRecDepth 8192 in
theorem v92_eq : res_main_v92 (F := Ideal) V0 = HostRead.hopIdx 1 slices_S2x4096x64_S1x4096x64_1_0_0 (V0 (Proc.devRef .tc main_arg5)) := rfl

set_option maxRecDepth 8192 in
theorem v25_eq : res_main_v25 (F := Ideal) V0
    = HostRead.rows3 gather_S64x32_S4096x64x1_S4096x64x32_2_0_n_n_0_2_132_wf (V0 (Proc.devRef .tc main_arg7)) (res_main_v18 V0) := rfl
set_option maxRecDepth 8192 in
theorem v90_eq : res_main_v90 (F := Ideal) V0
    = HostRead.rows3 gather_S64x32_S4096x64x1_S4096x64x32_2_0_n_n_0_2_132_wf (V0 (Proc.devRef .tc main_arg7)) (res_main_v83 V0) := rfl

set_option maxRecDepth 8192 in
theorem v35_eq : res_main_v35 (F := Ideal) V0
    = HostRead.catArr (HostRead.rows3 gather_S500000x32_S4096x64x1_S4096x64x32_2_0_n_n_0_2_132_wf (V0 (Proc.devRef .tc main_arg6)) (res_main_v9 V0))
        (res_main_v25 V0) := rfl
set_option maxRecDepth 8192 in
theorem v36_eq : res_main_v36 (F := Ideal) V0
    = HostRead.catArr (HostRead.rows3 gather_S500000x32_S4096x64x1_S4096x64x32_2_0_n_n_0_2_132_wf (V0 (Proc.devRef .tc main_arg6)) (res_main_v27 V0))
        (res_main_v25 V0) := rfl
set_option maxRecDepth 8192 in
theorem v100_eq : res_main_v100 (F := Ideal) V0
    = HostRead.catArr (HostRead.rows3 gather_S500000x32_S4096x64x1_S4096x64x32_2_0_n_n_0_2_132_wf (V0 (Proc.devRef .tc main_arg6)) (res_main_v74 V0))
        (res_main_v90 V0) := rfl
set_option maxRecDepth 8192 in
theorem v101_eq : res_main_v101 (F := Ideal) V0
    = HostRead.catArr (HostRead.rows3 gather_S500000x32_S4096x64x1_S4096x64x32_2_0_n_n_0_2_132_wf (V0 (Proc.devRef .tc main_arg6)) (res_main_v92 V0))
        (res_main_v90 V0) := rfl

set_option maxRecDepth 8192 in
theorem v38_eq : res_main_v38 (F := Ideal) V0 = HostRead.scoreArr (res_main_v35 V0) (res_main_v36 V0) := rfl
set_option maxRecDepth 8192 in
theorem v103_eq : res_main_v103 (F := Ideal) V0 = HostRead.scoreArr (res_main_v100 V0) (res_main_v101 V0) := rfl
set_option maxRecDepth 8192 in
theorem v45_eq : res_main_v45 (F := Ideal) V0 = HostRead.expArr (res_main_v38 V0) := rfl
set_option maxRecDepth 8192 in
theorem v110_eq : res_main_v110 (F := Ideal) V0 = HostRead.expArr (res_main_v103 V0) := rfl

set_option maxRecDepth 8192 in
theorem v161_eq : res_main_v161 (F := Ideal) V0
    = mulf (addf (addf (addf
          (HostRead.seedArr gather_S500000x32_S4096x64x1_S4096x64x32_2_0_n_n_0_2_132_wf (V0 (Proc.devRef .tc main_arg6)) (V0 (Proc.devRef .tc main_arg2)))
          (HostRead.hopArr (res_main_v45 V0) (res_main_v35 V0) (res_main_v36 V0) (V0 (Proc.devRef .tc main_arg10)) (V0 (Proc.devRef .tc main_arg11)) (V0 (Proc.devRef .tc main_arg12)) (V0 (Proc.devRef .tc main_arg13))))
          (HostRead.hopArr (res_main_v110 V0) (res_main_v100 V0) (res_main_v101 V0) (V0 (Proc.devRef .tc main_arg10)) (V0 (Proc.devRef .tc main_arg11)) (V0 (Proc.devRef .tc main_arg12)) (V0 (Proc.devRef .tc main_arg13))))
          (HostRead.rows2 gather_S100000x32_S4096x1_S4096x32_1_0_n_n_0_1_132_wf (V0 (Proc.devRef .tc main_arg8)) (V0 (Proc.devRef .tc main_arg0))))
        (addf (HostRead.rows2 gather_S500000x32_S4096x1_S4096x32_1_0_n_n_0_1_132_wf (V0 (Proc.devRef .tc main_arg6)) (V0 (Proc.devRef .tc main_arg1)))
          (HostRead.rows2 gather_S200000x32_S4096x1_S4096x32_1_0_n_n_0_1_132_wf (V0 (Proc.devRef .tc main_arg9)) (V0 (Proc.devRef .tc main_arg1)))) := rfl

/-! ## One hop of the reference at an example -/

theorem hop0_eq (b : Fin 4096) (d : Fin 32) :
    HostRead.hopArr (res_main_v45 (F := Ideal) V0) (res_main_v35 V0) (res_main_v36 V0) (V0 (Proc.devRef .tc main_arg10)) (V0 (Proc.devRef .tc main_arg11)) (V0 (Proc.devRef .tc main_arg12)) (V0 (Proc.devRef .tc main_arg13)) (ix2 b d)
      = RowSpec.hopOf (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) 0 b d := by
  rw [v45_eq, v38_eq, v35_eq, v36_eq, HostRead.hop_value]
  unfold RowSpec.hopOf
  have eh : (fun k e => HostRead.rows3 gather_S500000x32_S4096x64x1_S4096x64x32_2_0_n_n_0_2_132_wf (V0 (Proc.devRef .tc main_arg6)) (res_main_v9 V0) (ix3 b k e))
      = fun k => RowSpec.tableRow (by decide : 0 < 500000) (V0 (Proc.devRef .tc main_arg6)) ((V0 (Proc.devRef .tc main_arg3)) (ix3 (0 : Fin 2) b k)) :=
    funext fun k => funext fun e => by
      rw [HostRead.rows3_apply (by decide : 0 < 500000), v9_eq, HostRead.hopIdx_apply 0 (by decide)]
      rfl
  have er : (fun k e => res_main_v25 (F := Ideal) V0 (ix3 b k e))
      = fun k => RowSpec.tableRow (by decide : 0 < 64) (V0 (Proc.devRef .tc main_arg7)) ((V0 (Proc.devRef .tc main_arg4)) (ix3 (0 : Fin 2) b k)) :=
    funext fun k => funext fun e => by
      rw [v25_eq, HostRead.rows3_apply (by decide : 0 < 64), v18_eq, HostRead.hopIdx_apply 0 (by decide)]
      rfl
  have et : (fun k e => HostRead.rows3 gather_S500000x32_S4096x64x1_S4096x64x32_2_0_n_n_0_2_132_wf (V0 (Proc.devRef .tc main_arg6)) (res_main_v27 V0) (ix3 b k e))
      = fun k => RowSpec.tableRow (by decide : 0 < 500000) (V0 (Proc.devRef .tc main_arg6)) ((V0 (Proc.devRef .tc main_arg5)) (ix3 (0 : Fin 2) b k)) :=
    funext fun k => funext fun e => by
      rw [HostRead.rows3_apply (by decide : 0 < 500000), v27_eq, HostRead.hopIdx_apply 0 (by decide)]
      rfl
  rw [eh, er, et]

theorem hop1_eq (b : Fin 4096) (d : Fin 32) :
    HostRead.hopArr (res_main_v110 (F := Ideal) V0) (res_main_v100 V0) (res_main_v101 V0) (V0 (Proc.devRef .tc main_arg10)) (V0 (Proc.devRef .tc main_arg11)) (V0 (Proc.devRef .tc main_arg12)) (V0 (Proc.devRef .tc main_arg13)) (ix2 b d)
      = RowSpec.hopOf (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) 1 b d := by
  rw [v110_eq, v103_eq, v100_eq, v101_eq, HostRead.hop_value]
  unfold RowSpec.hopOf
  have eh : (fun k e => HostRead.rows3 gather_S500000x32_S4096x64x1_S4096x64x32_2_0_n_n_0_2_132_wf (V0 (Proc.devRef .tc main_arg6)) (res_main_v74 V0) (ix3 b k e))
      = fun k => RowSpec.tableRow (by decide : 0 < 500000) (V0 (Proc.devRef .tc main_arg6)) ((V0 (Proc.devRef .tc main_arg3)) (ix3 (1 : Fin 2) b k)) :=
    funext fun k => funext fun e => by
      rw [HostRead.rows3_apply (by decide : 0 < 500000), v74_eq, HostRead.hopIdx_apply 1 (by decide)]
      rfl
  have er : (fun k e => res_main_v90 (F := Ideal) V0 (ix3 b k e))
      = fun k => RowSpec.tableRow (by decide : 0 < 64) (V0 (Proc.devRef .tc main_arg7)) ((V0 (Proc.devRef .tc main_arg4)) (ix3 (1 : Fin 2) b k)) :=
    funext fun k => funext fun e => by
      rw [v90_eq, HostRead.rows3_apply (by decide : 0 < 64), v83_eq, HostRead.hopIdx_apply 1 (by decide)]
      rfl
  have et : (fun k e => HostRead.rows3 gather_S500000x32_S4096x64x1_S4096x64x32_2_0_n_n_0_2_132_wf (V0 (Proc.devRef .tc main_arg6)) (res_main_v92 V0) (ix3 b k e))
      = fun k => RowSpec.tableRow (by decide : 0 < 500000) (V0 (Proc.devRef .tc main_arg6)) ((V0 (Proc.devRef .tc main_arg5)) (ix3 (1 : Fin 2) b k)) :=
    funext fun k => funext fun e => by
      rw [HostRead.rows3_apply (by decide : 0 < 500000), v92_eq, HostRead.hopIdx_apply 1 (by decide)]
      rfl
  rw [eh, er, et]

/-! ## The whole result -/

/-- The run's composed term of the result is the row specification of the argument arrays. -/
theorem value :
    Host.divf (broadcastInDim S4096 ![] bcast_S_S4096 (constant (F := Ideal) S_ .f32 0x3F800000#32))
        (addf (broadcastInDim S4096 ![] bcast_S_S4096 (constant (F := Ideal) S_ .f32 0x3F800000#32))
          (Host.exp (Host.negf (Host.reduceAdd (res_main_v161 (F := Ideal) V0) (constant (F := Ideal) S_ .f32 0x00000000#32)
            reducesTo_S4096x32_S4096_d1 h_S_))))
      = RowSpec.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  funext j
  obtain ⟨b, rfl⟩ : ∃ b : Fin 4096, j = ix1 b :=
    ⟨⟨(j 0).val, (j 0).isLt⟩, funext fun a => by match a with | ⟨0, _⟩ => rfl⟩
  rw [RowSpec.G_ix1]
  show Ideal.div (Ideal.ofBits .f32 0x3F800000#32) (Ideal.ofBits .f32 0x3F800000#32
    + Ideal.exp (-(Host.reduceAdd (res_main_v161 (F := Ideal) V0) (constant (F := Ideal) S_ .f32 0x00000000#32)
        reducesTo_S4096x32_S4096_d1 h_S_ (ix1 b)))) = _
  rw [Ideal.ofBits_one_f32, HostRead.sum_row32_apply]
  unfold RowSpec.Grow RowSpec.finalScore
  congr 4
  refine Finset.sum_congr rfl fun d _ => ?_
  rw [v161_eq]
  show (((HostRead.seedArr gather_S500000x32_S4096x64x1_S4096x64x32_2_0_n_n_0_2_132_wf (V0 (Proc.devRef .tc main_arg6)) (V0 (Proc.devRef .tc main_arg2)) (ix2 b d)
      + HostRead.hopArr (res_main_v45 V0) (res_main_v35 V0) (res_main_v36 V0) (V0 (Proc.devRef .tc main_arg10)) (V0 (Proc.devRef .tc main_arg11)) (V0 (Proc.devRef .tc main_arg12)) (V0 (Proc.devRef .tc main_arg13)) (ix2 b d))
      + HostRead.hopArr (res_main_v110 V0) (res_main_v100 V0) (res_main_v101 V0) (V0 (Proc.devRef .tc main_arg10)) (V0 (Proc.devRef .tc main_arg11)) (V0 (Proc.devRef .tc main_arg12)) (V0 (Proc.devRef .tc main_arg13)) (ix2 b d))
      + HostRead.rows2 gather_S100000x32_S4096x1_S4096x32_1_0_n_n_0_1_132_wf (V0 (Proc.devRef .tc main_arg8)) (V0 (Proc.devRef .tc main_arg0)) (ix2 b d))
    * (HostRead.rows2 gather_S500000x32_S4096x1_S4096x32_1_0_n_n_0_1_132_wf (V0 (Proc.devRef .tc main_arg6)) (V0 (Proc.devRef .tc main_arg1)) (ix2 b d)
      + HostRead.rows2 gather_S200000x32_S4096x1_S4096x32_1_0_n_n_0_1_132_wf (V0 (Proc.devRef .tc main_arg9)) (V0 (Proc.devRef .tc main_arg1)) (ix2 b d)) = _
  rw [hop0_eq, hop1_eq, HostRead.seedArr_apply (by decide : 0 < 500000), HostRead.rows2_apply (by decide : 0 < 100000),
    HostRead.rows2_apply (by decide : 0 < 500000), HostRead.rows2_apply (by decide : 0 < 200000)]
  rfl

end Cert.RefValue

end
-- ==== Proof.RefValue.lean ====
import proofs.«169310_j21139829031662_1_alg».proof.Defs
import proofs.«169310_j21139829031662_1_alg».proof.Proof.Gen.ReferenceIdeal
import proofs.«169310_j21139829031662_1_alg».proof.Proof.Gen.Pre_finite_inputs
import proofs.«169310_j21139829031662_1_alg».proof.Proof.RefTerm

/-!
# The reference's run

Every weakly fair execution of the reference terminates with its result the row specification `RowSpec.G` of its
argument arrays and the arguments unchanged (`run_G`); dropping the result gives its frame (`frame_ri`).
-/

noncomputable section

namespace Cert.RefValue

open Idealize.ShloMosaic Idealize.SL.Sem Idealize.ShloMosaic.StableHlo

/-- The reference runs to the end and leaves its arguments unchanged. -/
theorem frame_ri : Cert.frame_ReferenceIdeal := fun m ρ _ =>
  (θ_run (Cert.ReferenceIdeal.defs (F := Ideal)) _ _).mono (fun _ h c => (h c).2)
    (Cert.ReferenceIdeal.Value.run (F := Ideal) m ρ)

set_option maxRecDepth 8192 in
/-- The reference runs to the end with its result the row specification of its arguments, which it leaves unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v168) = Cert.RowSpec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
            (m ((c.tc : Thread Cert.ReferenceIdeal.nD Cert.ReferenceIdeal.τ).loc Cert.ReferenceIdeal.main_arg11))
            (m ((c.tc : Thread Cert.ReferenceIdeal.nD Cert.ReferenceIdeal.τ).loc Cert.ReferenceIdeal.main_arg12))
            (m ((c.tc : Thread Cert.ReferenceIdeal.nD Cert.ReferenceIdeal.τ).loc Cert.ReferenceIdeal.main_arg13))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)) :=
  (θ_run (Cert.ReferenceIdeal.defs (F := Ideal)) _ _).mono
    (fun _ h c => ⟨(h c).1.trans (value (launchContents m c)), (h c).2⟩)
    (Cert.ReferenceIdeal.Value.run (F := Ideal) m ρ)

end Cert.RefValue

end
-- ==== Proof.lean ====
/-
  The certificate's five claims.  Both printed kernel programs (word-level and idealized) are the
  same text, so one frame argument, generic in the float instance, serves both: @main is the host
  gathers, the seed-pooling region, the attention / recurrent region and the host epilogue, run as
  four segments; the arguments end as launched.  The ideal pass rewrote nothing, so `preserves` is
  trivial.  For `algebraic`, the idealized kernel's result buffer ends at the row specification
  `G` of the argument arrays (the regions' blocks read back as whole arrays, then the epilogue),
  and so does the reference's; the memories agree on the arguments.
-/
import proofs.«169310_j21139829031662_1_alg».proof.Defs
import proofs.«169310_j21139829031662_1_alg».proof.Proof.Gen.Kernel
import proofs.«169310_j21139829031662_1_alg».proof.Proof.Gen.KernelIdeal
import proofs.«169310_j21139829031662_1_alg».proof.Proof.Gen.ReferenceIdeal
import proofs.«169310_j21139829031662_1_alg».proof.Proof.Gen.Pre_finite_inputs
import proofs.«169310_j21139829031662_1_alg».proof.Proof.KBFrame
import proofs.«169310_j21139829031662_1_alg».proof.Proof.KIFrame
import proofs.«169310_j21139829031662_1_alg».proof.Proof.KIValue
import proofs.«169310_j21139829031662_1_alg».proof.Proof.RefValue

noncomputable section

namespace Cert.Proof

open Idealize.ShloMosaic Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := Cert.RefValue.frame_ri

theorem preserves : Cert.preserves_Kernel_KernelIdeal := trivial

theorem algebraic : Cert.algebraic_KernelIdeal_ReferenceIdeal := by
  intro m ρ m' ρ' _ hagree
  refine ⟨fun c => Cert.RowSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Hand.kernel_value m c), (h c).2⟩)
      (Cert.KernelIdeal.Hand.run_value (F := Ideal) m ρ)
  · refine (θ_run Cert.ReferenceIdeal.defs _ _).mono (fun r h c => ⟨(h c).1.trans ?_, (h c).2⟩)
      (Cert.RefValue.run_G m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
